-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x768x24x24 : Shape := ⟨4, ![128, 768, 24, 24]⟩
abbrev S100x768 : Shape := ⟨2, ![100, 768]⟩
abbrev S768 : Shape := ⟨1, ![768]⟩
abbrev S_ : Shape := ⟨0, ![]⟩

class Facts : Prop where
  bcast_S_S128x768x24x24 : S_.BroadcastsInDim S128x768x24x24 (![] : Fin 0 → Fin S128x768x24x24.rank)
  reducesTo_S128x768x24x24_S_d0_1_2_3 : S128x768x24x24.ReducesTo [0, 1, 2, 3] S_
  h_S_ : 0 < S_.numel
  bcast_S_S100x768 : S_.BroadcastsInDim S100x768 (![] : Fin 0 → Fin S100x768.rank)
  reducesTo_S100x768_S_d0_1 : S100x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S128x768x24x24 .f32) (main_arg1 : FVec F S100x768 .f32) (main_arg2 : FVec F S100x768 .f32) (main_arg3 : FVec F S768 .f32) (main_arg4 : FVec F S768 .f32) : IVec S_ 1 :=
  let main_v0 : FVec F S128x768x24x24 .f32 := Host.absf main_arg0
  let main_cst : FVec F S_ .f32 := constant S_ .f32 0x7F800000#32
  let main_v1 : FVec F S128x768x24x24 .f32 := broadcastInDim S128x768x24x24 ![] bcast_S_S128x768x24x24 main_cst
  let main_v2 : IVec S128x768x24x24 1 := cmpf .olt main_v0 main_v1
  let main_c : IVec S_ 1 := constantI S_ 1 1#1
  let main_v3 : IVec S_ 1 := (fun x v => Host.reduce IntOp.andi x v reducesTo_S128x768x24x24_S_d0_1_2_3 h_S_) main_v2 main_c
  let main_v4 : FVec F S100x768 .f32 := Host.absf main_arg1
  let main_cst_0 : FVec F S_ .f32 := constant S_ .f32 0x7F800000#32
  let main_v5 : FVec F S100x768 .f32 := broadcastInDim S100x768 ![] bcast_S_S100x768 main_cst_0
  let main_v6 : IVec S100x768 1 := cmpf .olt main_v4 main_v5
  let main_c_1 : IVec S_ 1 := constantI S_ 1 1#1
  let main_v7 : IVec S_ 1 := (fun x v => Host.reduce IntOp.andi x v reducesTo_S100x768_S_d0_1 h_S_) main_v6 main_c_1
  let main_v8 : IVec S_ 1 := andi main_v3 main_v7
  let main_v9 : FVec F S100x768 .f32 := Host.absf main_arg2
  let main_cst_2 : FVec F S_ .f32 := constant S_ .f32 0x7F800000#32
  let main_v10 : FVec F S100x768 .f32 := broadcastInDim S100x768 ![] bcast_S_S100x768 main_cst_2
  let main_v11 : IVec S100x768 1 := cmpf .olt main_v9 main_v10
  let main_c_3 : IVec S_ 1 := constantI S_ 1 1#1
  let main_v12 : IVec S_ 1 := (fun x v => Host.reduce IntOp.andi x v reducesTo_S100x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_v13 main_v16
-- ==== Kernel.lean ====
abbrev S128x768x24x24 : Shape := ⟨4, ![128, 768, 24, 24]⟩
abbrev S100x768 : Shape := ⟨2, ![100, 768]⟩
abbrev S768 : Shape := ⟨1, ![768]⟩
abbrev S128x24x24x768 : Shape := ⟨4, ![128, 24, 24, 768]⟩
abbrev S128x576x768 : Shape := ⟨3, ![128, 576, 768]⟩
abbrev S24x768 : Shape := ⟨2, ![24, 768]⟩
abbrev S768x24 : Shape := ⟨2, ![768, 24]⟩
abbrev S24x1x768 : Shape := ⟨3, ![24, 1, 768]⟩
abbrev S1x24x768 : Shape := ⟨3, ![1, 24, 768]⟩
abbrev S24x24x768 : Shape := ⟨3, ![24, 24, 768]⟩
abbrev S576x768 : Shape := ⟨2, ![576, 768]⟩
abbrev S1x768 : Shape := ⟨2, ![1, 768]⟩
abbrev S8x576x768 : Shape := ⟨3, ![8, 576, 768]⟩
abbrev S1x576x768 : Shape := ⟨3, ![1, 576, 768]⟩
abbrev S4x576x768 : Shape := ⟨3, ![4, 576, 768]⟩
abbrev S1x1x768 : Shape := ⟨3, ![1, 1, 768]⟩

abbrev nBuf : Space → Nat
  | .hbm => 26
  | .vmem => 16
  | .smem => 0
  | _ => 0

abbrev bufTy : (tb : Table) → Fin (tcTables nBuf tb) → BufTy
  | .hbm, ⟨0, _⟩ => ⟨S128x768x24x24, .f32⟩
  | .hbm, ⟨1, _⟩ => ⟨S100x768, .f32⟩
  | .hbm, ⟨2, _⟩ => ⟨S100x768, .f32⟩
  | .hbm, ⟨3, _⟩ => ⟨S768, .f32⟩
  | .hbm, ⟨4, _⟩ => ⟨S768, .f32⟩
  | .hbm, ⟨5, _⟩ => ⟨S128x24x24x768, .f32⟩
  | .hbm, ⟨6, _⟩ => ⟨S128x576x768, .f32⟩
  | .hbm, ⟨7, _⟩ => ⟨S24x768, .f32⟩
  | .hbm, ⟨8, _⟩ => ⟨S768x24, .f32⟩
  | .hbm, ⟨9, _⟩ => ⟨S24x768, .f32⟩
  | .hbm, ⟨10, _⟩ => ⟨S24x768, .f32⟩
  | .hbm, ⟨11, _⟩ => ⟨S768x24, .f32⟩
  | .hbm, ⟨12, _⟩ => ⟨S24x768, .f32⟩
  | .hbm, ⟨13, _⟩ => ⟨S24x1x768, .f32⟩
  | .hbm, ⟨14, _⟩ => ⟨S1x24x768, .f32⟩
  | .hbm, ⟨15, _⟩ => ⟨S24x24x768, .f32⟩
  | .hbm, ⟨16, _⟩ => ⟨S24x24x768, .f32⟩
  | .hbm, ⟨17, _⟩ => ⟨S24x24x768, .f32⟩
  | .hbm, ⟨18, _⟩ => ⟨S576x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S1x768, .f32⟩
  | .hbm, ⟨23, _⟩ => ⟨S128x576x768, .f32⟩
  | .hbm, ⟨24, _⟩ => ⟨S128x24x24x768, .f32⟩
  | .hbm, ⟨25, _⟩ => ⟨S128x768x24x24, .f32⟩
  | .local _ .vmem, ⟨0, _⟩ => ⟨S8x576x768, .f32⟩
  | .local _ .vmem, ⟨1, _⟩ => ⟨S8x576x768, .f32⟩
  | .local _ .vmem, ⟨2, _⟩ => ⟨S576x768, .f32⟩
  | .local _ .vmem, ⟨3, _⟩ => ⟨S1x768, .f32⟩
  | .local _ .vmem, ⟨4, _⟩ => ⟨S1x768, .f32⟩
  | .local _ .vmem, ⟨5, _⟩ => ⟨S4x576x768, .f32⟩
  | .local _ .vmem, ⟨6, _⟩ => ⟨S4x576x768, .f32⟩
  | .local _ .vmem, ⟨7, _⟩ => ⟨S576x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S4x576x768, .f32⟩
  | .local _ .vmem, ⟨13, _⟩ => ⟨S4x576x768, .f32⟩
  | .local _ .vmem, ⟨14, _⟩ => ⟨S1x768, .f32⟩
  | .local _ .vmem, ⟨15, _⟩ => ⟨S576x768, .f32⟩
  | _, _ => ⟨S128x768x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_v16_0 : Ref sig .tc := ⟨.hbm, 21, rfl⟩
abbrev main_call0_v16_1 : Ref sig .tc := ⟨.hbm, 22, rfl⟩
abbrev main_call0_v17 : Ref sig .tc := ⟨.hbm, 23, rfl⟩
abbrev main_call0_v18 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_5 : BitVec 32 := 0#32
  let v14 : BitVec 1 := Scalar.cmpi .ne v13 c0_i32_5
  v14

def k0_cond2 (i : grid0.Coords) : BitVec 1 :=
  let arg0 : BitVec 32 := BitVec.ofNat 32 (i 0).val
  let c0_i32_6 : BitVec 32 := 0#32
  let v15 : BitVec 1 := Scalar.cmpi .ne arg0 c0_i32_6
  let v16 : BitVec 32 := Scalar.extui v15
  let c0_i32_7 : BitVec 32 := 0#32
  let v17 : BitVec 1 := Scalar.cmpi .ne v16 c0_i32_7
  v17

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x576x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x576x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S576x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4x576x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S128x768x24x24_S128x24x24x768_0_2_3_1 : S128x768x24x24.Transposes [0, 2, 3, 1] S128x24x24x768
  shapeCasts_S128x24x24x768_S128x576x768 : S128x24x24x768.ShapeCasts S128x576x768
  slices_S100x768_S24x768_0_0 : S100x768.Slices ![0, 0] S24x768
  shapeCasts_S24x768_S768x24 : S24x768.ShapeCasts S768x24
  transposes_S768x24_S24x768_1_0 : S768x24.Transposes [1, 0] S24x768
  bcast_S24x768_S24x1x768_0_2 : S24x768.BroadcastsInDim S24x1x768 (![0, 2] : Fin 2 → Fin S24x1x768.rank)
  bcast_S24x768_S1x24x768_1_2 : S24x768.BroadcastsInDim S1x24x768 (![1, 2] : Fin 2 → Fin S1x24x768.rank)
  bcast_S24x1x768_S24x24x768_0_1_2 : S24x1x768.BroadcastsInDim S24x24x768 (![0, 1, 2] : Fin 3 → Fin S24x24x768.rank)
  bcast_S1x24x768_S24x24x768_0_1_2 : S1x24x768.BroadcastsInDim S24x24x768 (![0, 1, 2] : Fin 3 → Fin S24x24x768.rank)
  shapeCasts_S24x24x768_S576x768 : S24x24x768.ShapeCasts S576x768
  shapeCasts_S768_S1x768 : S768.ShapeCasts S1x768
  shapeCasts_S128x576x768_S128x24x24x768 : S128x576x768.ShapeCasts S128x24x24x768
  transposes_S128x24x24x768_S128x768x24x24_0_3_1_2 : S128x24x24x768.Transposes [0, 3, 1, 2] S128x768x24x24
  inb_S8x576x768_S8x576x768_0_0_0 : ∀ a, (![0, 0, 0] : Fin 3 → Nat) a + S8x576x768.size a ≤ S8x576x768.size a
  h_S8x576x768 : 0 < S8x576x768.numel
  shapeCasts_S8x576x768_S8x576x768 : S8x576x768.ShapeCasts S8x576x768
  inb_S576x768_S576x768_0_0 : ∀ a, (![0, 0] : Fin 2 → Nat) a + S576x768.size a ≤ S576x768.size a
  h_S576x768 : 0 < S576x768.numel
  shapeCasts_S576x768_S576x768 : S576x768.ShapeCasts S576x768
  shapeCasts_S576x768_S1x576x768 : S576x768.ShapeCasts S1x576x768
  broadcasts_S1x576x768_S8x576x768 : S1x576x768.Broadcasts S8x576x768
  reduces_S8x576x768_S768 : S8x576x768.Reduces [0, 1] S768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S576x768 : S1x768.Broadcasts S576x768
  inb_S4x576x768_S4x576x768_0_0_0 : ∀ a, (![0, 0, 0] : Fin 3 → Nat) a + S4x576x768.size a ≤ S4x576x768.size a
  h_S4x576x768 : 0 < S4x576x768.numel
  shapeCasts_S4x576x768_S4x576x768 : S4x576x768.ShapeCasts S4x576x768
  shapeCasts_S1x768_S1x1x768 : S1x768.ShapeCasts S1x1x768
  broadcasts_S1x1x768_S4x576x768 : S1x1x768.Broadcasts S4x576x768
  broadcasts_S1x576x768_S4x576x768 : S1x576x768.Broadcasts S4x576x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x576x768.size a ≤ S128x576x768.size a
  hwx0_0 : ∀ i : grid0.Coords, EltTy.bits .f32 = 32 ∨ (Rect.block (s := S128x576x768) S8x576x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x768.size a ≤ S576x768.size a
  hwx0_1 : ∀ i : grid0.Coords, EltTy.bits .f32 = 32 ∨ (Rect.block (s := S576x768) S576x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x576x768.size a ≤ S128x576x768.size a
  hwx1_0 : ∀ i : grid1.Coords, EltTy.bits .f32 = 32 ∨ (Rect.block (s := S128x576x768) S4x576x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576x768.size a ≤ S576x768.size a
  hwx1_1 : ∀ i : grid1.Coords, EltTy.bits .f32 = 32 ∨ (Rect.block (s := S576x768) S576x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4x576x768.size a ≤ S128x576x768.size a
  hwx1_6 : ∀ i : grid1.Coords, EltTy.bits .f32 = 32 ∨ (Rect.block (s := S128x576x768) S4x576x768.size (cc1_transform_6 i) (hinb1_6 i)).WholeWords (EltTy.packing .f32)

variable [Facts₀]

abbrev win0_0 : Pipeline.Window sig grid0 :=
  Pipeline.Window.ofSpec (Memref.whole main_call0_v1) S8x576x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v13) S576x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16_0) S1x768.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v16_1) S1x768.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun i => !(k0_cond1 i == 1#1) && !(k0_cond2 i == 1#1) | ⟨_ + 4, h⟩ => absurd h (Nat.not_lt.2 (Nat.le_add_left _ _))

abbrev win1_0 : Pipeline.Window sig grid1 :=
  Pipeline.Window.ofSpec (Memref.whole main_call0_v1) S4x576x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v13) S576x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v16_0) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v16_1) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v14) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v15) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v17) S4x576x768.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S128x768x24x24 : Shape := ⟨4, ![128, 768, 24, 24]⟩
abbrev S100x768 : Shape := ⟨2, ![100, 768]⟩
abbrev S768 : Shape := ⟨1, ![768]⟩
abbrev S24 : Shape := ⟨1, ![24]⟩
abbrev S_ : Shape := ⟨0, ![]⟩
abbrev S24x1 : Shape := ⟨2, ![24, 1]⟩
abbrev S1 : Shape := ⟨1, ![1]⟩
abbrev S1x1 : Shape := ⟨2, ![1, 1]⟩
abbrev S24x768 : Shape := ⟨2, ![24, 768]⟩
abbrev S1x768x24x1 : Shape := ⟨4, ![1, 768, 24, 1]⟩
abbrev S1x768x1x24 : Shape := ⟨4, ![1, 768, 1, 24]⟩
abbrev S1x768x1x1 : Shape := ⟨4, ![1, 768, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S128x768x24x24, .f32⟩
  | .hbm, ⟨1, _⟩ => ⟨S100x768, .f32⟩
  | .hbm, ⟨2, _⟩ => ⟨S100x768, .f32⟩
  | .hbm, ⟨3, _⟩ => ⟨S768, .f32⟩
  | .hbm, ⟨4, _⟩ => ⟨S768, .f32⟩
  | .hbm, ⟨5, _⟩ => ⟨S24, .i32⟩
  | .hbm, ⟨6, _⟩ => ⟨S_, .i32⟩
  | .hbm, ⟨7, _⟩ => ⟨S24, .i32⟩
  | .hbm, ⟨8, _⟩ => ⟨S24, .i1⟩
  | .hbm, ⟨9, _⟩ => ⟨S_, .i32⟩
  | .hbm, ⟨10, _⟩ => ⟨S24, .i32⟩
  | .hbm, ⟨11, _⟩ => ⟨S24, .i32⟩
  | .hbm, ⟨12, _⟩ => ⟨S24, .i32⟩
  | .hbm, ⟨13, _⟩ => ⟨S24x1, .i32⟩
  | .hbm, ⟨14, _⟩ => ⟨S1, .i32⟩
  | .hbm, ⟨15, _⟩ => ⟨S_, .i32⟩
  | .hbm, ⟨16, _⟩ => ⟨S24x1, .i32⟩
  | .hbm, ⟨17, _⟩ => ⟨S24x1, .i1⟩
  | .hbm, ⟨18, _⟩ => ⟨S1x1, .i32⟩
  | .hbm, ⟨19, _⟩ => ⟨S24x1, .i32⟩
  | .hbm, ⟨20, _⟩ => ⟨S24x1, .i1⟩
  | .hbm, ⟨21, _⟩ => ⟨S24x1, .i1⟩
  | .hbm, ⟨22, _⟩ => ⟨S_, .i1⟩
  | .hbm, ⟨23, _⟩ => ⟨S24, .i1⟩
  | .hbm, ⟨24, _⟩ => ⟨S24x768, .f32⟩
  | .hbm, ⟨25, _⟩ => ⟨S24x768, .i1⟩
  | .hbm, ⟨26, _⟩ => ⟨S_, .f32⟩
  | .hbm, ⟨27, _⟩ => ⟨S24x768, .f32⟩
  | .hbm, ⟨28, _⟩ => ⟨S24x768, .f32⟩
  | .hbm, ⟨29, _⟩ => ⟨S1x768x24x1, .f32⟩
  | .hbm, ⟨30, _⟩ => ⟨S128x768x24x24, .f32⟩
  | .hbm, ⟨31, _⟩ => ⟨S128x768x24x24, .f32⟩
  | .hbm, ⟨32, _⟩ => ⟨S24, .i32⟩
  | .hbm, ⟨33, _⟩ => ⟨S_, .i32⟩
  | .hbm, ⟨34, _⟩ => ⟨S24, .i32⟩
  | .hbm, ⟨35, _⟩ => ⟨S24, .i1⟩
  | .hbm, ⟨36, _⟩ => ⟨S_, .i32⟩
  | .hbm, ⟨37, _⟩ => ⟨S24, .i32⟩
  | .hbm, ⟨38, _⟩ => ⟨S24, .i32⟩
  | .hbm, ⟨39, _⟩ => ⟨S24, .i32⟩
  | .hbm, ⟨40, _⟩ => ⟨S24x1, .i32⟩
  | .hbm, ⟨41, _⟩ => ⟨S1, .i32⟩
  | .hbm, ⟨42, _⟩ => ⟨S_, .i32⟩
  | .hbm, ⟨43, _⟩ => ⟨S24x1, .i32⟩
  | .hbm, ⟨44, _⟩ => ⟨S24x1, .i1⟩
  | .hbm, ⟨45, _⟩ => ⟨S1x1, .i32⟩
  | .hbm, ⟨46, _⟩ => ⟨S24x1, .i32⟩
  | .hbm, ⟨47, _⟩ => ⟨S24x1, .i1⟩
  | .hbm, ⟨48, _⟩ => ⟨S24x1, .i1⟩
  | .hbm, ⟨49, _⟩ => ⟨S_, .i1⟩
  | .hbm, ⟨50, _⟩ => ⟨S24, .i1⟩
  | .hbm, ⟨51, _⟩ => ⟨S24x768, .f32⟩
  | .hbm, ⟨52, _⟩ => ⟨S24x768, .i1⟩
  | .hbm, ⟨53, _⟩ => ⟨S_, .f32⟩
  | .hbm, ⟨54, _⟩ => ⟨S24x768, .f32⟩
  | .hbm, ⟨55, _⟩ => ⟨S24x768, .f32⟩
  | .hbm, ⟨56, _⟩ => ⟨S1x768x1x24, .f32⟩
  | .hbm, ⟨57, _⟩ => ⟨S128x768x24x24, .f32⟩
  | .hbm, ⟨58, _⟩ => ⟨S128x768x24x24, .f32⟩
  | .hbm, ⟨59, _⟩ => ⟨S_, .f32⟩
  | .hbm, ⟨60, _⟩ => ⟨S768, .f32⟩
  | .hbm, ⟨61, _⟩ => ⟨S1x768x1x1, .f32⟩
  | .hbm, ⟨62, _⟩ => ⟨S_, .f32⟩
  | .hbm, ⟨63, _⟩ => ⟨S1x768x1x1, .f32⟩
  | .hbm, ⟨64, _⟩ => ⟨S1x768x1x1, .f32⟩
  | .hbm, ⟨65, _⟩ => ⟨S_, .i32⟩
  | .hbm, ⟨66, _⟩ => ⟨S_, .f32⟩
  | .hbm, ⟨67, _⟩ => ⟨S768, .f32⟩
  | .hbm, ⟨68, _⟩ => ⟨S1x768x1x1, .f32⟩
  | .hbm, ⟨69, _⟩ => ⟨S_, .f32⟩
  | .hbm, ⟨70, _⟩ => ⟨S1x768x1x1, .f32⟩
  | .hbm, ⟨71, _⟩ => ⟨S1x768x1x1, .f32⟩
  | .hbm, ⟨72, _⟩ => ⟨S128x768x24x24, .f32⟩
  | .hbm, ⟨73, _⟩ => ⟨S128x768x24x24, .f32⟩
  | .hbm, ⟨74, _⟩ => ⟨S128x768x24x24, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S768, .f32⟩
  | .hbm, ⟨80, _⟩ => ⟨S1x768x1x1, .f32⟩
  | .hbm, ⟨81, _⟩ => ⟨S1x768x1x1, .f32⟩
  | .hbm, ⟨82, _⟩ => ⟨S1x768x1x1, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S1x768x1x1, .f32⟩
  | .hbm, ⟨88, _⟩ => ⟨S1x768x1x1, .f32⟩
  | .hbm, ⟨89, _⟩ => ⟨S128x768x24x24, .f32⟩
  | .hbm, ⟨90, _⟩ => ⟨S128x768x24x24, .f32⟩
  | .hbm, ⟨91, _⟩ => ⟨S_, .f32⟩
  | .hbm, ⟨92, _⟩ => ⟨S1x768x1x1, .f32⟩
  | .hbm, ⟨93, _⟩ => ⟨S1x768x1x1, .f32⟩
  | .hbm, ⟨94, _⟩ => ⟨S1x768x1x1, .f32⟩
  | .hbm, ⟨95, _⟩ => ⟨S128x768x24x24, .f32⟩
  | .hbm, ⟨96, _⟩ => ⟨S128x768x24x24, .f32⟩
  | .hbm, ⟨97, _⟩ => ⟨S1x768x1x1, .f32⟩
  | .hbm, ⟨98, _⟩ => ⟨S128x768x24x24, .f32⟩
  | .hbm, ⟨99, _⟩ => ⟨S128x768x24x24, .f32⟩
  | .hbm, ⟨100, _⟩ => ⟨S1x768x1x1, .f32⟩
  | .hbm, ⟨101, _⟩ => ⟨S128x768x24x24, .f32⟩
  | .hbm, ⟨102, _⟩ => ⟨S128x768x24x24, .f32⟩
  | _, _ => ⟨S128x768x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_cst : Ref sig .tc := ⟨.hbm, 59, rfl⟩
abbrev main_v10 : Ref sig .tc := ⟨.hbm, 60, rfl⟩
abbrev main_v11 : Ref sig .tc := ⟨.hbm, 61, rfl⟩
abbrev main_cst_0 : Ref sig .tc := ⟨.hbm, 62, rfl⟩
abbrev main_v12 : Ref sig .tc := ⟨.hbm, 63, rfl⟩
abbrev main_v13 : Ref sig .tc := ⟨.hbm, 64, rfl⟩
abbrev main_c : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_cst_1 : Ref sig .tc := ⟨.hbm, 76, rfl⟩
abbrev main_call2_v8 : Ref sig .tc := ⟨.hbm, 77, rfl⟩
abbrev main_call2_cst_2 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_cst_3 : Ref sig .tc := ⟨.hbm, 83, rfl⟩
abbrev main_call2_v13 : Ref sig .tc := ⟨.hbm, 84, rfl⟩
abbrev main_call2_cst_4 : Ref sig .tc := ⟨.hbm, 85, rfl⟩
abbrev main_call2_call0_v0 : Ref sig .tc := ⟨.hbm, 86, rfl⟩
abbrev main_call2_call0_v1 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_cst_1 : Ref sig .tc := ⟨.hbm, 91, rfl⟩
abbrev main_v17 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩

abbrev nD : Nat := 1
abbrev τ : Topo := Topo.v7x

variable {F : FTy → Type} [FloatOps F]

class Facts₀ : Prop where
  bcast_S_S24 : S_.BroadcastsInDim S24 (![] : Fin 0 → Fin S24.rank)
  bcast_S24_S24x1_0 : S24.BroadcastsInDim S24x1 (![0] : Fin 1 → Fin S24x1.rank)
  bcast_S_S24x1 : S_.BroadcastsInDim S24x1 (![] : Fin 0 → Fin S24x1.rank)
  bcast_S1_S1x1_1 : S1.BroadcastsInDim S1x1 (![1] : Fin 1 → Fin S1x1.rank)
  bcast_S1x1_S24x1_0_1 : S1x1.BroadcastsInDim S24x1 (![0, 1] : Fin 2 → Fin S24x1.rank)
  reducesTo_S24x1_S24_d1 : S24x1.ReducesTo [1] S24
  h_S_ : 0 < S_.numel
  bcast_S24_S24x768_0 : S24.BroadcastsInDim S24x768 (![0] : Fin 1 → Fin S24x768.rank)
  bcast_S_S24x768 : S_.BroadcastsInDim S24x768 (![] : Fin 0 → Fin S24x768.rank)
  shapeCasts_S24x768_S1x768x24x1 : S24x768.ShapeCasts S1x768x24x1
  bcast_S1x768x24x1_S128x768x24x24_0_1_2_3 : S1x768x24x1.BroadcastsInDim S128x768x24x24 (![0, 1, 2, 3] : Fin 4 → Fin S128x768x24x24.rank)
  shapeCasts_S24x768_S1x768x1x24 : S24x768.ShapeCasts S1x768x1x24
  bcast_S1x768x1x24_S128x768x24x24_0_1_2_3 : S1x768x1x24.BroadcastsInDim S128x768x24x24 (![0, 1, 2, 3] : Fin 4 → Fin S128x768x24x24.rank)
  reducesTo_S128x768x24x24_S768_d0_2_3 : S128x768x24x24.ReducesTo [0, 2, 3] S768
  bcast_S768_S1x768x1x1_1 : S768.BroadcastsInDim S1x768x1x1 (![1] : Fin 1 → Fin S1x768x1x1.rank)
  bcast_S_S1x768x1x1 : S_.BroadcastsInDim S1x768x1x1 (![] : Fin 0 → Fin S1x768x1x1.rank)
  bcast_S1x768x1x1_S128x768x24x24_0_1_2_3 : S1x768x1x1.BroadcastsInDim S128x768x24x24 (![0, 1, 2, 3] : Fin 4 → Fin S128x768x24x24.rank)
  shapeCasts_S768_S1x768x1x1 : S768.ShapeCasts S1x768x1x1
  gather_S100x768_S24x1_S24x768_1_0_n_n_0_1_1768_wf : GatherDims.WF S100x768 S24x1 S24x768 [1] [0] [] [0] [] 1 ![1, 768]

variable [Facts₀]

def gather_S100x768_S24x1_S24x768_1_0_n_n_0_1_1768 : GatherDims S100x768 S24x1 S24x768 where
  offsetDims := [1]
  collapsedSliceDims := [0]
  operandBatchingDims := []
  startIndicesBatchingDims := []
  startIndexMap := [0]
  indexVectorDim := 1
  sliceSizes := ![1, 768]
  wf := gather_S100x768_S24x1_S24x768_1_0_n_n_0_1_1768_wf

class Facts : Prop extends Facts₀ where

variable [Facts]
-- ==== Proof.KernelRegion0Body.lean ====
/-
  Region 0, the statistics pass, one grid point at a time.

  The body reads a block of 8 batch entries `x0 : [8, 576, 768]` and the positional table `x1 : [576, 768]`, forms
  `x0 + x1` (the table repeated over the 8 entries) and reduces it, and its square, over the first two axes to two rows
  `[1, 768]`.  At the first grid point the two rows are stored as they are; at every later point they are added to what
  the two output rows already hold.  This module states each of the two cases as a triple over arbitrary staging
  memrefs and arbitrary contents.
-/
import proofs.«168955_g2362232013395_cont_8to1_2029_9_alg».proof.Proof.Gen.Kernel.Launch
import proofs.«168955_g2362232013395_cont_8to1_2029_9_alg».proof.Proof.Gen.Kernel.Skeleton
import proofs.«168955_g2362232013395_cont_8to1_2029_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

abbrev rV : Rect S8x576x768 := Rect.unit (s := S8x576x768) ![0, 0, 0] S8x576x768.size inb_S8x576x768_S8x576x768_0_0_0
abbrev rP : Rect S576x768 := Rect.unit (s := S576x768) ![0, 0] S576x768.size inb_S576x768_S576x768_0_0
abbrev rS : Rect S1x768 := Rect.unit (s := S1x768) ![0, 0] S1x768.size inb_S1x768_S1x768_0_0

/-! ## What each case leaves in the two output rows -/

/-- First point: the row of sums. -/
def outA2 (x0 : Vec F S8x576x768 .f32) (x1 : Vec F S576x768 .f32) : Vec F S1x768 .f32 :=
  View.canon [⟨rS, k0_pay2 (View.ld x0 rV) (View.ld x1 rP)⟩]
/-- First point: the row of sums of squares. -/
def outA3 (x0 : Vec F S8x576x768 .f32) (x1 : Vec F S576x768 .f32) : Vec F S1x768 .f32 :=
  View.canon [⟨rS, k0_pay3 (View.ld x0 rV) (View.ld x1 rP)⟩]
/-- A later point: the row of sums so far `o2` plus this block's. -/
def outB2 (x0 : Vec F S8x576x768 .f32) (x1 : Vec F S576x768 .f32) (o2 : Vec F S1x768 .f32) : Vec F S1x768 .f32 :=
  View.canon [⟨rS, k0_pay4 (View.ld x0 rV) (View.ld x1 rP) (View.ld o2 rS)⟩]
/-- A later point: the row of sums of squares so far `o3` plus this block's. -/
def outB3 (x0 : Vec F S8x576x768 .f32) (x1 : Vec F S576x768 .f32) (o3 : Vec F S1x768 .f32) : Vec F S1x768 .f32 :=
  View.canon [⟨rS, k0_pay5 (View.ld x0 rV) (View.ld x1 rP) (View.ld o3 rS)⟩]

/-- One store of a whole row covers the row. -/
theorem coverS (p0 : Vec F S1x768 .f32) (y : S1x768.Idx) :
    ∃ pc ∈ ([⟨rS, p0⟩] : List (View.Piece (Elt F) S1x768 .f32)), y ∈ pc.1.set :=
  View.cover_of_tiled [⟨rS, p0⟩] S1x768.size (by rfl) y

/-! ## The two cases of the body -/

set_option maxHeartbeats 1000000 in
/-- The first point (the first conditional taken, the second not): both rows stored. -/
theorem sound_kernel0_A (c : Dev nD) (E : Set ℕ) (i : grid0.Coords)
    (arg1 : Memref sig .tc .vmem S8x576x768 .f32) (harg1 : arg1.IsWhole) (arg2 : Memref sig .tc .vmem S576x768 .f32) (harg2 : arg2.IsWhole)
    (arg3 : Memref sig .tc .vmem S1x768 .f32) (harg3 : arg3.IsWhole) (arg4 : Memref sig .tc .vmem S1x768 .f32) (harg4 : arg4.IsWhole)
    (hc1 : k0_cond1 i = 1#1) (hc2 : ¬ k0_cond2 i = 1#1)
    (x0 : Vec F S8x576x768 .f32) (x1 : Vec F S576x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outA2 x0 x1) ∗ owns (c : Thread nD τ) arg4 fullShare (outA3 x0 x1)) -∗ K ⟨⟩))
      ⊢ wp frame (wpE (defs₀ (F := F)) Variants.none c none) E (cc0__stats_kernel i arg1 harg1 arg2 harg2 arg3 harg3 arg4 harg4) K := by
  simp only [cc0__stats_kernel_eq_skeleton]; unfold cc0__stats_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverS _)
  · iexists _; isplitr
    swap; · iexact H3
    ipureintro
    exact View.read_writes_eq_canon _ _ _ (coverS _)

set_option maxHeartbeats 1000000 in
/-- A later point (the first conditional not taken, the second taken): both rows added to. -/
theorem sound_kernel0_B (c : Dev nD) (E : Set ℕ) (i : grid0.Coords)
    (arg1 : Memref sig .tc .vmem S8x576x768 .f32) (harg1 : arg1.IsWhole) (arg2 : Memref sig .tc .vmem S576x768 .f32) (harg2 : arg2.IsWhole)
    (arg3 : Memref sig .tc .vmem S1x768 .f32) (harg3 : arg3.IsWhole) (arg4 : Memref sig .tc .vmem S1x768 .f32) (harg4 : arg4.IsWhole)
    (hc1 : ¬ k0_cond1 i = 1#1) (hc2 : k0_cond2 i = 1#1)
    (x0 : Vec F S8x576x768 .f32) (x1 : Vec F S576x768 .f32) (o2 o3 : Vec F S1x768 .f32) (K : PUnit → sProp 𝕄) :
    iprop(owns (c : Thread nD τ) arg1 fullShare x0 ∗ owns (c : Thread nD τ) arg2 fullShare x1
        ∗ owns (c : Thread nD τ) arg3 fullShare o2 ∗ owns (c : Thread nD τ) arg4 fullShare o3
        ∗ (iprop(owns (c : Thread nD τ) arg1 fullShare x0 ∗ owns (c : Thread nD τ) arg2 fullShare x1
            ∗ owns (c : Thread nD τ) arg3 fullShare (outB2 x0 x1 o2) ∗ owns (c : Thread nD τ) arg4 fullShare (outB3 x0 x1 o3)) -∗ K ⟨⟩))
      ⊢ wp frame (wpE (defs₀ (F := F)) Variants.none c none) E (cc0__stats_kernel i arg1 harg1 arg2 harg2 arg3 harg3 arg4 harg4) K := by
  simp only [cc0__stats_kernel_eq_skeleton]; unfold cc0__stats_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverS _)
  · iexists _; isplitr
    swap; · iexact H3
    ipureintro
    exact View.read_writes_eq_canon _ _ _ (coverS _)

end Cert.Kernel.Region0Body

end
-- ==== Proof.KernelRegion0.lean ====
/-
  Region 0, the statistics pass, over its 16 grid points: what the two output rows hold after each point, and the
  body obligation.

  Point `t` reads block `t` of the video (8 batch entries) and the whole positional table.  The two output rows are
  staged once and written back after the last point only, so between points they keep what the body left: after point
  0 the sums over block 0, after point `t + 1` what point `t` left plus the sums over block `t + 1`.
-/
import proofs.«168955_g2362232013395_cont_8to1_2029_9_alg».proof.Proof.Gen.Kernel.Launch
import proofs.«168955_g2362232013395_cont_8to1_2029_9_alg».proof.Proof.Gen.Kernel.Skeleton
import proofs.«168955_g2362232013395_cont_8to1_2029_9_alg».proof.Proof.Gen.Kernel.Points
import proofs.«168955_g2362232013395_cont_8to1_2029_9_alg».proof.Proof.KernelRegion0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Region0Body

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The video window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The table window's staging buffer holds the table at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions over the grid -/

/-- The first conditional is taken at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The second at every other point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two always holds: the output rows are stored into at every point. -/
theorem live_aux : ∀ k : Fin 16, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide +kernel
theorem hlive0 (i : grid0.Coords) : cfg0.idle 0 i = false := rfl
theorem hlive1 (i : grid0.Coords) : cfg0.idle 1 i = false := rfl
theorem hlive2 (i : grid0.Coords) : cfg0.idle 2 i = false := live_aux (i 0)
theorem hlive3 (i : grid0.Coords) : cfg0.idle 3 i = false := live_aux (i 0)

/-! ## What the output rows hold after each point -/

/-- After point `n`: the row of sums and the row of sums of squares over blocks `0 … n`, accumulated in order. -/
def outsAt0 (c : Dev nD) : (n : ℕ) → n < cfg0.N → Vec F S1x768 .f32 × Vec F S1x768 .f32
  | 0, hn => (outA2 (iblk0 V c 0 ⟨0, hn⟩) (iblk0 V c 1 ⟨0, hn⟩), outA3 (iblk0 V c 0 ⟨0, hn⟩) (iblk0 V c 1 ⟨0, hn⟩))
  | n + 1, hn =>
    (outB2 (iblk0 V c 0 ⟨n + 1, hn⟩) (iblk0 V c 1 ⟨n + 1, hn⟩) (outsAt0 c n (Nat.lt_of_succ_lt hn)).1,
     outB3 (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) :
    outsAt0 V c t.val t.isLt = (outA2 (iblk0 V c 0 t) (iblk0 V c 1 t), outA3 (iblk0 V c 0 t) (iblk0 V c 1 t)) := by
  obtain ⟨n, hn⟩ := t
  cases n with
  | zero => rfl
  | succ n => exact absurd h0 (Nat.succ_ne_zero n)

theorem outsAt0_B (c : Dev nD) (t : Fin cfg0.N) (h0 : ¬ t.val = 0) :
    outsAt0 V c t.val t.isLt
      = (outB2 (iblk0 V c 0 t) (iblk0 V c 1 t) (outsAt0 V c (t.val - 1) (Nat.lt_of_le_of_lt (Nat.sub_le _ _) t.isLt)).1,
         outB3 (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => rfl

/-! ## The proof data -/

/-- Region 0's proof data on core `c`: the arrays as the region finds them; after the body at point `t` the two
    inputs' buffers at their blocks and the two output rows at `outsAt0`; the scoped rest and the generator register pass
    through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later point each output row's buffer holds what the body left at the point before: it is written back only
    after the last point. -/
theorem before0_2_B (c : Dev nD) (t : Fin cfg0.N) (h0 : ¬ t.val = 0) (d) :
    (dat0 V c).before 2 t d = (outsAt0 V c (t.val - 1) (Nat.lt_of_le_of_lt (Nat.sub_le _ _) t.isLt)).1 := by
  have hN : t.val < 16 := lt_of_lt_of_eq t.isLt (show cfg0.N = 16 from N_0)
  rw [Dat.before_out_kept _ 2 rfl t h0 (Bool.eq_false_iff.mpr fun h => by have := (flush0_2 _).mp h; dsimp only at this; omega)
    hlive2 (fun _ _ => rfl)]
  dsimp only [dat0]
theorem before0_3_B (c : Dev nD) (t : Fin cfg0.N) (h0 : ¬ t.val = 0) (d) :
    (dat0 V c).before 3 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 3 rfl t h0 (Bool.eq_false_iff.mpr fun h => by have := (flush0_3 _).mp h; dsimp only at this; omega)
    hlive3 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in
/-- The body at any point: the inputs' buffers hold their blocks; at the first point the rows are stored, at a later one
    added to what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).leavesExact 0 t = owns (c : Thread nD τ) (st0_0 t) fullShare ((dat0 V c).after 0 t) from by
      unfold Dat.leavesExact; rw [hlive0],
    show (dat0 V c).leavesExact 1 t = owns (c : Thread nD τ) (st0_1 t) fullShare ((dat0 V c).after 1 t) from by
      unfold Dat.leavesExact; rw [hlive1],
    show (dat0 V c).leavesExact 2 t = owns (c : Thread nD τ) (st0_2 t) fullShare ((dat0 V c).after 2 t) from by
      unfold Dat.leavesExact; rw [hlive2],
    show (dat0 V c).leavesExact 3 t = owns (c : Thread nD τ) (st0_3 t) fullShare ((dat0 V c).after 3 t) from by
      unfold Dat.leavesExact; rw [hlive3]]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [outsAt0_A V c t h0]
    iintro ⟨HΦ, Ho, ⟨%d0, H0⟩, ⟨%d1, H1⟩, ⟨%d2, H2⟩, ⟨%d3, H3⟩⟩
    iapply (sound_kernel0_A c Set.univ (grid0.coords t) _ _ _ _ _ _ _ _ ((hcond1 t).mpr h0) (fun h => ((hcond2 t).mp h) h0)
      (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt0_B V c t h0]
    simp only [before0_2_B V c t h0, before0_3_B V c t h0]
    iintro ⟨HΦ, Ho, ⟨%d0, H0⟩, ⟨%d1, H1⟩, ⟨%d2, H2⟩, ⟨%d3, H3⟩⟩
    iapply (sound_kernel0_B c Set.univ (grid0.coords t) _ _ _ _ _ _ _ _ (fun h => h0 ((hcond1 t).mp h)) ((hcond2 t).mpr h0)
      (iblk0 V c 0 t) (iblk0 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Region0

end
-- ==== Proof.KernelRegion1Body.lean ====
/- The normalisation pass of the kernel program (its second kernel call), one grid point at a time: what one run of
   the body does to the memory it is handed, in the two cases of its one branch.

   At the first grid point the body computes, per channel, the scale  s = γ · rsqrt(Σx²/n − (Σx/n)² + ε)  from the
   two moment rows and γ, and the fused table  T = P · s + (β − (Σx/n) · s)  from the positional table P and β, and
   keeps both in two buffers of its own; at every point it then writes  v · s + T  for its block v of the input.
   At a later point the two kept buffers are only read. All loads and stores are of whole buffers. -/
import proofs.«168955_g2362232013395_cont_8to1_2029_9_alg».proof.Proof.Gen.Kernel.Launch
import proofs.«168955_g2362232013395_cont_8to1_2029_9_alg».proof.Proof.Gen.Kernel.Skeleton
import proofs.«168955_g2362232013395_cont_8to1_2029_9_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every access of the body is through the unit rectangle at zero offsets of the buffer's own sizes: a load through it
reads the contents, one store through it leaves its payload, and a load after such a store reads that payload. -/

theorem zeros2 : (![0, 0] : Fin 2 → Nat) = fun _ => 0 := funext fun a => by fin_cases a <;> rfl
theorem zeros3 : (![0, 0, 0] : Fin 3 → Nat) = fun _ => 0 := funext fun a => by fin_cases a <;> rfl

section Whole
variable {κ : Kind} {sp : Space} {S : Shape} {e : EltTy}

theorem readAt_whole {off : Fin S.rank → Nat} (h : off = fun _ => 0) (inb : ∀ a, off a + S.size a ≤ S.size a)
    (v : View sig κ sp S e) (f : v.ty.Contents (Elt F)) :
    v.readAt (Elt F) (Rect.unit off S.size inb).toLoadRect f = v.read (Elt F) f :=
  (View.readAt_eq_ld v f _).trans (View.ld_unit_zero h inb _)

theorem read_writes_whole {off : Fin S.rank → Nat} (h : off = fun _ => 0) (inb : ∀ a, off a + S.size a ≤ S.size a)
    (v : View sig κ sp S e) (f : v.ty.Contents (Elt F)) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

theorem readCov_whole {off : Fin S.rank → Nat} (h : off = fun _ => 0) (inb : ∀ a, off a + S.size a ≤ S.size a)
    (v : View sig κ sp S e) (w : S.Idx → Elt F e) :
    v.readCov [(⟨Rect.unit off S.size inb, w⟩ : View.Piece (Elt F) S e)] (Rect.unit off S.size inb).toLoadRect = w :=
  View.readCov_unit_zero v h inb w

end Whole

/-! ## The branch of the body -/

/-- The body's one condition, as the program spells it over the grid coordinate: "this is grid point 0". -/
abbrev isFirst (i : grid1.Coords) : Prop :=
  (Scalar.cmpi .ne (Scalar.extui (Scalar.cmpi .eq (BitVec.ofNat 32 (i 0).val) 0#32)) 0#32) = 1#1

/-- It holds at point 0 and nowhere else: decided over the 32 points. -/
theorem isFirst_iff : ∀ t : Fin cfg1.N, isFirst (grid1.coords t) ↔ t.val = 0 :=
  (by decide +kernel : ∀ t : Fin grid1.N, isFirst (grid1.coords t) ↔ t.val = 0)

/-! ## The body at the first point -/

set_option maxHeartbeats 1000000 in
/-- At the first point, on whole buffers — the block `x0`, the table `x1`, the moment rows `x2`, `x3`, γ `x4`, β `x5`
    read, the output's and the two kept buffers at anything — the body leaves the inputs as they were, the scale
    `k1_pay3 x2 x3 x4` and the table `k1_pay4 x2 x3 x4 x1 x5` in the kept buffers, and in the output's buffer
    `k1_pay5` of the block and those two. -/
theorem sound_first (c : Dev nD) (E : Set ℕ) (i : grid1.Coords) (hc : isFirst i)
    (arg1 : Memref sig .tc .vmem S4x576x768 .f32) (harg1 : arg1.IsWhole) (arg2 : Memref sig .tc .vmem S576x768 .f32) (harg2 : arg2.IsWhole)
    (arg3 : Memref sig .tc .vmem S1x768 .f32) (harg3 : arg3.IsWhole) (arg4 : Memref sig .tc .vmem S1x768 .f32) (harg4 : arg4.IsWhole)
    (arg5 : Memref sig .tc .vmem S1x768 .f32) (harg5 : arg5.IsWhole) (arg6 : Memref sig .tc .vmem S1x768 .f32) (harg6 : arg6.IsWhole)
    (arg7 : Memref sig .tc .vmem S4x576x768 .f32) (harg7 : arg7.IsWhole) (arg8 : Memref sig .tc .vmem S1x768 .f32) (harg8 : arg8.IsWhole)
    (arg9 : Memref sig .tc .vmem S576x768 .f32) (harg9 : arg9.IsWhole)
    (x0 : Vec F S4x576x768 .f32) (x1 : Vec F S576x768 .f32) (x2 x3 x4 x5 : Vec F S1x768 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k1_pay5 x0 (k1_pay3 x2 x3 x4) (k1_pay4 x2 x3 x4 x1 x5))
            ∗ owns (c : Thread nD τ) arg8 fullShare (k1_pay3 x2 x3 x4)
            ∗ owns (c : Thread nD τ) arg9 fullShare (k1_pay4 x2 x3 x4 x1 x5)) -∗ K ⟨⟩))
      ⊢ wp frame (wpE (defs₀ (F := F)) Variants.none c none) E
          (cc1__norm_kernel i arg1 harg1 arg2 harg2 arg3 harg3 arg4 harg4 arg5 harg5 arg6 harg6 arg7 harg7 arg8 harg8 arg9 harg9) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, Hk⟩
  subst hf0; subst hf1; subst hf2; subst hf3; subst hf4; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    sl_unfold_run_names
    simp only [read_writes_whole (S := S4x576x768) zeros3, read_writes_whole (S := S1x768) zeros2,
      read_writes_whole (S := S576x768) zeros2, readCov_whole (S := S1x768) zeros2, readCov_whole (S := S576x768) zeros2,
      readAt_whole (S := S4x576x768) zeros3, readAt_whole (S := S1x768) zeros2, readAt_whole (S := S576x768) zeros2]
  isplitl [H8]
  · iexists _; isplitr
    swap; · iexact H8
    ipureintro
    sl_unfold_run_names
    simp only [read_writes_whole (S := S4x576x768) zeros3, read_writes_whole (S := S1x768) zeros2,
      read_writes_whole (S := S576x768) zeros2, readCov_whole (S := S1x768) zeros2, readCov_whole (S := S576x768) zeros2,
      readAt_whole (S := S4x576x768) zeros3, readAt_whole (S := S1x768) zeros2, readAt_whole (S := S576x768) zeros2]
  iexists _; isplitr
  swap; · iexact H9
  ipureintro
  sl_unfold_run_names
  simp only [read_writes_whole (S := S4x576x768) zeros3, read_writes_whole (S := S1x768) zeros2,
      read_writes_whole (S := S576x768) zeros2, readCov_whole (S := S1x768) zeros2, readCov_whole (S := S576x768) zeros2,
      readAt_whole (S := S4x576x768) zeros3, readAt_whole (S := S1x768) zeros2, readAt_whole (S := S576x768) zeros2]

/-! ## The body at a later point -/

set_option maxHeartbeats 1000000 in
/-- At a later point, on whole buffers — the block `x0` read, the kept buffers at `s0` and `s1`, the output's at
    anything — the body leaves the block and the kept buffers as they were and `k1_pay5 x0 s0 s1` in the output's
    buffer; it touches no other buffer. -/
theorem sound_later (c : Dev nD) (E : Set ℕ) (i : grid1.Coords) (hc : ¬ isFirst i)
    (arg1 : Memref sig .tc .vmem S4x576x768 .f32) (harg1 : arg1.IsWhole) (arg2 : Memref sig .tc .vmem S576x768 .f32) (harg2 : arg2.IsWhole)
    (arg3 : Memref sig .tc .vmem S1x768 .f32) (harg3 : arg3.IsWhole) (arg4 : Memref sig .tc .vmem S1x768 .f32) (harg4 : arg4.IsWhole)
    (arg5 : Memref sig .tc .vmem S1x768 .f32) (harg5 : arg5.IsWhole) (arg6 : Memref sig .tc .vmem S1x768 .f32) (harg6 : arg6.IsWhole)
    (arg7 : Memref sig .tc .vmem S4x576x768 .f32) (harg7 : arg7.IsWhole) (arg8 : Memref sig .tc .vmem S1x768 .f32) (harg8 : arg8.IsWhole)
    (arg9 : Memref sig .tc .vmem S576x768 .f32) (harg9 : arg9.IsWhole)
    (x0 : Vec F S4x576x768 .f32) (s0 : Vec F S1x768 .f32) (s1 : Vec F S576x768 .f32) (K : PUnit → sProp 𝕄) :
    iprop(owns (c : Thread nD τ) arg1 fullShare x0 ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg7 fullShare (k1_pay5 x0 s0 s1)
            ∗ owns (c : Thread nD τ) arg8 fullShare s0 ∗ owns (c : Thread nD τ) arg9 fullShare s1) -∗ K ⟨⟩))
      ⊢ wp frame (wpE (defs₀ (F := F)) Variants.none c none) E
          (cc1__norm_kernel i arg1 harg1 arg2 harg2 arg3 harg3 arg4 harg4 arg5 harg5 arg6 harg6 arg7 harg7 arg8 harg8 arg9 harg9) K := by
  simp only [cc1__norm_kernel_eq_skeleton]; unfold cc1__norm_kernel_skel
  unfold owns
  iintro ⟨⟨%f0, %hf0, H0⟩, ⟨%d7, %f7, -, H7⟩, ⟨%f8, %hf8, H8⟩, ⟨%f9, %hf9, H9⟩, Hk⟩
  subst hf0; subst hf8; subst hf9
  sl_exec (disch := first | exact hc)
  sl_step
  iapply Hk
  isplitl [H0]
  · iexists f0; isplitr; · ipureintro; rfl
    iexact H0
  isplitl [H7]
  · iexists _; isplitr
    swap; · iexact H7
    ipureintro
    simp only [read_writes_whole (S := S4x576x768) zeros3, read_writes_whole (S := S1x768) zeros2,
      read_writes_whole (S := S576x768) zeros2, readCov_whole (S := S1x768) zeros2, readCov_whole (S := S576x768) zeros2,
      readAt_whole (S := S4x576x768) zeros3, readAt_whole (S := S1x768) zeros2, readAt_whole (S := S576x768) zeros2]
  isplitl [H8]
  · iexists f8; isplitr; · ipureintro; rfl
    iexact H8
  iexists f9; isplitr; · ipureintro; rfl
  iexact H9

end Cert.Kernel.Region1

end
-- ==== Proof.KernelRegion1.lean ====
/- The normalisation pass of the kernel program (its second kernel call) as a pipelined region, at the contents `V`
   the region is entered with: what every window's buffer holds after the body at each of the 32 grid points, the
   invariant the body keeps from point to point, and the proof that one run of the body takes the one to the other.

   The body computes the per-channel scale and the fused table once, at the first point, from windows 1–5 (the
   positional table, the two moment rows, γ and β: fetched once, never changed), keeps them in two buffers of its own,
   and at every point writes `k1_pay5` of the input block and those two into the output window. So after the first
   point the two kept buffers hold the SAME values at every point — `scOf`, `tOf`, functions of the entry contents
   alone — and the output block at point `t` is `k1_pay5 (block t of the input) scOf tOf`. -/
import proofs.«168955_g2362232013395_cont_8to1_2029_9_alg».proof.Proof.KernelRegion1Body

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
def t0 : Fin cfg1.N := ⟨0, by rw [show cfg1.N = 32 from N_1]; decide⟩

/-- The per-channel scale the body computes at the first point: γ · rsqrt(Σx²/n − (Σx/n)² + ε), from the moment rows
    (windows 2, 3) and γ (window 4). -/
def scOf (c : Dev nD) : Vec F S1x768 .f32 := k1_pay3 (iblk1 V c 2 t0) (iblk1 V c 3 t0) (iblk1 V c 4 t0)

/-- The fused table it computes there: P · scale + (β − mean · scale), from the same, the positional table
    (window 1) and β (window 5). -/
def tOf (c : Dev nD) : Vec F S576x768 .f32 :=
  k1_pay4 (iblk1 V c 2 t0) (iblk1 V c 3 t0) (iblk1 V c 4 t0) (iblk1 V c 1 t0) (iblk1 V c 5 t0)

/-! ## An input's buffer holds its block at every point

For any proof data whose array is `V`'s and whose body leaves the block in place: where the window is fetched the
fetch puts the block there; where it is not (windows 1–5 after the first point) the block index has not moved, and
the buffer still holds what the point before left, which is the same block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The invariant -/

/-- The two buffers the body keeps for itself, whole. -/
abbrev scM0 : Memref sig .tc .vmem S1x768 .f32 := Memref.whole cc1_scratch0
abbrev scM1 : Memref sig .tc .vmem S576x768 .f32 := Memref.whole cc1_scratch1

/-- After the first point: the core's other scoped buffers at anything, the two kept buffers at the scale and the
    table, the generator register at some state. -/
def carried (c : Dev nD) : sProp 𝕄 :=
  iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ owns (c : Thread nD τ) scM0 fullShare (scOf V c) ∗ owns (c : Thread nD τ) scM1 fullShare (tOf V c))
    ∗ (∃ r, prngReg c r))

/-- The region invariant before position `n`: before the first point what the launch hands over (every scoped buffer
    that is no staging buffer at anything, the generator register at some state); afterwards `carried`. -/
def PhiS (c : Dev nD) (n : ℕ) : sProp 𝕄 := if n = 0 then Pipeline.ΦA spec1 c else carried V c

theorem PhiS_zero (c : Dev nD) (n : ℕ) (hz : n = 0) : PhiS V c n = Pipeline.ΦA spec1 c := if_pos hz
theorem PhiS_pos (c : Dev nD) (n : ℕ) (hz : n ≠ 0) : PhiS V c n = carried V c := if_neg hz

/-- What the launch hands over, with the two kept buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
          ∗ (∃ d, owns (c : Thread nD τ) scM0 fullShare d) ∗ (∃ d, owns (c : Thread nD τ) scM1 fullShare d))
        ∗ (∃ r, prngReg c r)) := by
  unfold Pipeline.ΦA; rw [scopedRest1_eq]; simp only [scM0, scM1, owns_whole]; try rfl

/-! ## The pipeline's proof data -/

/-- The proof data of the pipeline on core `c`: the arrays as the region finds them (`V`); after the body at point
    `t` each input's buffer at its block and the output's at `k1_pay5` of the input block, the scale and the table;
    the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay5 (iblk1 V c 0 t) (scOf V c) (tOf V c)
  Φ t := PhiS V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay5 (iblk1 V c 0 t) (scOf V c) (tOf V c) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem Phi_castSucc (c : Dev nD) (t : Fin cfg1.N) : (dat1 V c).Φ t.castSucc = PhiS V c t.val := by
  dsimp only [dat1]; simp only [Fin.coe_castSucc]

theorem Phi_succ (c : Dev nD) (t : Fin cfg1.N) : (dat1 V c).Φ t.succ = carried V c := by
  dsimp only [dat1]; exact PhiS_pos V c _ (by simp only [Fin.val_succ]; omega)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point. Every input's buffer holds its block (`before1_W`). At the first point the invariant is
    the launch's, with the two kept buffers at anything: the body fills them with the scale and the table of the
    blocks it reads there, which are `scOf` and `tOf`. At a later point the invariant hands the kept buffers at
    `scOf` and `tOf` and takes them back unchanged; windows 1–5 pass through untouched. In both the output's buffer
    ends at `k1_pay5` of the block, `scOf` and `tOf`; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    Phi_succ, Phi_castSucc, after1_0, after1_1, after1_2, after1_3, after1_4, after1_5, after1_6]
  by_cases hz : t.val = 0
  · obtain rfl : t = t0 := Fin.ext hz
    rw [PhiS_zero V c _ hz, PhiA1_eq]
    iintro ⟨⟨⟨A0, A1, A2, A3, A4, S0, S1⟩, Hg⟩, Ho, ⟨%d0, H0⟩, ⟨%d1, H1⟩, ⟨%d2, H2⟩, ⟨%d3, H3⟩, ⟨%d4, H4⟩, ⟨%d5, H5⟩, H6⟩
    iapply (sound_first c Set.univ _ ((isFirst_iff t0).mpr hz) _ _ _ _ _ _ _ _ _ _ _ _ _ _ _ _ _ _
      (iblk1 V c 0 t0) (iblk1 V c 1 t0) (iblk1 V c 2 t0) (iblk1 V c 3 t0) (iblk1 V c 4 t0) (iblk1 V c 5 t0) _)
    isplitl [H0]; · iexact H0
    isplitl [H1]; · iexact H1
    isplitl [H2]; · iexact H2
    isplitl [H3]; · iexact H3
    isplitl [H4]; · iexact H4
    isplitl [H5]; · iexact H5
    isplitl [H6]
    · icases H6 with ⟨%d6, H6⟩; iexists _; iexact H6
    isplitl [S0]; · iexact S0
    isplitl [S1]; · iexact S1
    iintro ⟨H0, H1, H2, H3, H4, H5, H6, S0, S1⟩
    unfold carried scOf tOf
    isplitl [A0 A1 A2 A3 A4 S0 S1 Hg]
    · isplitl [A0 A1 A2 A3 A4 S0 S1]
      · isplitl [A0]; · iexact A0
        isplitl [A1]; · iexact A1
        isplitl [A2]; · iexact A2
        isplitl [A3]; · iexact A3
        isplitl [A4]; · iexact A4
        isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ hz]
    unfold carried
    iintro ⟨⟨⟨A0, A1, A2, A3, A4, S0, S1⟩, Hg⟩, Ho, ⟨%d0, H0⟩, ⟨%d1, H1⟩, ⟨%d2, H2⟩, ⟨%d3, H3⟩, ⟨%d4, H4⟩, ⟨%d5, H5⟩, H6⟩
    iapply (sound_later c Set.univ _ (fun h => hz ((isFirst_iff t).mp h)) _ _ _ _ _ _ _ _ _ _ _ _ _ _ _ _ _ _
      (iblk1 V c 0 t) (scOf V c) (tOf V c) _)
    isplitl [H0]; · iexact H0
    isplitl [H6]
    · icases H6 with ⟨%d6, H6⟩; iexists _; iexact H6
    isplitl [S0]; · iexact S0
    isplitl [S1]; · iexact S1
    iintro ⟨H0, H6, S0, S1⟩
    isplitl [A0 A1 A2 A3 A4 S0 S1 Hg]
    · isplitl [A0 A1 A2 A3 A4 S0 S1]
      · isplitl [A0]; · iexact A0
        isplitl [A1]; · iexact A1
        isplitl [A2]; · iexact A2
        isplitl [A3]; · iexact A3
        isplitl [A4]; · iexact A4
        isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 from rfl, PhiS_zero V c 0 rfl]

/-- After the last point the invariant gives the launch's back: what the two kept buffers hold is forgotten. -/
theorem hout1 (c : Dev nD) : (dat1 V c).Φ (Fin.last cfg1.N) ⊢ Pipeline.ΦA spec1 c := by
  rw [show (dat1 V c).Φ (Fin.last cfg1.N) = PhiS V c (Fin.last cfg1.N).val from rfl,
    PhiS_pos V c _ (by rw [Fin.val_last]; have : cfg1.N = 32 := N_1; omega), PhiA1_eq]
  unfold carried
  iintro ⟨⟨A0, A1, A2, A3, A4, S0, S1⟩, Hg⟩
  isplitl [A0 A1 A2 A3 A4 S0 S1]
  · isplitl [A0]; · iexact A0
    isplitl [A1]; · iexact A1
    isplitl [A2]; · iexact A2
    isplitl [A3]; · iexact A3
    isplitl [A4]; · iexact A4
    isplitl [S0]; · iexists _; iexact S0
    iexists _; iexact S1
  iexact Hg

end Cert.Kernel.Region1

end
-- ==== Proof.KernelRun.lean ====
/-
  The whole run of the kernel program: sixteen host operations that lay the video out channel-last and build the
  positional table, the statistics pass (region 0), the normalisation pass (region 1), and two host operations that
  lay the result out channel-second again.

  Between two items every buffer no region scopes is held at contents named here: `W0` as launched, `W1` after the
  first host stretch, `W2` with region 0's two output rows at what its write-back leaves, `W3` with region 1's
  output array at what its write-backs leave, `W4` after the last host stretch.  Each region is entered from the
  contents before it and left at the contents after it; the generator register and the (empty) debt ride along.
  Every weakly fair execution terminates with every such buffer at `W4`; the five arguments are never written, so they
  end as launched.
-/
import proofs.«168955_g2362232013395_cont_8to1_2029_9_alg».proof.Proof.Gen.Kernel.Launch
import proofs.«168955_g2362232013395_cont_8to1_2029_9_alg».proof.Proof.Gen.Kernel.Skeleton
import proofs.«168955_g2362232013395_cont_8to1_2029_9_alg».proof.Proof.Gen.Kernel.Points
import proofs.«168955_g2362232013395_cont_8to1_2029_9_alg».proof.Proof.Gen.Kernel.Regions
import proofs.«168955_g2362232013395_cont_8to1_2029_9_alg».proof.Proof.KernelRegion0
import proofs.«168955_g2362232013395_cont_8to1_2029_9_alg».proof.Proof.KernelRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Region0 Cert.Kernel.Region1

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: the end. -/
abbrev W4 : Dev nD → Valuation τ sig (Elt F) := fun c => StableHlo.after hostOps2 (W3 m ρ c)

/-! ## The arguments end as launched -/

/-- A buffer that no host operation writes and no region stages as an output keeps its launch contents to the end. -/
theorem W4_of_arg (c : Dev nD) (r : Ref sig .tc) (h2 : r ∉ hostOps2_W) (h1 : ∀ w, Pipeline.arrRef spec1 w ≠ r)
    (h0 : ∀ w, Pipeline.arrRef spec0 w ≠ r) (hh : r ∉ hostOps0_W) :
    W4 m ρ c (Proc.devRef .tc r) = m ((c : Thread nD τ).loc r) :=
  (StableHlo.after_of_writes_sub hostOps2 _ hostOps2_writes h2).trans <|
    (W3_of_ne m ρ c r h1).trans <| (W2_of_ne m ρ c r h0).trans <|
      (StableHlo.after_of_writes_sub hostOps0 _ hostOps0_writes hh).trans rfl

theorem W4_main_arg0 (c : Dev nD) : W4 m ρ c (Proc.devRef .tc main_arg0) = m ((c : Thread nD τ).loc main_arg0) :=
  W4_of_arg m ρ c main_arg0 (by decide) (by decide) (by decide) (by decide)
theorem W4_main_arg1 (c : Dev nD) : W4 m ρ c (Proc.devRef .tc main_arg1) = m ((c : Thread nD τ).loc main_arg1) :=
  W4_of_arg m ρ c main_arg1 (by decide) (by decide) (by decide) (by decide)
theorem W4_main_arg2 (c : Dev nD) : W4 m ρ c (Proc.devRef .tc main_arg2) = m ((c : Thread nD τ).loc main_arg2) :=
  W4_of_arg m ρ c main_arg2 (by decide) (by decide) (by decide) (by decide)
theorem W4_main_arg3 (c : Dev nD) : W4 m ρ c (Proc.devRef .tc main_arg3) = m ((c : Thread nD τ).loc main_arg3) :=
  W4_of_arg m ρ c main_arg3 (by decide) (by decide) (by decide) (by decide)
theorem W4_main_arg4 (c : Dev nD) : W4 m ρ c (Proc.devRef .tc main_arg4) = m ((c : Thread nD τ).loc main_arg4) :=
  W4_of_arg m ρ c main_arg4 (by decide) (by decide) (by decide) (by decide)

/-! ## The proof data family and what rides along -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- The generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 entered from `W1` and left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 1 makes the class invariant, -/
theorem phiA1_in (c : Dev nD) :
    iprop((iprop(∃ r, prngReg c r) : sProp 𝕄) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
  unfold Pipeline.ΦA
  iintro ⟨Hp, -, Hr⟩
  isplitl [Hr]; · iexact Hr
  iexact Hp
/-- and the class invariant gives it back. -/
theorem phiA1_out (c : Dev nD) :
    (Pipeline.ΦA spec1 c : sProp 𝕄) ⊢ iprop((iprop(∃ r, prngReg c r) : sProp 𝕄) ∗ (BI.emp : sProp 𝕄)
        ∗ Pipeline.scopedRest (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- Region 1 entered from `W2` and left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA1_in c).trans (hin1 (V2 m ρ) c)
  hout c := by
    rw [Pipeline.ownSems0_none]
    exact (hout1 (V2 m ρ) c).trans (phiA1_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- Every weakly fair execution terminates, nothing faulting, with every buffer no region scopes at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.Kernel.Run

end
-- ==== Proof.KernelIdealRegion0Body.lean ====
/-
  Region 0, the statistics pass, one grid point at a time.

  The body reads a block of 8 batch entries `x0 : [8, 576, 768]` and the positional table `x1 : [576, 768]`, forms
  `x0 + x1` (the table repeated over the 8 entries) and reduces it, and its square, over the first two axes to two rows
  `[1, 768]`.  At the first grid point the two rows are stored as they are; at every later point they are added to what
  the two output rows already hold.  This module states each of the two cases as a triple over arbitrary staging
  memrefs and arbitrary contents.
-/
import proofs.«168955_g2362232013395_cont_8to1_2029_9_alg».proof.Proof.Gen.KernelIdeal.Launch
import proofs.«168955_g2362232013395_cont_8to1_2029_9_alg».proof.Proof.Gen.KernelIdeal.Skeleton
import proofs.«168955_g2362232013395_cont_8to1_2029_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is a whole buffer -/

abbrev rV : Rect S8x576x768 := Rect.unit (s := S8x576x768) ![0, 0, 0] S8x576x768.size inb_S8x576x768_S8x576x768_0_0_0
abbrev rP : Rect S576x768 := Rect.unit (s := S576x768) ![0, 0] S576x768.size inb_S576x768_S576x768_0_0
abbrev rS : Rect S1x768 := Rect.unit (s := S1x768) ![0, 0] S1x768.size inb_S1x768_S1x768_0_0

/-! ## What each case leaves in the two output rows -/

/-- First point: the row of sums. -/
def outA2 (x0 : Vec F S8x576x768 .f32) (x1 : Vec F S576x768 .f32) : Vec F S1x768 .f32 :=
  View.canon [⟨rS, k0_pay2 (View.ld x0 rV) (View.ld x1 rP)⟩]
/-- First point: the row of sums of squares. -/
def outA3 (x0 : Vec F S8x576x768 .f32) (x1 : Vec F S576x768 .f32) : Vec F S1x768 .f32 :=
  View.canon [⟨rS, k0_pay3 (View.ld x0 rV) (View.ld x1 rP)⟩]
/-- A later point: the row of sums so far `o2` plus this block's. -/
def outB2 (x0 : Vec F S8x576x768 .f32) (x1 : Vec F S576x768 .f32) (o2 : Vec F S1x768 .f32) : Vec F S1x768 .f32 :=
  View.canon [⟨rS, k0_pay4 (View.ld x0 rV) (View.ld x1 rP) (View.ld o2 rS)⟩]
/-- A later point: the row of sums of squares so far `o3` plus this block's. -/
def outB3 (x0 : Vec F S8x576x768 .f32) (x1 : Vec F S576x768 .f32) (o3 : Vec F S1x768 .f32) : Vec F S1x768 .f32 :=
  View.canon [⟨rS, k0_pay5 (View.ld x0 rV) (View.ld x1 rP) (View.ld o3 rS)⟩]

/-- One store of a whole row covers the row. -/
theorem coverS (p0 : Vec F S1x768 .f32) (y : S1x768.Idx) :
    ∃ pc ∈ ([⟨rS, p0⟩] : List (View.Piece (Elt F) S1x768 .f32)), y ∈ pc.1.set :=
  View.cover_of_tiled [⟨rS, p0⟩] S1x768.size (by rfl) y

/-! ## The two cases of the body -/

set_option maxHeartbeats 1000000 in
/-- The first point (the first conditional taken, the second not): both rows stored. -/
theorem sound_kernel0_A (c : Dev nD) (E : Set ℕ) (i : grid0.Coords)
    (arg1 : Memref sig .tc .vmem S8x576x768 .f32) (harg1 : arg1.IsWhole) (arg2 : Memref sig .tc .vmem S576x768 .f32) (harg2 : arg2.IsWhole)
    (arg3 : Memref sig .tc .vmem S1x768 .f32) (harg3 : arg3.IsWhole) (arg4 : Memref sig .tc .vmem S1x768 .f32) (harg4 : arg4.IsWhole)
    (hc1 : k0_cond1 i = 1#1) (hc2 : ¬ k0_cond2 i = 1#1)
    (x0 : Vec F S8x576x768 .f32) (x1 : Vec F S576x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outA2 x0 x1) ∗ owns (c : Thread nD τ) arg4 fullShare (outA3 x0 x1)) -∗ K ⟨⟩))
      ⊢ wp frame (wpE (defs₀ (F := F)) Variants.none c none) E (cc0__stats_kernel i arg1 harg1 arg2 harg2 arg3 harg3 arg4 harg4) K := by
  simp only [cc0__stats_kernel_eq_skeleton]; unfold cc0__stats_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverS _)
  · iexists _; isplitr
    swap; · iexact H3
    ipureintro
    exact View.read_writes_eq_canon _ _ _ (coverS _)

set_option maxHeartbeats 1000000 in
/-- A later point (the first conditional not taken, the second taken): both rows added to. -/
theorem sound_kernel0_B (c : Dev nD) (E : Set ℕ) (i : grid0.Coords)
    (arg1 : Memref sig .tc .vmem S8x576x768 .f32) (harg1 : arg1.IsWhole) (arg2 : Memref sig .tc .vmem S576x768 .f32) (harg2 : arg2.IsWhole)
    (arg3 : Memref sig .tc .vmem S1x768 .f32) (harg3 : arg3.IsWhole) (arg4 : Memref sig .tc .vmem S1x768 .f32) (harg4 : arg4.IsWhole)
    (hc1 : ¬ k0_cond1 i = 1#1) (hc2 : k0_cond2 i = 1#1)
    (x0 : Vec F S8x576x768 .f32) (x1 : Vec F S576x768 .f32) (o2 o3 : Vec F S1x768 .f32) (K : PUnit → sProp 𝕄) :
    iprop(owns (c : Thread nD τ) arg1 fullShare x0 ∗ owns (c : Thread nD τ) arg2 fullShare x1
        ∗ owns (c : Thread nD τ) arg3 fullShare o2 ∗ owns (c : Thread nD τ) arg4 fullShare o3
        ∗ (iprop(owns (c : Thread nD τ) arg1 fullShare x0 ∗ owns (c : Thread nD τ) arg2 fullShare x1
            ∗ owns (c : Thread nD τ) arg3 fullShare (outB2 x0 x1 o2) ∗ owns (c : Thread nD τ) arg4 fullShare (outB3 x0 x1 o3)) -∗ K ⟨⟩))
      ⊢ wp frame (wpE (defs₀ (F := F)) Variants.none c none) E (cc0__stats_kernel i arg1 harg1 arg2 harg2 arg3 harg3 arg4 harg4) K := by
  simp only [cc0__stats_kernel_eq_skeleton]; unfold cc0__stats_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverS _)
  · iexists _; isplitr
    swap; · iexact H3
    ipureintro
    exact View.read_writes_eq_canon _ _ _ (coverS _)

end Cert.KernelIdeal.Region0Body

end
-- ==== Proof.KernelIdealRegion0.lean ====
/-
  Region 0, the statistics pass, over its 16 grid points: what the two output rows hold after each point, and the
  body obligation.

  Point `t` reads block `t` of the video (8 batch entries) and the whole positional table.  The two output rows are
  staged once and written back after the last point only, so between points they keep what the body left: after point
  0 the sums over block 0, after point `t + 1` what point `t` left plus the sums over block `t + 1`.
-/
import proofs.«168955_g2362232013395_cont_8to1_2029_9_alg».proof.Proof.Gen.KernelIdeal.Launch
import proofs.«168955_g2362232013395_cont_8to1_2029_9_alg».proof.Proof.Gen.KernelIdeal.Skeleton
import proofs.«168955_g2362232013395_cont_8to1_2029_9_alg».proof.Proof.Gen.KernelIdeal.Points
import proofs.«168955_g2362232013395_cont_8to1_2029_9_alg».proof.Proof.KernelIdealRegion0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Region0Body

-- the contents of the TensorCore's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The video window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The table window's staging buffer holds the table at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions over the grid -/

/-- The first conditional is taken at the first point only. -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- The second at every other point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two always holds: the output rows are stored into at every point. -/
theorem live_aux : ∀ k : Fin 16, (!(Scalar.cmpi .ne (Scalar.extui (Scalar.cmpi .eq (BitVec.ofNat 32 k.val) 0#32)) 0#32 == 1#1)
      && !(Scalar.cmpi .ne (Scalar.extui (Scalar.cmpi .ne (BitVec.ofNat 32 k.val) 0#32)) 0#32 == 1#1)) = false := by decide +kernel
theorem hlive0 (i : grid0.Coords) : cfg0.idle 0 i = false := rfl
theorem hlive1 (i : grid0.Coords) : cfg0.idle 1 i = false := rfl
theorem hlive2 (i : grid0.Coords) : cfg0.idle 2 i = false := live_aux (i 0)
theorem hlive3 (i : grid0.Coords) : cfg0.idle 3 i = false := live_aux (i 0)

/-! ## What the output rows hold after each point -/

/-- After point `n`: the row of sums and the row of sums of squares over blocks `0 … n`, accumulated in order. -/
def outsAt0 (c : Dev nD) : (n : ℕ) → n < cfg0.N → Vec F S1x768 .f32 × Vec F S1x768 .f32
  | 0, hn => (outA2 (iblk0 V c 0 ⟨0, hn⟩) (iblk0 V c 1 ⟨0, hn⟩), outA3 (iblk0 V c 0 ⟨0, hn⟩) (iblk0 V c 1 ⟨0, hn⟩))
  | n + 1, hn =>
    (outB2 (iblk0 V c 0 ⟨n + 1, hn⟩) (iblk0 V c 1 ⟨n + 1, hn⟩) (outsAt0 c n (Nat.lt_of_succ_lt hn)).1,
     outB3 (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) :
    outsAt0 V c t.val t.isLt = (outA2 (iblk0 V c 0 t) (iblk0 V c 1 t), outA3 (iblk0 V c 0 t) (iblk0 V c 1 t)) := by
  obtain ⟨n, hn⟩ := t
  cases n with
  | zero => rfl
  | succ n => exact absurd h0 (Nat.succ_ne_zero n)

theorem outsAt0_B (c : Dev nD) (t : Fin cfg0.N) (h0 : ¬ t.val = 0) :
    outsAt0 V c t.val t.isLt
      = (outB2 (iblk0 V c 0 t) (iblk0 V c 1 t) (outsAt0 V c (t.val - 1) (Nat.lt_of_le_of_lt (Nat.sub_le _ _) t.isLt)).1,
         outB3 (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => rfl

/-! ## The proof data -/

/-- Region 0's proof data on core `c`: the arrays as the region finds them; after the body at point `t` the two
    inputs' buffers at their blocks and the two output rows at `outsAt0`; the scoped rest and the generator register pass
    through untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- At a later point each output row's buffer holds what the body left at the point before: it is written back only
    after the last point. -/
theorem before0_2_B (c : Dev nD) (t : Fin cfg0.N) (h0 : ¬ t.val = 0) (d) :
    (dat0 V c).before 2 t d = (outsAt0 V c (t.val - 1) (Nat.lt_of_le_of_lt (Nat.sub_le _ _) t.isLt)).1 := by
  have hN : t.val < 16 := lt_of_lt_of_eq t.isLt (show cfg0.N = 16 from N_0)
  rw [Dat.before_out_kept _ 2 rfl t h0 (Bool.eq_false_iff.mpr fun h => by have := (flush0_2 _).mp h; dsimp only at this; omega)
    hlive2 (fun _ _ => rfl)]
  dsimp only [dat0]
theorem before0_3_B (c : Dev nD) (t : Fin cfg0.N) (h0 : ¬ t.val = 0) (d) :
    (dat0 V c).before 3 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 3 rfl t h0 (Bool.eq_false_iff.mpr fun h => by have := (flush0_3 _).mp h; dsimp only at this; omega)
    hlive3 (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 800000 in
/-- The body at any point: the inputs' buffers hold their blocks; at the first point the rows are stored, at a later one
    added to what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).leavesExact 0 t = owns (c : Thread nD τ) (st0_0 t) fullShare ((dat0 V c).after 0 t) from by
      unfold Dat.leavesExact; rw [hlive0],
    show (dat0 V c).leavesExact 1 t = owns (c : Thread nD τ) (st0_1 t) fullShare ((dat0 V c).after 1 t) from by
      unfold Dat.leavesExact; rw [hlive1],
    show (dat0 V c).leavesExact 2 t = owns (c : Thread nD τ) (st0_2 t) fullShare ((dat0 V c).after 2 t) from by
      unfold Dat.leavesExact; rw [hlive2],
    show (dat0 V c).leavesExact 3 t = owns (c : Thread nD τ) (st0_3 t) fullShare ((dat0 V c).after 3 t) from by
      unfold Dat.leavesExact; rw [hlive3]]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [outsAt0_A V c t h0]
    iintro ⟨HΦ, Ho, ⟨%d0, H0⟩, ⟨%d1, H1⟩, ⟨%d2, H2⟩, ⟨%d3, H3⟩⟩
    iapply (sound_kernel0_A c Set.univ (grid0.coords t) _ _ _ _ _ _ _ _ ((hcond1 t).mpr h0) (fun h => ((hcond2 t).mp h) h0)
      (iblk0 V c 0 t) (iblk0 V c 1 t) _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [outsAt0_B V c t h0]
    simp only [before0_2_B V c t h0, before0_3_B V c t h0]
    iintro ⟨HΦ, Ho, ⟨%d0, H0⟩, ⟨%d1, H1⟩, ⟨%d2, H2⟩, ⟨%d3, H3⟩⟩
    iapply (sound_kernel0_B c Set.univ (grid0.coords t) _ _ _ _ _ _ _ _ (fun h => h0 ((hcond1 t).mp h)) ((hcond2 t).mpr h0)
      (iblk0 V c 0 t) (iblk0 V c 1 t) _ _ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Region0

end
-- ==== Proof.KernelIdealRegion1Body.lean ====
/- The normalisation pass of the kernel program (its second kernel call), one grid point at a time: what one run of
   the body does to the memory it is handed, in the two cases of its one branch.

   At the first grid point the body computes, per channel, the scale  s = γ · rsqrt(Σx²/n − (Σx/n)² + ε)  from the
   two moment rows and γ, and the fused table  T = P · s + (β − (Σx/n) · s)  from the positional table P and β, and
   keeps both in two buffers of its own; at every point it then writes  v · s + T  for its block v of the input.
   At a later point the two kept buffers are only read. All loads and stores are of whole buffers. -/
import proofs.«168955_g2362232013395_cont_8to1_2029_9_alg».proof.Proof.Gen.KernelIdeal.Launch
import proofs.«168955_g2362232013395_cont_8to1_2029_9_alg».proof.Proof.Gen.KernelIdeal.Skeleton
import proofs.«168955_g2362232013395_cont_8to1_2029_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every access of the body is through the unit rectangle at zero offsets of the buffer's own sizes: a load through it
reads the contents, one store through it leaves its payload, and a load after such a store reads that payload. -/

theorem zeros2 : (![0, 0] : Fin 2 → Nat) = fun _ => 0 := funext fun a => by fin_cases a <;> rfl
theorem zeros3 : (![0, 0, 0] : Fin 3 → Nat) = fun _ => 0 := funext fun a => by fin_cases a <;> rfl

section Whole
variable {κ : Kind} {sp : Space} {S : Shape} {e : EltTy}

theorem readAt_whole {off : Fin S.rank → Nat} (h : off = fun _ => 0) (inb : ∀ a, off a + S.size a ≤ S.size a)
    (v : View sig κ sp S e) (f : v.ty.Contents (Elt F)) :
    v.readAt (Elt F) (Rect.unit off S.size inb).toLoadRect f = v.read (Elt F) f :=
  (View.readAt_eq_ld v f _).trans (View.ld_unit_zero h inb _)

theorem read_writes_whole {off : Fin S.rank → Nat} (h : off = fun _ => 0) (inb : ∀ a, off a + S.size a ≤ S.size a)
    (v : View sig κ sp S e) (f : v.ty.Contents (Elt F)) (w : S.Idx → Elt F e) :
    v.read (Elt F) (v.writes (Elt F) f [(⟨Rect.unit off S.size inb, w⟩ : View.Piece (Elt F) S e)]) = w :=
  (View.read_writes_eq_canon v f _ (fun y => ⟨_, List.mem_singleton_self _, View.mem_set_unit_zero h inb y⟩)).trans
    (View.canon_unit_zero h inb w)

theorem readCov_whole {off : Fin S.rank → Nat} (h : off = fun _ => 0) (inb : ∀ a, off a + S.size a ≤ S.size a)
    (v : View sig κ sp S e) (w : S.Idx → Elt F e) :
    v.readCov [(⟨Rect.unit off S.size inb, w⟩ : View.Piece (Elt F) S e)] (Rect.unit off S.size inb).toLoadRect = w :=
  View.readCov_unit_zero v h inb w

end Whole

/-! ## The branch of the body -/

/-- The body's one condition, as the program spells it over the grid coordinate: "this is grid point 0". -/
abbrev isFirst (i : grid1.Coords) : Prop :=
  (Scalar.cmpi .ne (Scalar.extui (Scalar.cmpi .eq (BitVec.ofNat 32 (i 0).val) 0#32)) 0#32) = 1#1

/-- It holds at point 0 and nowhere else: decided over the 32 points. -/
theorem isFirst_iff : ∀ t : Fin cfg1.N, isFirst (grid1.coords t) ↔ t.val = 0 :=
  (by decide +kernel : ∀ t : Fin grid1.N, isFirst (grid1.coords t) ↔ t.val = 0)

/-! ## The body at the first point -/

set_option maxHeartbeats 1000000 in
/-- At the first point, on whole buffers — the block `x0`, the table `x1`, the moment rows `x2`, `x3`, γ `x4`, β `x5`
    read, the output's and the two kept buffers at anything — the body leaves the inputs as they were, the scale
    `k1_pay3 x2 x3 x4` and the table `k1_pay4 x2 x3 x4 x1 x5` in the kept buffers, and in the output's buffer
    `k1_pay5` of the block and those two. -/
theorem sound_first (c : Dev nD) (E : Set ℕ) (i : grid1.Coords) (hc : isFirst i)
    (arg1 : Memref sig .tc .vmem S4x576x768 .f32) (harg1 : arg1.IsWhole) (arg2 : Memref sig .tc .vmem S576x768 .f32) (harg2 : arg2.IsWhole)
    (arg3 : Memref sig .tc .vmem S1x768 .f32) (harg3 : arg3.IsWhole) (arg4 : Memref sig .tc .vmem S1x768 .f32) (harg4 : arg4.IsWhole)
    (arg5 : Memref sig .tc .vmem S1x768 .f32) (harg5 : arg5.IsWhole) (arg6 : Memref sig .tc .vmem S1x768 .f32) (harg6 : arg6.IsWhole)
    (arg7 : Memref sig .tc .vmem S4x576x768 .f32) (harg7 : arg7.IsWhole) (arg8 : Memref sig .tc .vmem S1x768 .f32) (harg8 : arg8.IsWhole)
    (arg9 : Memref sig .tc .vmem S576x768 .f32) (harg9 : arg9.IsWhole)
    (x0 : Vec F S4x576x768 .f32) (x1 : Vec F S576x768 .f32) (x2 x3 x4 x5 : Vec F S1x768 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (k1_pay5 x0 (k1_pay3 x2 x3 x4) (k1_pay4 x2 x3 x4 x1 x5))
            ∗ owns (c : Thread nD τ) arg8 fullShare (k1_pay3 x2 x3 x4)
            ∗ owns (c : Thread nD τ) arg9 fullShare (k1_pay4 x2 x3 x4 x1 x5)) -∗ K ⟨⟩))
      ⊢ wp frame (wpE (defs₀ (F := F)) Variants.none c none) E
          (cc1__norm_kernel i arg1 harg1 arg2 harg2 arg3 harg3 arg4 harg4 arg5 harg5 arg6 harg6 arg7 harg7 arg8 harg8 arg9 harg9) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, Hk⟩
  subst hf0; subst hf1; subst hf2; subst hf3; subst hf4; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H7]
  · iexists _; isplitr
    swap; · iexact H7
    ipureintro
    sl_unfold_run_names
    simp only [read_writes_whole (S := S4x576x768) zeros3, read_writes_whole (S := S1x768) zeros2,
      read_writes_whole (S := S576x768) zeros2, readCov_whole (S := S1x768) zeros2, readCov_whole (S := S576x768) zeros2,
      readAt_whole (S := S4x576x768) zeros3, readAt_whole (S := S1x768) zeros2, readAt_whole (S := S576x768) zeros2]
  isplitl [H8]
  · iexists _; isplitr
    swap; · iexact H8
    ipureintro
    sl_unfold_run_names
    simp only [read_writes_whole (S := S4x576x768) zeros3, read_writes_whole (S := S1x768) zeros2,
      read_writes_whole (S := S576x768) zeros2, readCov_whole (S := S1x768) zeros2, readCov_whole (S := S576x768) zeros2,
      readAt_whole (S := S4x576x768) zeros3, readAt_whole (S := S1x768) zeros2, readAt_whole (S := S576x768) zeros2]
  iexists _; isplitr
  swap; · iexact H9
  ipureintro
  sl_unfold_run_names
  simp only [read_writes_whole (S := S4x576x768) zeros3, read_writes_whole (S := S1x768) zeros2,
      read_writes_whole (S := S576x768) zeros2, readCov_whole (S := S1x768) zeros2, readCov_whole (S := S576x768) zeros2,
      readAt_whole (S := S4x576x768) zeros3, readAt_whole (S := S1x768) zeros2, readAt_whole (S := S576x768) zeros2]

/-! ## The body at a later point -/

set_option maxHeartbeats 1000000 in
/-- At a later point, on whole buffers — the block `x0` read, the kept buffers at `s0` and `s1`, the output's at
    anything — the body leaves the block and the kept buffers as they were and `k1_pay5 x0 s0 s1` in the output's
    buffer; it touches no other buffer. -/
theorem sound_later (c : Dev nD) (E : Set ℕ) (i : grid1.Coords) (hc : ¬ isFirst i)
    (arg1 : Memref sig .tc .vmem S4x576x768 .f32) (harg1 : arg1.IsWhole) (arg2 : Memref sig .tc .vmem S576x768 .f32) (harg2 : arg2.IsWhole)
    (arg3 : Memref sig .tc .vmem S1x768 .f32) (harg3 : arg3.IsWhole) (arg4 : Memref sig .tc .vmem S1x768 .f32) (harg4 : arg4.IsWhole)
    (arg5 : Memref sig .tc .vmem S1x768 .f32) (harg5 : arg5.IsWhole) (arg6 : Memref sig .tc .vmem S1x768 .f32) (harg6 : arg6.IsWhole)
    (arg7 : Memref sig .tc .vmem S4x576x768 .f32) (harg7 : arg7.IsWhole) (arg8 : Memref sig .tc .vmem S1x768 .f32) (harg8 : arg8.IsWhole)
    (arg9 : Memref sig .tc .vmem S576x768 .f32) (harg9 : arg9.IsWhole)
    (x0 : Vec F S4x576x768 .f32) (s0 : Vec F S1x768 .f32) (s1 : Vec F S576x768 .f32) (K : PUnit → sProp 𝕄) :
    iprop(owns (c : Thread nD τ) arg1 fullShare x0 ∗ (∃ d, owns (c : Thread nD τ) arg7 fullShare d)
        ∗ owns (c : Thread nD τ) arg8 fullShare s0 ∗ owns (c : Thread nD τ) arg9 fullShare s1
        ∗ (iprop(owns (c : Thread nD τ) arg1 fullShare x0 ∗ owns (c : Thread nD τ) arg7 fullShare (k1_pay5 x0 s0 s1)
            ∗ owns (c : Thread nD τ) arg8 fullShare s0 ∗ owns (c : Thread nD τ) arg9 fullShare s1) -∗ K ⟨⟩))
      ⊢ wp frame (wpE (defs₀ (F := F)) Variants.none c none) E
          (cc1__norm_kernel i arg1 harg1 arg2 harg2 arg3 harg3 arg4 harg4 arg5 harg5 arg6 harg6 arg7 harg7 arg8 harg8 arg9 harg9) K := by
  simp only [cc1__norm_kernel_eq_skeleton]; unfold cc1__norm_kernel_skel
  unfold owns
  iintro ⟨⟨%f0, %hf0, H0⟩, ⟨%d7, %f7, -, H7⟩, ⟨%f8, %hf8, H8⟩, ⟨%f9, %hf9, H9⟩, Hk⟩
  subst hf0; subst hf8; subst hf9
  sl_exec (disch := first | exact hc)
  sl_step
  iapply Hk
  isplitl [H0]
  · iexists f0; isplitr; · ipureintro; rfl
    iexact H0
  isplitl [H7]
  · iexists _; isplitr
    swap; · iexact H7
    ipureintro
    simp only [read_writes_whole (S := S4x576x768) zeros3, read_writes_whole (S := S1x768) zeros2,
      read_writes_whole (S := S576x768) zeros2, readCov_whole (S := S1x768) zeros2, readCov_whole (S := S576x768) zeros2,
      readAt_whole (S := S4x576x768) zeros3, readAt_whole (S := S1x768) zeros2, readAt_whole (S := S576x768) zeros2]
  isplitl [H8]
  · iexists f8; isplitr; · ipureintro; rfl
    iexact H8
  iexists f9; isplitr; · ipureintro; rfl
  iexact H9

end Cert.KernelIdeal.Region1

end
-- ==== Proof.KernelIdealRegion1.lean ====
/- The normalisation pass of the kernel program (its second kernel call) as a pipelined region, at the contents `V`
   the region is entered with: what every window's buffer holds after the body at each of the 32 grid points, the
   invariant the body keeps from point to point, and the proof that one run of the body takes the one to the other.

   The body computes the per-channel scale and the fused table once, at the first point, from windows 1–5 (the
   positional table, the two moment rows, γ and β: fetched once, never changed), keeps them in two buffers of its own,
   and at every point writes `k1_pay5` of the input block and those two into the output window. So after the first
   point the two kept buffers hold the SAME values at every point — `scOf`, `tOf`, functions of the entry contents
   alone — and the output block at point `t` is `k1_pay5 (block t of the input) scOf tOf`. -/
import proofs.«168955_g2362232013395_cont_8to1_2029_9_alg».proof.Proof.KernelIdealRegion1Body

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first grid point. -/
def t0 : Fin cfg1.N := ⟨0, by rw [show cfg1.N = 32 from N_1]; decide⟩

/-- The per-channel scale the body computes at the first point: γ · rsqrt(Σx²/n − (Σx/n)² + ε), from the moment rows
    (windows 2, 3) and γ (window 4). -/
def scOf (c : Dev nD) : Vec F S1x768 .f32 := k1_pay3 (iblk1 V c 2 t0) (iblk1 V c 3 t0) (iblk1 V c 4 t0)

/-- The fused table it computes there: P · scale + (β − mean · scale), from the same, the positional table
    (window 1) and β (window 5). -/
def tOf (c : Dev nD) : Vec F S576x768 .f32 :=
  k1_pay4 (iblk1 V c 2 t0) (iblk1 V c 3 t0) (iblk1 V c 4 t0) (iblk1 V c 1 t0) (iblk1 V c 5 t0)

/-! ## An input's buffer holds its block at every point

For any proof data whose array is `V`'s and whose body leaves the block in place: where the window is fetched the
fetch puts the block there; where it is not (windows 1–5 after the first point) the block index has not moved, and
the buffer still holds what the point before left, which is the same block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The invariant -/

/-- The two buffers the body keeps for itself, whole. -/
abbrev scM0 : Memref sig .tc .vmem S1x768 .f32 := Memref.whole cc1_scratch0
abbrev scM1 : Memref sig .tc .vmem S576x768 .f32 := Memref.whole cc1_scratch1

/-- After the first point: the core's other scoped buffers at anything, the two kept buffers at the scale and the
    table, the generator register at some state. -/
def carried (c : Dev nD) : sProp 𝕄 :=
  iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ owns (c : Thread nD τ) scM0 fullShare (scOf V c) ∗ owns (c : Thread nD τ) scM1 fullShare (tOf V c))
    ∗ (∃ r, prngReg c r))

/-- The region invariant before position `n`: before the first point what the launch hands over (every scoped buffer
    that is no staging buffer at anything, the generator register at some state); afterwards `carried`. -/
def PhiS (c : Dev nD) (n : ℕ) : sProp 𝕄 := if n = 0 then Pipeline.ΦA spec1 c else carried V c

theorem PhiS_zero (c : Dev nD) (n : ℕ) (hz : n = 0) : PhiS V c n = Pipeline.ΦA spec1 c := if_pos hz
theorem PhiS_pos (c : Dev nD) (n : ℕ) (hz : n ≠ 0) : PhiS V c n = carried V c := if_neg hz

/-- What the launch hands over, with the two kept buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
          ∗ (∃ d, owns (c : Thread nD τ) scM0 fullShare d) ∗ (∃ d, owns (c : Thread nD τ) scM1 fullShare d))
        ∗ (∃ r, prngReg c r)) := by
  unfold Pipeline.ΦA; rw [scopedRest1_eq]; simp only [scM0, scM1, owns_whole]; try rfl

/-! ## The pipeline's proof data -/

/-- The proof data of the pipeline on core `c`: the arrays as the region finds them (`V`); after the body at point
    `t` each input's buffer at its block and the output's at `k1_pay5` of the input block, the scale and the table;
    the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay5 (iblk1 V c 0 t) (scOf V c) (tOf V c)
  Φ t := PhiS V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay5 (iblk1 V c 0 t) (scOf V c) (tOf V c) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem Phi_castSucc (c : Dev nD) (t : Fin cfg1.N) : (dat1 V c).Φ t.castSucc = PhiS V c t.val := by
  dsimp only [dat1]; simp only [Fin.coe_castSucc]

theorem Phi_succ (c : Dev nD) (t : Fin cfg1.N) : (dat1 V c).Φ t.succ = carried V c := by
  dsimp only [dat1]; exact PhiS_pos V c _ (by simp only [Fin.val_succ]; omega)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at any point. Every input's buffer holds its block (`before1_W`). At the first point the invariant is
    the launch's, with the two kept buffers at anything: the body fills them with the scale and the table of the
    blocks it reads there, which are `scOf` and `tOf`. At a later point the invariant hands the kept buffers at
    `scOf` and `tOf` and takes them back unchanged; windows 1–5 pass through untouched. In both the output's buffer
    ends at `k1_pay5` of the block, `scOf` and `tOf`; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    Phi_succ, Phi_castSucc, after1_0, after1_1, after1_2, after1_3, after1_4, after1_5, after1_6]
  by_cases hz : t.val = 0
  · obtain rfl : t = t0 := Fin.ext hz
    rw [PhiS_zero V c _ hz, PhiA1_eq]
    iintro ⟨⟨⟨A0, A1, A2, A3, A4, S0, S1⟩, Hg⟩, Ho, ⟨%d0, H0⟩, ⟨%d1, H1⟩, ⟨%d2, H2⟩, ⟨%d3, H3⟩, ⟨%d4, H4⟩, ⟨%d5, H5⟩, H6⟩
    iapply (sound_first c Set.univ _ ((isFirst_iff t0).mpr hz) _ _ _ _ _ _ _ _ _ _ _ _ _ _ _ _ _ _
      (iblk1 V c 0 t0) (iblk1 V c 1 t0) (iblk1 V c 2 t0) (iblk1 V c 3 t0) (iblk1 V c 4 t0) (iblk1 V c 5 t0) _)
    isplitl [H0]; · iexact H0
    isplitl [H1]; · iexact H1
    isplitl [H2]; · iexact H2
    isplitl [H3]; · iexact H3
    isplitl [H4]; · iexact H4
    isplitl [H5]; · iexact H5
    isplitl [H6]
    · icases H6 with ⟨%d6, H6⟩; iexists _; iexact H6
    isplitl [S0]; · iexact S0
    isplitl [S1]; · iexact S1
    iintro ⟨H0, H1, H2, H3, H4, H5, H6, S0, S1⟩
    unfold carried scOf tOf
    isplitl [A0 A1 A2 A3 A4 S0 S1 Hg]
    · isplitl [A0 A1 A2 A3 A4 S0 S1]
      · isplitl [A0]; · iexact A0
        isplitl [A1]; · iexact A1
        isplitl [A2]; · iexact A2
        isplitl [A3]; · iexact A3
        isplitl [A4]; · iexact A4
        isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [PhiS_pos V c _ hz]
    unfold carried
    iintro ⟨⟨⟨A0, A1, A2, A3, A4, S0, S1⟩, Hg⟩, Ho, ⟨%d0, H0⟩, ⟨%d1, H1⟩, ⟨%d2, H2⟩, ⟨%d3, H3⟩, ⟨%d4, H4⟩, ⟨%d5, H5⟩, H6⟩
    iapply (sound_later c Set.univ _ (fun h => hz ((isFirst_iff t).mp h)) _ _ _ _ _ _ _ _ _ _ _ _ _ _ _ _ _ _
      (iblk1 V c 0 t) (scOf V c) (tOf V c) _)
    isplitl [H0]; · iexact H0
    isplitl [H6]
    · icases H6 with ⟨%d6, H6⟩; iexists _; iexact H6
    isplitl [S0]; · iexact S0
    isplitl [S1]; · iexact S1
    iintro ⟨H0, H6, S0, S1⟩
    isplitl [A0 A1 A2 A3 A4 S0 S1 Hg]
    · isplitl [A0 A1 A2 A3 A4 S0 S1]
      · isplitl [A0]; · iexact A0
        isplitl [A1]; · iexact A1
        isplitl [A2]; · iexact A2
        isplitl [A3]; · iexact A3
        isplitl [A4]; · iexact A4
        isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 from rfl, PhiS_zero V c 0 rfl]

/-- After the last point the invariant gives the launch's back: what the two kept buffers hold is forgotten. -/
theorem hout1 (c : Dev nD) : (dat1 V c).Φ (Fin.last cfg1.N) ⊢ Pipeline.ΦA spec1 c := by
  rw [show (dat1 V c).Φ (Fin.last cfg1.N) = PhiS V c (Fin.last cfg1.N).val from rfl,
    PhiS_pos V c _ (by rw [Fin.val_last]; have : cfg1.N = 32 := N_1; omega), PhiA1_eq]
  unfold carried
  iintro ⟨⟨A0, A1, A2, A3, A4, S0, S1⟩, Hg⟩
  isplitl [A0 A1 A2 A3 A4 S0 S1]
  · isplitl [A0]; · iexact A0
    isplitl [A1]; · iexact A1
    isplitl [A2]; · iexact A2
    isplitl [A3]; · iexact A3
    isplitl [A4]; · iexact A4
    isplitl [S0]; · iexists _; iexact S0
    iexists _; iexact S1
  iexact Hg

end Cert.KernelIdeal.Region1

end
-- ==== Proof.KernelIdealRun.lean ====
/-
  The whole run of the kernel program: sixteen host operations that lay the video out channel-last and build the
  positional table, the statistics pass (region 0), the normalisation pass (region 1), and two host operations that
  lay the result out channel-second again.

  Between two items every buffer no region scopes is held at contents named here: `W0` as launched, `W1` after the
  first host stretch, `W2` with region 0's two output rows at what its write-back leaves, `W3` with region 1's
  output array at what its write-backs leave, `W4` after the last host stretch.  Each region is entered from the
  contents before it and left at the contents after it; the generator register and the (empty) debt ride along.
  Every weakly fair execution terminates with every such buffer at `W4`; the five arguments are never written, so they
  end as launched.
-/
import proofs.«168955_g2362232013395_cont_8to1_2029_9_alg».proof.Proof.Gen.KernelIdeal.Launch
import proofs.«168955_g2362232013395_cont_8to1_2029_9_alg».proof.Proof.Gen.KernelIdeal.Skeleton
import proofs.«168955_g2362232013395_cont_8to1_2029_9_alg».proof.Proof.Gen.KernelIdeal.Points
import proofs.«168955_g2362232013395_cont_8to1_2029_9_alg».proof.Proof.Gen.KernelIdeal.Regions
import proofs.«168955_g2362232013395_cont_8to1_2029_9_alg».proof.Proof.KernelIdealRegion0
import proofs.«168955_g2362232013395_cont_8to1_2029_9_alg».proof.Proof.KernelIdealRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Region0 Cert.KernelIdeal.Region1

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: the end. -/
abbrev W4 : Dev nD → Valuation τ sig (Elt F) := fun c => StableHlo.after hostOps2 (W3 m ρ c)

/-! ## The arguments end as launched -/

/-- A buffer that no host operation writes and no region stages as an output keeps its launch contents to the end. -/
theorem W4_of_arg (c : Dev nD) (r : Ref sig .tc) (h2 : r ∉ hostOps2_W) (h1 : ∀ w, Pipeline.arrRef spec1 w ≠ r)
    (h0 : ∀ w, Pipeline.arrRef spec0 w ≠ r) (hh : r ∉ hostOps0_W) :
    W4 m ρ c (Proc.devRef .tc r) = m ((c : Thread nD τ).loc r) :=
  (StableHlo.after_of_writes_sub hostOps2 _ hostOps2_writes h2).trans <|
    (W3_of_ne m ρ c r h1).trans <| (W2_of_ne m ρ c r h0).trans <|
      (StableHlo.after_of_writes_sub hostOps0 _ hostOps0_writes hh).trans rfl

theorem W4_main_arg0 (c : Dev nD) : W4 m ρ c (Proc.devRef .tc main_arg0) = m ((c : Thread nD τ).loc main_arg0) :=
  W4_of_arg m ρ c main_arg0 (by decide) (by decide) (by decide) (by decide)
theorem W4_main_arg1 (c : Dev nD) : W4 m ρ c (Proc.devRef .tc main_arg1) = m ((c : Thread nD τ).loc main_arg1) :=
  W4_of_arg m ρ c main_arg1 (by decide) (by decide) (by decide) (by decide)
theorem W4_main_arg2 (c : Dev nD) : W4 m ρ c (Proc.devRef .tc main_arg2) = m ((c : Thread nD τ).loc main_arg2) :=
  W4_of_arg m ρ c main_arg2 (by decide) (by decide) (by decide) (by decide)
theorem W4_main_arg3 (c : Dev nD) : W4 m ρ c (Proc.devRef .tc main_arg3) = m ((c : Thread nD τ).loc main_arg3) :=
  W4_of_arg m ρ c main_arg3 (by decide) (by decide) (by decide) (by decide)
theorem W4_main_arg4 (c : Dev nD) : W4 m ρ c (Proc.devRef .tc main_arg4) = m ((c : Thread nD τ).loc main_arg4) :=
  W4_of_arg m ρ c main_arg4 (by decide) (by decide) (by decide) (by decide)

/-! ## The proof data family and what rides along -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- The generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 entered from `W1` and left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the launch hands region 1 makes the class invariant, -/
theorem phiA1_in (c : Dev nD) :
    iprop((iprop(∃ r, prngReg c r) : sProp 𝕄) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
  unfold Pipeline.ΦA
  iintro ⟨Hp, -, Hr⟩
  isplitl [Hr]; · iexact Hr
  iexact Hp
/-- and the class invariant gives it back. -/
theorem phiA1_out (c : Dev nD) :
    (Pipeline.ΦA spec1 c : sProp 𝕄) ⊢ iprop((iprop(∃ r, prngReg c r) : sProp 𝕄) ∗ (BI.emp : sProp 𝕄)
        ∗ Pipeline.scopedRest (Pipeline.pin (pcfgs (F := F)) adm 1).spec c) := by
  unfold Pipeline.ΦA
  iintro ⟨Hr, Hp⟩
  isplitl [Hp]; · iexact Hp
  isplitr; · iempintro
  iexact Hr

set_option backward.isDefEq.respectTransparency.types false in
/-- Region 1 entered from `W2` and left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA1_in c).trans (hin1 (V2 m ρ) c)
  hout c := by
    rw [Pipeline.ownSems0_none]
    exact (hout1 (V2 m ρ) c).trans (phiA1_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- Every weakly fair execution terminates, nothing faulting, with every buffer no region scopes at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Run

end
-- ==== Proof.Spec.lean ====
/-
  The two formulas this certificate joins, written once over literal shapes and extended reals, with no program in sight.

  Data: a video `v : [128, 768, 24, 24]` (batch, channel, row, column), two positional tables `rt ct : [100, 768]` of which
  only the first 24 rows are read, and per-channel `g b : [768]`.
  The positional term of channel `c` at row `h` is entry `c * 24 + h` of the first 24 rows of `rt` read row-major (a raw
  reshape of a [24, 768] block as [768, 24]), likewise `ct` at column `w`.  With `x = v + (row term + column term)`, the
  per-channel sums `S1 = Σ x` and `S2 = Σ x²` run over batch, row and column (73728 entries), `mean = S1 / n`.

  * `kout`: the variance as `S2 / n - mean²`, the scale `sc = g · rsqrt (var + ε)`, and the result in folded form
    `v · sc + (pos · sc + (b - mean · sc))`.
  * `rout`: the variance as the mean of the squared deviations, and the result `(x - mean) / sqrt (var + ε) · g + b`.

  The float words `n` (73728) and `ε` are kept as their patterns: both formulas hold the same words.
-/
import Idealize.ShloMosaic.PureOps.Ideal
import Idealize.ShloMosaic.Lib.ValueIdx

noncomputable section

namespace Cert.Spec

open Idealize.ShloMosaic Idealize.ShloMosaic.ValueIdx
open scoped BigOperators

abbrev SV : Shape := ⟨4, ![128, 768, 24, 24]⟩
abbrev ST : Shape := ⟨2, ![100, 768]⟩
abbrev SC : Shape := ⟨1, ![768]⟩

/-- The row count 73728 = 128 · 24 · 24 as the f32 word both programs hold. -/
def n : EReal := Ideal.ofBits .f32 0x47900000#32
/-- The f32 word nearest 1e-12 that both programs add to the variance. -/
def eps : EReal := Ideal.ofBits .f32 0x2B8CBCCC#32

/-- Entry `c * 24 + h` of the first 24 rows of a table read row-major. -/
def flat24 (t : ST.Idx → EReal) (c : Fin 768) (h : Fin 24) : EReal :=
  t (ix2 (⟨(c.val * 24 + h.val) / 768, by have := c.isLt; have := h.isLt; omega⟩ : Fin 100)
         (⟨(c.val * 24 + h.val) % 768, Nat.mod_lt _ (by norm_num)⟩ : Fin 768))

/-- The positional term of channel `c` at row `h` and column `w`. -/
def pos (rt ct : ST.Idx → EReal) (c : Fin 768) (h w : Fin 24) : EReal := flat24 rt c h + flat24 ct c w

/-- The video plus its positional term. -/
def x (v : SV.Idx → EReal) (rt ct : ST.Idx → EReal) (b : Fin 128) (c : Fin 768) (h w : Fin 24) : EReal :=
  v (ix4 b c h w) + pos rt ct c h w

/-- Per-channel sum of `x` over batch, row and column. -/
def S1 (v : SV.Idx → EReal) (rt ct : ST.Idx → EReal) (c : Fin 768) : EReal :=
  ∑ b : Fin 128, ∑ h : Fin 24, ∑ w : Fin 24, x v rt ct b c h w

/-- Per-channel sum of `x²`. -/
def S2 (v : SV.Idx → EReal) (rt ct : ST.Idx → EReal) (c : Fin 768) : EReal :=
  ∑ b : Fin 128, ∑ h : Fin 24, ∑ w : Fin 24, x v rt ct b c h w * x v rt ct b c h w

/-- The per-channel mean. -/
def mean (v : SV.Idx → EReal) (rt ct : ST.Idx → EReal) (c : Fin 768) : EReal := Ideal.div (S1 v rt ct c) n

/-- Variance as mean of squares minus square of mean. -/
def varK (v : SV.Idx → EReal) (rt ct : ST.Idx → EReal) (c : Fin 768) : EReal :=
  Ideal.div (S2 v rt ct c) n - mean v rt ct c * mean v rt ct c

/-- The per-channel scale `g · rsqrt (var + ε)`. -/
def sc (v : SV.Idx → EReal) (rt ct : ST.Idx → EReal) (g : SC.Idx → EReal) (c : Fin 768) : EReal :=
  g (ix1 c) * Ideal.rsqrt (varK v rt ct c + eps)

/-- The folded form: `v · sc + (pos · sc + (b - mean · sc))`. -/
def kout (v : SV.Idx → EReal) (rt ct : ST.Idx → EReal) (g b : SC.Idx → EReal) : SV.Idx → EReal := fun i =>
  v i * sc v rt ct g (i 1) + (pos rt ct (i 1) (i 2) (i 3) * sc v rt ct g (i 1)
    + (b (ix1 (i 1)) - mean v rt ct (i 1) * sc v rt ct g (i 1)))

/-- Variance as the mean of the squared deviations. -/
def varR (v : SV.Idx → EReal) (rt ct : ST.Idx → EReal) (c : Fin 768) : EReal :=
  Ideal.div (∑ b : Fin 128, ∑ h : Fin 24, ∑ w : Fin 24,
    (x v rt ct b c h w - mean v rt ct c) * (x v rt ct b c h w - mean v rt ct c)) n

/-- The textbook form: `(x - mean) / sqrt (var + ε) · g + b`. -/
def rout (v : SV.Idx → EReal) (rt ct : ST.Idx → EReal) (g b : SC.Idx → EReal) : SV.Idx → EReal := fun i =>
  Ideal.div (x v rt ct (i 0) (i 1) (i 2) (i 3) - mean v rt ct (i 1)) (Ideal.sqrt (varR v rt ct (i 1) + eps))
    * g (ix1 (i 1)) + b (ix1 (i 1))

end Cert.Spec

end
-- ==== Proof.KernelIdealHostValue.lean ====
/-
  The host operations around the two regions, read at an index (at the ideal instance).

  Before the regions: the video `[128, 768, 24, 24]` is laid out channel-last and its two spatial axes merged, so entry
  `(b, p, ch)` of the `[128, 576, 768]` array is the video at `(b, ch, p / 24, p % 24)`; the positional table
  `[576, 768]` at `(p, ch)` is the row term of channel `ch` at row `p / 24` plus the column term at column `p % 24`,
  each term an entry of the first 24 rows of its table read row-major as `[768, 24]`; the two per-channel vectors become
  rows `[1, 768]`.  After the regions the `[128, 576, 768]` result is laid out channel-second again.
-/
import proofs.«168955_g2362232013395_cont_8to1_2029_9_alg».proof.Proof.Gen.KernelIdeal.Launch
import proofs.«168955_g2362232013395_cont_8to1_2029_9_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostValue

open Cert.KernelIdeal Cert.KernelIdeal.Gen
open Idealize.ShloMosaic Idealize.ShloMosaic.TcCoe Idealize.ShloMosaic.StableHlo Idealize.ShloMosaic.ValueIdx

variable (W : Valuation τ sig (Elt Ideal))

/-- The launch contents of the five arguments, as functions of an index. -/
abbrev a0 : FVec Ideal S128x768x24x24 .f32 := W (main_arg0 : DevRef τ sig)
abbrev a1 : FVec Ideal S100x768 .f32 := W (main_arg1 : DevRef τ sig)
abbrev a2 : FVec Ideal S100x768 .f32 := W (main_arg2 : DevRef τ sig)
abbrev a3 : FVec Ideal S768 .f32 := W (main_arg3 : DevRef τ sig)
abbrev a4 : FVec Ideal S768 .f32 := W (main_arg4 : DevRef τ sig)

/-! ## The video, channel-last with merged spatial axes -/

theorem v1_term : (after (hostOps0 (F := Ideal)) W (main_call0_v1 : DevRef τ sig) : S128x576x768.Idx → EReal)
    = shapeCast S128x576x768 (transpose S128x24x24x768 [0, 2, 3, 1] (a0 W) transposes_S128x768x24x24_S128x24x24x768_0_2_3_1)
        shapeCasts_S128x24x24x768_S128x576x768 := by
  after_results; rfl

theorem v1_apply (b : Fin 128) (p : Fin 576) (ch : Fin 768) :
    (after (hostOps0 (F := Ideal)) W (main_call0_v1 : DevRef τ sig) : S128x576x768.Idx → EReal) (ix3 b p ch)
      = a0 W (ix4 b ch (⟨p.val / 24, by have := p.isLt; omega⟩ : Fin 24) (⟨p.val % 24, Nat.mod_lt _ (by norm_num)⟩ : Fin 24)) := by
  rw [v1_term]
  refine (shapeCast_apply _ _ (ix3 b p ch)
    (ix4 b (⟨p.val / 24, by have := p.isLt; omega⟩ : Fin 24) (⟨p.val % 24, Nat.mod_lt _ (by norm_num)⟩ : Fin 24) ch) ?_).trans ?_
  · rw [Shape.rowMajor_val_four, Shape.rowMajor_val_three]
    show ((b.val * 24 + p.val / 24) * 24 + p.val % 24) * 768 + ch.val = (b.val * 576 + p.val) * 768 + ch.val
    have := Nat.div_add_mod p.val 24
    omega
  · exact transpose_apply _ _ _ _ _ (fun b' => by
      match b' with | ⟨0, _⟩ => rfl | ⟨1, _⟩ => rfl | ⟨2, _⟩ => rfl | ⟨3, _⟩ => rfl)

/-! ## The positional table -/

/-- One table's term: slice the first 24 rows, read them row-major as `[768, 24]`, transpose. -/
abbrev tab (t : FVec Ideal S100x768 .f32) : FVec Ideal S24x768 .f32 :=
  transpose S24x768 [1, 0] (shapeCast S768x24 (extractStridedSlice S24x768 ![0, 0] t slices_S100x768_S24x768_0_0) shapeCasts_S24x768_S768x24)
    transposes_S768x24_S24x768_1_0

theorem tab_apply (t : FVec Ideal S100x768 .f32) (h : Fin 24) (ch : Fin 768) :
    tab t (ix2 h ch) = Cert.Spec.flat24 t ch h := by
  unfold Cert.Spec.flat24
  refine (transpose_apply _ _ _ (ix2 h ch) (ix2 ch h) (fun b' => by
      match b' with | ⟨0, _⟩ => rfl | ⟨1, _⟩ => rfl)).trans ?_
  refine (shapeCast_apply _ _ (ix2 ch h)
    (ix2 (⟨(ch.val * 24 + h.val) / 768, by have := ch.isLt; have := h.isLt; omega⟩ : Fin 24)
         (⟨(ch.val * 24 + h.val) % 768, Nat.mod_lt _ (by norm_num)⟩ : Fin 768)) ?_).trans ?_
  · rw [Shape.rowMajor_val_two, Shape.rowMajor_val_two]
    show (ch.val * 24 + h.val) / 768 * 768 + (ch.val * 24 + h.val) % 768 = ch.val * 24 + h.val
    have := Nat.div_add_mod (ch.val * 24 + h.val) 768
    omega
  · exact extractStridedSlice_apply _ _ _ _ _ (fun a => by
      match a with | ⟨0, _⟩ => (show _ = 0 + _; simp) | ⟨1, _⟩ => (show _ = 0 + _; simp))

theorem v13_term : (after (hostOps0 (F := Ideal)) W (main_call0_v13 : DevRef τ sig) : S576x768.Idx → EReal)
    = shapeCast S576x768
        (addf (F := Ideal) (φ := .f32)
          (broadcastInDim S24x24x768 ![0, 1, 2] bcast_S24x1x768_S24x24x768_0_1_2
            (broadcastInDim S24x1x768 ![0, 2] bcast_S24x768_S24x1x768_0_2 (tab (a1 W)) : FVec Ideal S24x1x768 .f32) : FVec Ideal S24x24x768 .f32)
          (broadcastInDim S24x24x768 ![0, 1, 2] bcast_S1x24x768_S24x24x768_0_1_2
            (broadcastInDim S1x24x768 ![1, 2] bcast_S24x768_S1x24x768_1_2 (tab (a2 W)) : FVec Ideal S1x24x768 .f32) : FVec Ideal S24x24x768 .f32))
        shapeCasts_S24x24x768_S576x768 := by
  after_results; rfl

theorem v13_apply (p : Fin 576) (ch : Fin 768) :
    (after (hostOps0 (F := Ideal)) W (main_call0_v13 : DevRef τ sig) : S576x768.Idx → EReal) (ix2 p ch)
      = Cert.Spec.pos (a1 W) (a2 W) ch (⟨p.val / 24, by have := p.isLt; omega⟩ : Fin 24) (⟨p.val % 24, Nat.mod_lt _ (by norm_num)⟩ : Fin 24) := by
  rw [v13_term]
  unfold Cert.Spec.pos
  refine (shapeCast_apply _ _ (ix2 p ch)
    (ix3 (⟨p.val / 24, by have := p.isLt; omega⟩ : Fin 24) (⟨p.val % 24, Nat.mod_lt _ (by norm_num)⟩ : Fin 24) ch) ?_).trans ?_
  · rw [Shape.rowMajor_val_three, Shape.rowMajor_val_two]
    show (p.val / 24 * 24 + p.val % 24) * 768 + ch.val = p.val * 768 + ch.val
    have := Nat.div_add_mod p.val 24
    omega
  · rw [addf_apply]
    congr 1
    · refine (broadcastInDim_apply _ _ _ _ (ix3 (⟨p.val / 24, by have := p.isLt; omega⟩ : Fin 24) (0 : Fin 1) ch) (fun a => by
        match a with | ⟨0, _⟩ => rfl | ⟨1, _⟩ => rfl | ⟨2, _⟩ => rfl)).trans ?_
      refine (broadcastInDim_apply _ _ _ _ (ix2 (⟨p.val / 24, by have := p.isLt; omega⟩ : Fin 24) ch) (fun a => by
        match a with | ⟨0, _⟩ => rfl | ⟨1, _⟩ => rfl)).trans ?_
      exact tab_apply _ _ _
    · refine (broadcastInDim_apply _ _ _ _ (ix3 (0 : Fin 1) (⟨p.val % 24, Nat.mod_lt _ (by norm_num)⟩ : Fin 24) ch) (fun a => by
        match a with | ⟨0, _⟩ => rfl | ⟨1, _⟩ => rfl | ⟨2, _⟩ => rfl)).trans ?_
      refine (broadcastInDim_apply _ _ _ _ (ix2 (⟨p.val % 24, Nat.mod_lt _ (by norm_num)⟩ : Fin 24) ch) (fun a => by
        match a with | ⟨0, _⟩ => rfl | ⟨1, _⟩ => rfl)).trans ?_
      exact tab_apply _ _ _

/-! ## The two per-channel rows -/

theorem v14_term : (after (hostOps0 (F := Ideal)) W (main_call0_v14 : DevRef τ sig) : S1x768.Idx → EReal)
    = shapeCast S1x768 (a3 W) shapeCasts_S768_S1x768 := by
  after_results; rfl
theorem v15_term : (after (hostOps0 (F := Ideal)) W (main_call0_v15 : DevRef τ sig) : S1x768.Idx → EReal)
    = shapeCast S1x768 (a4 W) shapeCasts_S768_S1x768 := by
  after_results; rfl

theorem row_apply (x : FVec Ideal S768 .f32) (ch : Fin 768) :
    shapeCast S1x768 x shapeCasts_S768_S1x768 (ix2 (0 : Fin 1) ch) = x (ix1 ch) :=
  shapeCast_apply _ _ _ _ (by rw [Shape.rowMajor_val_one, Shape.rowMajor_val_two]; show ch.val = 0 * 768 + ch.val; omega)

theorem v14_apply (ch : Fin 768) :
    (after (hostOps0 (F := Ideal)) W (main_call0_v14 : DevRef τ sig) : S1x768.Idx → EReal) (ix2 (0 : Fin 1) ch) = a3 W (ix1 ch) := by
  rw [v14_term]; exact row_apply _ _
theorem v15_apply (ch : Fin 768) :
    (after (hostOps0 (F := Ideal)) W (main_call0_v15 : DevRef τ sig) : S1x768.Idx → EReal) (ix2 (0 : Fin 1) ch) = a4 W (ix1 ch) := by
  rw [v15_term]; exact row_apply _ _

/-! ## After the regions: back to channel-second -/

theorem out_term : (after (hostOps2 (F := Ideal)) W (main_v0 : DevRef τ sig) : S128x768x24x24.Idx → EReal)
    = transpose S128x768x24x24 [0, 3, 1, 2]
        (shapeCast S128x24x24x768 (W (main_call0_v17 : DevRef τ sig) : S128x576x768.Idx → EReal) shapeCasts_S128x576x768_S128x24x24x768)
        transposes_S128x24x24x768_S128x768x24x24_0_3_1_2 := by
  after_results; rfl

theorem out_apply (b : Fin 128) (ch : Fin 768) (h w : Fin 24) :
    (after (hostOps2 (F := Ideal)) W (main_v0 : DevRef τ sig) : S128x768x24x24.Idx → EReal) (ix4 b ch h w)
      = (W (main_call0_v17 : DevRef τ sig) : S128x576x768.Idx → EReal)
          (ix3 b (⟨h.val * 24 + w.val, by have := h.isLt; have := w.isLt; omega⟩ : Fin 576) ch) := by
  rw [out_term]
  refine (transpose_apply _ _ _ (ix4 b ch h w) (ix4 b h w ch) (fun b' => by
      match b' with | ⟨0, _⟩ => rfl | ⟨1, _⟩ => rfl | ⟨2, _⟩ => rfl | ⟨3, _⟩ => rfl)).trans ?_
  refine shapeCast_apply (s := S128x576x768) (t := S128x24x24x768) _ _ _ _ ?_
  rw [Shape.rowMajor_val_four, Shape.rowMajor_val_three]
  show (b.val * 576 + (h.val * 24 + w.val)) * 768 + ch.val = ((b.val * 24 + h.val) * 24 + w.val) * 768 + ch.val
  omega

end Cert.KernelIdeal.HostValue

end
-- ==== Proof.KernelIdealPayload1.lean ====
/-
  Region 1's arithmetic read at an index (at the ideal instance).

  With `s1`, `s2` the rows of sums and sums of squares, `g`, `bt` the two per-channel rows and `P` the positional table:
  the mean row is `s1 / n`, the scale row `g · rsqrt (s2 / n - mean² + ε)`, the folded table
  `P · scale + (bt - mean · scale)` (the scale and the shift repeated down the 576 positions), and the output block
  `v · scale + table` (scale repeated over batch entries and positions, the table over batch entries).
-/
import proofs.«168955_g2362232013395_cont_8to1_2029_9_alg».proof.Proof.Gen.KernelIdeal.Skeleton
import proofs.«168955_g2362232013395_cont_8to1_2029_9_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload1

open Cert.KernelIdeal Cert.KernelIdeal.Gen
open Idealize.ShloMosaic Idealize.ShloMosaic.ValueIdx

/-- A row `[1, 768]` repeated down 576 positions. -/
theorem rowBcast_apply (x : FVec Ideal S1x768 .f32) (p : Fin 576) (ch : Fin 768) :
    broadcastTo S576x768 x broadcasts_S1x768_S576x768 (ix2 p ch) = x (ix2 (0 : Fin 1) ch) :=
  broadcastTo_apply _ _ _ _ (fun a => by match a with | ⟨0, _⟩ => rfl | ⟨1, _⟩ => rfl)

/-- The mean row. -/
theorem pay1_apply (s1 : Vec Ideal S1x768 .f32) (ch : Fin 768) :
    k1_pay1 s1 (ix2 (0 : Fin 1) ch) = Ideal.div (s1 (ix2 (0 : Fin 1) ch)) Cert.Spec.n := by
  unfold k1_pay1 Cert.Spec.n
  simp only [shapeCast_self]
  rfl

/-- The scale row. -/
theorem pay2_apply (s1 s2 g : Vec Ideal S1x768 .f32) (ch : Fin 768) :
    k1_pay2 s1 s2 g (ix2 (0 : Fin 1) ch)
      = g (ix2 (0 : Fin 1) ch) * Ideal.rsqrt (Ideal.div (s2 (ix2 (0 : Fin 1) ch)) Cert.Spec.n
          - Ideal.div (s1 (ix2 (0 : Fin 1) ch)) Cert.Spec.n * Ideal.div (s1 (ix2 (0 : Fin 1) ch)) Cert.Spec.n + Cert.Spec.eps) := by
  unfold k1_pay2 k1_pay1 Cert.Spec.n Cert.Spec.eps
  simp only [shapeCast_self]
  rfl

theorem pay3_eq (s1 s2 g : Vec Ideal S1x768 .f32) : k1_pay3 s1 s2 g = k1_pay2 s1 s2 g := by
  unfold k1_pay3
  simp only [shapeCast_self]

/-- The folded table. -/
theorem pay4_apply (s1 s2 g : Vec Ideal S1x768 .f32) (P : Vec Ideal S576x768 .f32) (bt : Vec Ideal S1x768 .f32) (p : Fin 576) (ch : Fin 768) :
    k1_pay4 s1 s2 g P bt (ix2 p ch)
      = P (ix2 p ch) * k1_pay2 s1 s2 g (ix2 (0 : Fin 1) ch)
        + (bt (ix2 (0 : Fin 1) ch) - k1_pay1 s1 (ix2 (0 : Fin 1) ch) * k1_pay2 s1 s2 g (ix2 (0 : Fin 1) ch)) := by
  unfold k1_pay4
  simp only [shapeCast_self]
  show P (ix2 p ch) * broadcastTo S576x768 (k1_pay2 s1 s2 g) broadcasts_S1x768_S576x768 (ix2 p ch)
      + broadcastTo S576x768 (subf bt (mulf (k1_pay1 s1) (k1_pay2 s1 s2 g))) broadcasts_S1x768_S576x768 (ix2 p ch) = _
  rw [rowBcast_apply, rowBcast_apply]
  rfl

/-- The output block. -/
theorem pay5_apply (v : Vec Ideal S4x576x768 .f32) (sc : Vec Ideal S1x768 .f32) (T : Vec Ideal S576x768 .f32)
    (bb : Fin 4) (p : Fin 576) (ch : Fin 768) :
    k1_pay5 v sc T (ix3 bb p ch) = v (ix3 bb p ch) * sc (ix2 (0 : Fin 1) ch) + T (ix2 p ch) := by
  unfold k1_pay5
  simp only [shapeCast_self]
  show v (ix3 bb p ch) * broadcastTo S4x576x768 (shapeCast S1x1x768 sc shapeCasts_S1x768_S1x1x768) broadcasts_S1x1x768_S4x576x768 (ix3 bb p ch)
      + broadcastTo S4x576x768 (shapeCast S1x576x768 T shapeCasts_S576x768_S1x576x768) broadcasts_S1x576x768_S4x576x768 (ix3 bb p ch) = _
  congr 1
  · congr 1
    refine (broadcastTo_apply _ _ _ (ix3 (0 : Fin 1) (0 : Fin 1) ch) (fun a => by
      match a with | ⟨0, _⟩ => rfl | ⟨1, _⟩ => rfl | ⟨2, _⟩ => rfl)).trans ?_
    exact shapeCast_apply _ _ _ _ (by rw [Shape.rowMajor_val_two, Shape.rowMajor_val_three]; show 0 * 768 + ch.val = (0 * 1 + 0) * 768 + ch.val; omega)
  · refine (broadcastTo_apply _ _ _ (ix3 (0 : Fin 1) p ch) (fun a => by
      match a with | ⟨0, _⟩ => rfl | ⟨1, _⟩ => rfl | ⟨2, _⟩ => rfl)).trans ?_
    exact shapeCast_apply _ _ _ _ (by rw [Shape.rowMajor_val_two, Shape.rowMajor_val_three]; show p.val * 768 + ch.val = (0 * 576 + p.val) * 768 + ch.val; omega)

end Cert.KernelIdeal.Payload1

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.LibBatchMoments.lean ====
/-
  Batch moments over the extended reals.

  A column of real data has two spellings of its variance: the mean of the squares minus the
  square of the mean, and the mean of the squared deviations from the mean. Over the extended
  reals (where `⊤ - ⊤` is junk) the two agree when every entry is a real number; this file
  proves that, in the operations as programs spell them (`Ideal.div` for the quotient by the
  row count), together with the regrouping of a sum over `T * B` consecutive rows into `T`
  blocks of `B` rows, which is how a blocked accumulation meets a whole-column sum.
-/
import Mathlib.Data.EReal.Basic
import Mathlib.Data.EReal.Operations
import Mathlib.Algebra.BigOperators.Fin
import Mathlib.Algebra.BigOperators.Intervals
import Mathlib.Algebra.BigOperators.Ring.Finset
import Mathlib.Tactic.Ring
import Mathlib.Tactic.FieldSimp
import Mathlib.Tactic.NormNum
import Idealize.ShloMosaic.PureOps.Ideal

namespace Cert.LibBatchMoments

open Idealize.ShloMosaic
open scoped BigOperators

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

/-- The variance identity over the reals: with `S = ∑ o`, `Q = ∑ o²` and `n` the number of
    entries, `Q / n - (S / n)² = (∑ (o - S / n)²) / n`, written with products by `1 / n`. -/
theorem var_two_ways_real {ι : Type*} [Fintype ι] (o : ι → ℝ) (n : ℝ) (hn : n ≠ 0)
    (hcard : (Fintype.card ι : ℝ) = n) :
    (∑ i, o i * o i) * (1 / n) - (∑ i, o i) * (1 / n) * ((∑ i, o i) * (1 / n))
      = (∑ i, (o i - (∑ j, o j) * (1 / n)) * (o i - (∑ j, o j) * (1 / n))) * (1 / n) := by
  have expand : ∑ i, (o i - (∑ j, o j) * (1 / n)) * (o i - (∑ j, o j) * (1 / n))
      = (∑ i, o i * o i) - 2 * ((∑ j, o j) * (1 / n)) * (∑ i, o i)
        + n * (((∑ j, o j) * (1 / n)) * ((∑ j, o j) * (1 / n))) := by
    have h1 : ∀ i, (o i - (∑ j, o j) * (1 / n)) * (o i - (∑ j, o j) * (1 / n))
        = o i * o i - 2 * ((∑ j, o j) * (1 / n)) * o i
          + ((∑ j, o j) * (1 / n)) * ((∑ j, o j) * (1 / n)) := fun i => by ring
    rw [Finset.sum_congr rfl (fun i _ => h1 i), Finset.sum_add_distrib, Finset.sum_sub_distrib,
      ← Finset.mul_sum, Finset.sum_const, Finset.card_univ, nsmul_eq_mul, hcard]
  rw [expand]
  field_simp
  ring

/-- `E[o²] - E[o]² = E[(o - E[o])²]` for real data, over the extended reals and in the
    operations as programs spell them: every mean is `Ideal.div` of a sum by the row count
    `n`. The hypothesis that the data is real is in the type of `o`. -/
theorem var_two_ways {ι : Type*} [Fintype ι] (o : ι → ℝ) (n : ℝ) (hn : n ≠ 0)
    (hcard : (Fintype.card ι : ℝ) = n) :
    Ideal.div (∑ i, (o i : EReal) * (o i : EReal)) (n : EReal)
      - Ideal.div (∑ i, (o i : EReal)) (n : EReal) * Ideal.div (∑ i, (o i : EReal)) (n : EReal)
    = Ideal.div (∑ i, ((o i : EReal) - Ideal.div (∑ j, (o j : EReal)) (n : EReal))
        * ((o i : EReal) - Ideal.div (∑ j, (o j : EReal)) (n : EReal))) (n : EReal) := by
  have hmean : Ideal.div (∑ j, (o j : EReal)) (n : EReal)
      = (((∑ j, o j) * (1 / n) : ℝ) : EReal) := by
    rw [Ideal.div_coe hn, ← coe_sum, ← EReal.coe_mul]
  have hsq : (∑ i, (o i : EReal) * (o i : EReal)) = ((∑ i, o i * o i : ℝ) : EReal) := by
    rw [coe_sum]
    exact Finset.sum_congr rfl (fun i _ => (EReal.coe_mul _ _).symm)
  have hdev : (∑ i, ((o i : EReal) - (((∑ j, o j) * (1 / n) : ℝ) : EReal))
        * ((o i : EReal) - (((∑ j, o j) * (1 / n) : ℝ) : EReal)))
      = ((∑ i, (o i - (∑ j, o j) * (1 / n)) * (o i - (∑ j, o j) * (1 / n)) : ℝ) : EReal) := by
    rw [coe_sum]
    exact Finset.sum_congr rfl (fun i _ => by rw [← EReal.coe_sub, ← EReal.coe_mul])
  rw [hmean, hsq, hdev, Ideal.div_coe hn, Ideal.div_coe hn, ← EReal.coe_mul, ← EReal.coe_mul,
    ← EReal.coe_mul, ← EReal.coe_sub, var_two_ways_real o n hn hcard]

/-- A sum over `T * B` consecutive naturals is the sum over `T` blocks of `B`: entry `p` of the
    whole range is entry `r` of block `t` at `p = B * t + r`. -/
theorem sum_blocked {M : Type*} [AddCommMonoid M] (T B : ℕ) (g : ℕ → M) :
    ∑ p ∈ Finset.range (T * B), g p
      = ∑ t ∈ Finset.range T, ∑ r ∈ Finset.range B, g (B * t + r) := by
  induction T with
  | zero => simp
  | succ T ih =>
    rw [Finset.sum_range_succ, ← ih, Nat.succ_mul, Finset.sum_range_add, Nat.mul_comm T B]

/-- The instance at 50000 rows in 10 blocks of 5000, over `Fin` types. -/
theorem sum_rows_blocked {M : Type*} [AddCommMonoid M] (g : ℕ → M) :
    ∑ p : Fin 50000, g p.val = ∑ t ∈ Finset.range 10, ∑ r : Fin 5000, g (5000 * t + r.val) := by
  rw [Fin.sum_univ_eq_sum_range (fun p => g p), show (50000 : ℕ) = 10 * 5000 from rfl,
    sum_blocked 10 5000 g]
  exact Finset.sum_congr rfl
    (fun t _ => (Fin.sum_univ_eq_sum_range (fun r => g (5000 * t + r)) 5000).symm)

end Cert.LibBatchMoments
-- ==== Proof.KernelIdealValue0Pieces.lean ====
/-
  Region 0, the statistics pass, read as sums.

  One grid point reduces x0 + x1 (a block of 8 batch entries plus the positional table, repeated over the entries)
  and its square over the batch and position axes: at channel ch the two rows hold
  Σ_bb Σ_p (x0 (bb, p, ch) + x1 (p, ch)) and the same sum of squares, stored at the first point and added to the
  rows at every later one. Block t of the video is batch entries 8t … 8t + 7, the table's block is the table, so
  after the 16 points the rows hold the sums over all 128 batch entries.
-/
import Mathlib
import proofs.«168955_g2362232013395_cont_8to1_2029_9_alg».proof.Proof.KernelIdealRegion0
import proofs.«168955_g2362232013395_cont_8to1_2029_9_alg».proof.Proof.LibIdxSums
import proofs.«168955_g2362232013395_cont_8to1_2029_9_alg».proof.Proof.LibBatchMoments
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Value0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Region0Body Cert.KernelIdeal.Region0
open scoped BigOperators

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

/-- The block plus the table, at an entry. -/
theorem pay1_apply (x0 : Vec Ideal S8x576x768 .f32) (x1 : Vec Ideal S576x768 .f32) (bb : Fin 8) (p : Fin 576)
    (ch : Fin 768) : k0_pay1 x0 x1 (ix3 bb p ch) = x0 (ix3 bb p ch) + x1 (ix2 p ch) := by
  unfold k0_pay1
  simp only [shapeCast_self]
  show x0 (ix3 bb p ch) + broadcastTo S8x576x768 (shapeCast S1x576x768 x1 shapeCasts_S576x768_S1x576x768)
    broadcasts_S1x576x768_S8x576x768 (ix3 bb p ch) = _
  congr 1
  refine (broadcastTo_apply _ broadcasts_S1x576x768_S8x576x768 (ix3 bb p ch) (ix3 (0 : Fin 1) p ch) (fun a => ?_)).trans ?_
  · match a with
    | ⟨0, _⟩ => rfl
    | ⟨1, _⟩ => rfl
    | ⟨2, _⟩ => rfl
  · exact shapeCast_ab_1ab_apply x1 shapeCasts_S576x768_S1x576x768 (0 : Fin 1) p ch

/-- A sum over the batch and position axes of a [8, 576, 768] array, at channel ch. -/
theorem reduce01 (h : S8x576x768.Reduces [0, 1] S768) (src : S8x576x768.Idx → EReal) (ch : Fin 768) :
    Ideal.reduceAdd h src (ix1 ch) = ∑ bb : Fin 8, ∑ p : Fin 576, src (ix3 bb p ch) := by
  unfold Ideal.reduceAdd
  rw [Finset.sum_filter, Cert.LibIdxSums.sum_idx3]
  refine Finset.sum_congr rfl fun bb _ => Finset.sum_congr rfl fun p _ => ?_
  have key : ∀ c : Fin 768, (h.drop (ix3 bb p c) = ix1 ch) ↔ c = ch := by
    intro c
    have hv : ((h.drop (ix3 bb p c) 0 : Fin 768) : Nat) = c.val :=
      Shape.Reduces.drop_apply_val_of_eq h (ix3 bb p c) 0 2
    constructor
    · intro e
      apply Fin.ext
      rw [← hv, e]
    · intro e
      subst e
      funext d
      match d with
      | ⟨0, _⟩ => exact Fin.ext hv
  simp only [key]
  rw [Finset.sum_ite_eq' Finset.univ ch]
  simp

/-- The row of sums of one point, at channel ch. -/
theorem pay2_apply (x0 : Vec Ideal S8x576x768 .f32) (x1 : Vec Ideal S576x768 .f32) (ch : Fin 768) :
    k0_pay2 x0 x1 (ix2 (0 : Fin 1) ch) = ∑ bb : Fin 8, ∑ p : Fin 576, (x0 (ix3 bb p ch) + x1 (ix2 p ch)) := by
  unfold k0_pay2
  refine (shapeCast_a_1a_apply _ shapeCasts_S768_S1x768 (0 : Fin 1) ch).trans ?_
  refine (reduce01 reduces_S8x576x768_S768 (k0_pay1 x0 x1) ch).trans ?_
  exact Finset.sum_congr rfl fun bb _ => Finset.sum_congr rfl fun p _ => pay1_apply x0 x1 bb p ch

/-- The row of sums of squares of one point, at channel ch. -/
theorem pay3_apply (x0 : Vec Ideal S8x576x768 .f32) (x1 : Vec Ideal S576x768 .f32) (ch : Fin 768) :
    k0_pay3 x0 x1 (ix2 (0 : Fin 1) ch)
      = ∑ bb : Fin 8, ∑ p : Fin 576, (x0 (ix3 bb p ch) + x1 (ix2 p ch)) * (x0 (ix3 bb p ch) + x1 (ix2 p ch)) := by
  unfold k0_pay3
  refine (shapeCast_a_1a_apply _ shapeCasts_S768_S1x768 (0 : Fin 1) ch).trans ?_
  refine (reduce01 reduces_S8x576x768_S768 (mulf (k0_pay1 x0 x1) (k0_pay1 x0 x1)) ch).trans ?_
  refine Finset.sum_congr rfl fun bb _ => Finset.sum_congr rfl fun p _ => ?_
  show k0_pay1 x0 x1 (ix3 bb p ch) * k0_pay1 x0 x1 (ix3 bb p ch) = _
  rw [pay1_apply]

/-- First point: the row of sums. -/
theorem outA2_apply (x0 : Vec Ideal S8x576x768 .f32) (x1 : Vec Ideal S576x768 .f32) (ch : Fin 768) :
    outA2 x0 x1 (ix2 (0 : Fin 1) ch) = ∑ bb : Fin 8, ∑ p : Fin 576, (x0 (ix3 bb p ch) + x1 (ix2 p ch)) := by
  unfold outA2
  rw [View.canon_unit_zero hz2, View.ld_unit_zero (S := S8x576x768) hz3, View.ld_unit_zero (S := S576x768) hz2]
  exact pay2_apply x0 x1 ch

/-- First point: the row of sums of squares. -/
theorem outA3_apply (x0 : Vec Ideal S8x576x768 .f32) (x1 : Vec Ideal S576x768 .f32) (ch : Fin 768) :
    outA3 x0 x1 (ix2 (0 : Fin 1) ch)
      = ∑ bb : Fin 8, ∑ p : Fin 576, (x0 (ix3 bb p ch) + x1 (ix2 p ch)) * (x0 (ix3 bb p ch) + x1 (ix2 p ch)) := by
  unfold outA3
  rw [View.canon_unit_zero hz2, View.ld_unit_zero (S := S8x576x768) hz3, View.ld_unit_zero (S := S576x768) hz2]
  exact pay3_apply x0 x1 ch

/-- A later point: the row so far plus this point's sums. -/
theorem outB2_apply (x0 : Vec Ideal S8x576x768 .f32) (x1 : Vec Ideal S576x768 .f32) (o : Vec Ideal S1x768 .f32)
    (ch : Fin 768) :
    outB2 x0 x1 o (ix2 (0 : Fin 1) ch)
      = o (ix2 (0 : Fin 1) ch) + ∑ bb : Fin 8, ∑ p : Fin 576, (x0 (ix3 bb p ch) + x1 (ix2 p ch)) := by
  unfold outB2
  rw [View.canon_unit_zero hz2, View.ld_unit_zero (S := S8x576x768) hz3, View.ld_unit_zero (S := S576x768) hz2,
    View.ld_unit_zero (S := S1x768) hz2]
  unfold k0_pay4
  simp only [shapeCast_self]
  show o (ix2 (0 : Fin 1) ch) + k0_pay2 x0 x1 (ix2 (0 : Fin 1) ch) = _
  rw [pay2_apply]

/-- A later point: the row of squares so far plus this point's. -/
theorem outB3_apply (x0 : Vec Ideal S8x576x768 .f32) (x1 : Vec Ideal S576x768 .f32) (o : Vec Ideal S1x768 .f32)
    (ch : Fin 768) :
    outB3 x0 x1 o (ix2 (0 : Fin 1) ch)
      = o (ix2 (0 : Fin 1) ch)
        + ∑ bb : Fin 8, ∑ p : Fin 576, (x0 (ix3 bb p ch) + x1 (ix2 p ch)) * (x0 (ix3 bb p ch) + x1 (ix2 p ch)) := by
  unfold outB3
  rw [View.canon_unit_zero hz2, View.ld_unit_zero (S := S8x576x768) hz3, View.ld_unit_zero (S := S576x768) hz2,
    View.ld_unit_zero (S := S1x768) hz2]
  unfold k0_pay5
  simp only [shapeCast_self]
  show o (ix2 (0 : Fin 1) ch) + k0_pay3 x0 x1 (ix2 (0 : Fin 1) ch) = _
  rw [pay3_apply]

/-! ## The blocks as entries of the arrays -/

-- the contents of the TensorCore's buffers when the region is entered
variable (V : (c : Dev nD) → (b : Ref sig .tc) → Buf (Elt Ideal) ((c : Thread nD τ).loc b))

/-- The video as the region finds it: [128, 576, 768] extended reals. -/
def xin (c : Dev nD) : Vec Ideal S128x576x768 .f32 := V c main_call0_v1
theorem xin_eq (c : Dev nD) : xin V c = V c main_call0_v1 := rfl
/-- The positional table as the region finds it: [576, 768] extended reals. -/
def tin (c : Dev nD) : Vec Ideal S576x768 .f32 := V c main_call0_v13
theorem tin_eq (c : Dev nD) : tin V c = V c main_call0_v13 := rfl
/-- The video's block at point t. -/
abbrev blkV (c : Dev nD) (t : Fin cfg0.N) : S8x576x768.Idx → EReal := iblk0 V c 0 t
/-- The table's block at point t. -/
abbrev blkT (c : Dev nD) (t : Fin cfg0.N) : S576x768.Idx → EReal := iblk0 V c 1 t

/-- Point t reads block t of the video along the batch axis, block 0 along the others. -/
theorem index0_0 : ∀ t : Fin grid0.N, win0_0.index t 0 = t.val ∧ win0_0.index t 1 = 0 ∧ win0_0.index t 2 = 0 := by
  decide +kernel
/-- Every point reads block (0, 0) of the table: the table. -/
theorem index0_1 : ∀ t : Fin grid0.N, win0_1.index t 0 = 0 ∧ win0_1.index t 1 = 0 := by
  decide +kernel

/-- Entry (bb, p, ch) of the video's block at point t is entry (8t + bb, p, ch) of the video. -/
theorem iblk0_0_apply (c : Dev nD) (t : Fin cfg0.N) (bb : Fin 8) (p : Fin 576) (ch : Fin 768) (k : S128x576x768.Idx)
    (hk0 : (k 0).val = 8 * t.val + bb.val) (hk1 : (k 1).val = p.val) (hk2 : (k 2).val = ch.val) :
    blkV V c t (ix3 bb p ch) = xin V c k := by
  obtain ⟨h0, h1, h2⟩ := index0_0 t
  unfold blkV xin iblk0
  rw [View.read_apply]
  show V c main_call0_v1 _ = V c main_call0_v1 k
  congr 1
  funext a
  apply Fin.ext
  match a with
  | ⟨0, _⟩ => show win0_0.index t 0 * 8 + 1 * bb.val = (k 0).val; rw [h0, hk0]; omega
  | ⟨1, _⟩ => show win0_0.index t 1 * 576 + 1 * p.val = (k 1).val; rw [h1, hk1]; omega
  | ⟨2, _⟩ => show win0_0.index t 2 * 768 + 1 * ch.val = (k 2).val; rw [h2, hk2]; omega

/-- Entry (p, ch) of the table's block at any point is entry (p, ch) of the table. -/
theorem iblk0_1_apply (c : Dev nD) (t : Fin cfg0.N) (p : Fin 576) (ch : Fin 768) :
    blkT V c t (ix2 p ch) = tin V c (ix2 p ch) := by
  obtain ⟨h0, h1⟩ := index0_1 t
  unfold blkT tin iblk0
  rw [View.read_apply]
  show V c main_call0_v13 _ = V c main_call0_v13 (ix2 p ch)
  congr 1
  funext a
  apply Fin.ext
  match a with
  | ⟨0, _⟩ => show win0_1.index t 0 * 576 + 1 * p.val = p.val; rw [h0]; omega
  | ⟨1, _⟩ => show win0_1.index t 1 * 768 + 1 * ch.val = ch.val; rw [h1]; omega

/-! ## The 16 points -/

/-- The video plus the table, through φ, summed over the positions, at batch entry m (0 beyond the 128 entries). -/
def colSum (c : Dev nD) (φ : EReal → EReal) (ch : Fin 768) (m : ℕ) : EReal :=
  if h : m < 128 then ∑ p : Fin 576, φ (xin V c (ix3 (⟨m, h⟩ : Fin 128) p ch) + tin V c (ix2 p ch)) else 0

/-- One point's double sum over its blocks is the sum of colSum over batch entries 8t … 8t + 7. -/
theorem block_sum (c : Dev nD) (φ : EReal → EReal) (ch : Fin 768) (t : Fin cfg0.N) :
    ∑ bb : Fin 8, ∑ p : Fin 576, φ (blkV V c t (ix3 bb p ch) + blkT V c t (ix2 p ch))
      = ∑ bb : Fin 8, colSum V c φ ch (8 * t.val + bb.val) := by
  have hN : t.val < 16 := lt_of_lt_of_eq t.isLt (show cfg0.N = 16 from N_0)
  refine Finset.sum_congr rfl fun bb _ => ?_
  have hb : 8 * t.val + bb.val < 128 := by have := bb.isLt; omega
  unfold colSum
  rw [dif_pos hb]
  refine Finset.sum_congr rfl fun p _ => ?_
  rw [iblk0_0_apply V c t bb p ch (ix3 (⟨8 * t.val + bb.val, hb⟩ : Fin 128) p ch) rfl rfl rfl, iblk0_1_apply V c t p ch]

/-- A row that is stored at the first point and added to at every later one holds, after point n, the sums over
    points 0 … n. -/
theorem chain_upto (c : Dev nD) (φ : EReal → EReal) (ch : Fin 768) (R : (n : ℕ) → n < cfg0.N → EReal)
    (h0 : ∀ hn : 0 < cfg0.N, R 0 hn = ∑ bb : Fin 8, ∑ p : Fin 576,
      φ (blkV V c ⟨0, hn⟩ (ix3 bb p ch) + blkT V c ⟨0, hn⟩ (ix2 p ch)))
    (hs : ∀ (n : ℕ) (hn : n + 1 < cfg0.N), R (n + 1) hn = R n (Nat.lt_of_succ_lt hn) + ∑ bb : Fin 8, ∑ p : Fin 576,
      φ (blkV V c ⟨n + 1, hn⟩ (ix3 bb p ch) + blkT V c ⟨n + 1, hn⟩ (ix2 p ch))) :
    ∀ (n : ℕ) (hn : n < cfg0.N), R n hn = ∑ t ∈ Finset.range (n + 1), ∑ bb : Fin 8, colSum V c φ ch (8 * t + bb.val)
  | 0, hn => by
    rw [h0 hn, block_sum V c φ ch ⟨0, hn⟩, Finset.sum_range_one]
  | n + 1, hn => by
    rw [hs n hn, chain_upto c φ ch R h0 hs n (Nat.lt_of_succ_lt hn), block_sum V c φ ch ⟨n + 1, hn⟩,
      Finset.sum_range_succ _ (n + 1)]

/-- The sums over the 16 blocks of 8 are the sum over the 128 batch entries. -/
theorem regroup (c : Dev nD) (φ : EReal → EReal) (ch : Fin 768) :
    ∑ t ∈ Finset.range (15 + 1), ∑ bb : Fin 8, colSum V c φ ch (8 * t + bb.val)
      = ∑ b : Fin 128, ∑ p : Fin 576, φ (xin V c (ix3 b p ch) + tin V c (ix2 p ch)) := by
  have e1 : ∀ t : ℕ, ∑ bb : Fin 8, colSum V c φ ch (8 * t + bb.val) = ∑ r ∈ Finset.range 8, colSum V c φ ch (8 * t + r) :=
    fun t => Fin.sum_univ_eq_sum_range (fun r => colSum V c φ ch (8 * t + r)) 8
  rw [Finset.sum_congr rfl (fun t _ => e1 t), show (15 + 1 : ℕ) = 16 from rfl,
    ← Cert.LibBatchMoments.sum_blocked 16 8 (colSum V c φ ch), show (16 * 8 : ℕ) = 128 from rfl,
    ← Fin.sum_univ_eq_sum_range (colSum V c φ ch) 128]
  refine Finset.sum_congr rfl fun b _ => ?_
  unfold colSum
  rw [dif_pos b.isLt]

end Cert.KernelIdeal.Value0

end
-- ==== Proof.KernelIdealValue0.lean ====
/-
  Region 0, the statistics pass: after its 16 grid points the two output rows hold, at every channel, the sum and the
  sum of squares of (video + positional table) over all 128 batch entries and 576 positions.

  The rows are stored at the first point and added to at every later one; each point contributes the sums over its
  block of 8 batch entries, and 16 blocks of 8 are the 128 entries.
-/
import proofs.«168955_g2362232013395_cont_8to1_2029_9_alg».proof.Proof.KernelIdealValue0Pieces

set_option maxRecDepth 16384

noncomputable section

namespace Cert.KernelIdeal.Value0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Region0Body Cert.KernelIdeal.Region0
open scoped BigOperators

variable (V : (c : Dev nD) → (b : Ref sig .tc) → Buf (Elt Ideal) ((c : Thread nD τ).loc b))

/-- Point 15 is a point of the grid. -/
theorem h15 : 15 < cfg0.N := by rw [show cfg0.N = 16 from N_0]; decide

/-- The recursion's two equations. -/
theorem outsAt0_zero (c : Dev nD) (hn : 0 < cfg0.N) :
    Region0.outsAt0 (F := Ideal) V c 0 hn
      = (outA2 (iblk0 V c 0 ⟨0, hn⟩) (iblk0 V c 1 ⟨0, hn⟩), outA3 (iblk0 V c 0 ⟨0, hn⟩) (iblk0 V c 1 ⟨0, hn⟩)) := rfl
theorem outsAt0_succ (c : Dev nD) (n : ℕ) (hn : n + 1 < cfg0.N) :
    Region0.outsAt0 (F := Ideal) V c (n + 1) hn
      = (outB2 (iblk0 V c 0 ⟨n + 1, hn⟩) (iblk0 V c 1 ⟨n + 1, hn⟩) (Region0.outsAt0 V c n (Nat.lt_of_succ_lt hn)).1,
         outB3 (iblk0 V c 0 ⟨n + 1, hn⟩) (iblk0 V c 1 ⟨n + 1, hn⟩) (Region0.outsAt0 V c n (Nat.lt_of_succ_lt hn)).2) := rfl

/-- After the last point the row of sums holds, at channel ch, the sum over all batch entries and positions. -/
theorem sum_row (c : Dev nD) (ch : Fin 768) :
    (Region0.outsAt0 (F := Ideal) V c 15 h15).1 (ix2 (0 : Fin 1) ch)
      = ∑ b : Fin 128, ∑ p : Fin 576, (xin V c (ix3 b p ch) + tin V c (ix2 p ch)) := by
  have h0 : ∀ hn : 0 < cfg0.N, (Region0.outsAt0 (F := Ideal) V c 0 hn).1 (ix2 (0 : Fin 1) ch)
      = ∑ bb : Fin 8, ∑ p : Fin 576, (fun x : EReal => x) (blkV V c ⟨0, hn⟩ (ix3 bb p ch) + blkT V c ⟨0, hn⟩ (ix2 p ch)) :=
    fun hn => by
      rw [outsAt0_zero]
      dsimp only
      exact outA2_apply (blkV V c ⟨0, hn⟩) (blkT V c ⟨0, hn⟩) ch
  have hs : ∀ (n : ℕ) (hn : n + 1 < cfg0.N), (Region0.outsAt0 (F := Ideal) V c (n + 1) hn).1 (ix2 (0 : Fin 1) ch)
      = (Region0.outsAt0 (F := Ideal) V c n (Nat.lt_of_succ_lt hn)).1 (ix2 (0 : Fin 1) ch)
        + ∑ bb : Fin 8, ∑ p : Fin 576,
            (fun x : EReal => x) (blkV V c ⟨n + 1, hn⟩ (ix3 bb p ch) + blkT V c ⟨n + 1, hn⟩ (ix2 p ch)) :=
    fun n hn => by
      rw [outsAt0_succ]
      dsimp only
      exact outB2_apply (blkV V c ⟨n + 1, hn⟩) (blkT V c ⟨n + 1, hn⟩) (Region0.outsAt0 V c n (Nat.lt_of_succ_lt hn)).1 ch
  exact (chain_upto V c (fun x : EReal => x) ch
    (fun n hn => (Region0.outsAt0 (F := Ideal) V c n hn).1 (ix2 (0 : Fin 1) ch)) h0 hs 15 _).trans
    (regroup V c (fun x : EReal => x) ch)

/-- After the last point the row of sums of squares holds, at channel ch, the sum of the squares. -/
theorem sq_row (c : Dev nD) (ch : Fin 768) :
    (Region0.outsAt0 (F := Ideal) V c 15 h15).2 (ix2 (0 : Fin 1) ch)
      = ∑ b : Fin 128, ∑ p : Fin 576,
          (xin V c (ix3 b p ch) + tin V c (ix2 p ch)) * (xin V c (ix3 b p ch) + tin V c (ix2 p ch)) := by
  have h0 : ∀ hn : 0 < cfg0.N, (Region0.outsAt0 (F := Ideal) V c 0 hn).2 (ix2 (0 : Fin 1) ch)
      = ∑ bb : Fin 8, ∑ p : Fin 576,
          (fun x : EReal => x * x) (blkV V c ⟨0, hn⟩ (ix3 bb p ch) + blkT V c ⟨0, hn⟩ (ix2 p ch)) :=
    fun hn => by
      rw [outsAt0_zero]
      dsimp only
      exact outA3_apply (blkV V c ⟨0, hn⟩) (blkT V c ⟨0, hn⟩) ch
  have hs : ∀ (n : ℕ) (hn : n + 1 < cfg0.N), (Region0.outsAt0 (F := Ideal) V c (n + 1) hn).2 (ix2 (0 : Fin 1) ch)
      = (Region0.outsAt0 (F := Ideal) V c n (Nat.lt_of_succ_lt hn)).2 (ix2 (0 : Fin 1) ch)
        + ∑ bb : Fin 8, ∑ p : Fin 576,
            (fun x : EReal => x * x) (blkV V c ⟨n + 1, hn⟩ (ix3 bb p ch) + blkT V c ⟨n + 1, hn⟩ (ix2 p ch)) :=
    fun n hn => by
      rw [outsAt0_succ]
      dsimp only
      exact outB3_apply (blkV V c ⟨n + 1, hn⟩) (blkT V c ⟨n + 1, hn⟩) (Region0.outsAt0 V c n (Nat.lt_of_succ_lt hn)).2 ch
  exact (chain_upto V c (fun x : EReal => x * x) ch
    (fun n hn => (Region0.outsAt0 (F := Ideal) V c n hn).2 (ix2 (0 : Fin 1) ch)) h0 hs 15 _).trans
    (regroup V c (fun x : EReal => x * x) ch)

end Cert.KernelIdeal.Value0

end
-- ==== Proof.KernelIdealValue0Arr.lean ====
/- The statistics pass read at its two output arrays: the row of sums and the row of sums of squares.

   Each is one row of 768 channels, staged whole, accumulated into at every one of the 16 grid points, and written back
   once, after the last point. So after the pass each array holds exactly what the body left in its buffer after
   point 15: the one write-back covers the whole row, and nothing else writes the array. -/
import proofs.«168955_g2362232013395_cont_8to1_2029_9_alg».proof.Proof.KernelIdealRegion0
import Idealize.ShloMosaic.Lib.Pipeline.Value
import Idealize.ShloMosaic.Lib.ValueIdx

set_option maxRecDepth 16384

noncomputable section

namespace Cert.KernelIdeal.Value0Arr

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The last of the 16 grid points. -/
theorem h15 : 15 < cfg0.N := by rw [show cfg0.N = 16 from N_0]; decide

/-- The printed index maps of the two row windows over the 16 points: always block 0 on both axes. Decided over
    the grid. -/
theorem index_facts : ∀ t : Fin cfg0.N,
    win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The row of sums -/

/-- An index of the row is in point `t`'s block iff each coordinate is in the block's range on its axis. -/
theorem mem_blk2 (t : Fin cfg0.N) (i : S1x768.Idx) :
    i ∈ ((cfg0.win 2).blk t).view.set ↔ ∀ a : Fin 2, win0_2.index t a * S1x768.size a ≤ (i a).val ∧ (i a).val < win0_2.index t a * S1x768.size a + S1x768.size a := by
  show i ∈ ((View.whole main_call0_v16_0).slice (win0_2.rect t)).set ↔ _
  rw [View.set_slice_whole, Rect.mem_set_unit]
  exact Iff.rfl

/-- The window's block is the whole row at every point: read through it, any contents are themselves. -/
theorem read_blk2 (t : Fin cfg0.N) (X : S1x768.Idx → Elt F .f32) : ((cfg0.win 2).blk t).view.read (Elt F) X = X := by
  have e := index_facts t
  funext j
  show X (((cfg0.win 2).blk t).view.emb j) = X j
  congr 1
  funext a; apply Fin.ext
  match a with
  | ⟨0, _⟩ => show win0_2.index t (0 : Fin 2) * 1 + 1 * (j 0).val = (j 0).val; omega
  | ⟨1, _⟩ => show win0_2.index t (1 : Fin 2) * 768 + 1 * (j 1).val = (j 1).val; omega

/-- The one write-back, after the last point, writes what the body left there. -/
theorem flushed2_eq (c : Dev nD) (t : Fin cfg0.N) (hf : (cfg0.win 2).flush t = true) :
    (Region0.dat0 V c).flushed 2 t = ((cfg0.win 2).blk t).view.read (Elt F) (Region0.outsAt0 V c 15 h15).1 := by
  have hN : t.val < 16 := lt_of_lt_of_eq t.isLt (show cfg0.N = 16 from N_0)
  have h := (flush0_2 t).mp hf
  obtain rfl : t = ⟨15, h15⟩ := Fin.ext (by show t.val = 15; omega)
  show (cfg0.win 2).cut (grid0.coords ⟨15, h15⟩) ((Region0.dat0 V c).after 2 ⟨15, h15⟩) = _
  rw [Region0.after0_2, read_blk2]
  rfl

/-- Every index of the row lies in the last point's block, which is written back. -/
theorem covered2 (i : S1x768.Idx) :
    ∃ t : Fin cfg0.N, (cfg0.win 2).flush t = true ∧ i ∈ ((cfg0.win 2).blk t).view.set := by
  have hi0 : (i 0).val < 1 := (i 0).isLt
  have hi1 : (i 1).val < 768 := (i 1).isLt
  have e := index_facts ⟨15, h15⟩
  refine ⟨⟨15, h15⟩, (flush0_2 _).mpr (by decide), ?_⟩
  rw [mem_blk2]
  intro a
  match a with
  | ⟨0, _⟩ => show win0_2.index ⟨15, h15⟩ (0 : Fin 2) * 1 ≤ (i 0).val ∧ (i 0).val < win0_2.index ⟨15, h15⟩ (0 : Fin 2) * 1 + 1; omega
  | ⟨1, _⟩ => show win0_2.index ⟨15, h15⟩ (1 : Fin 2) * 768 ≤ (i 1).val ∧ (i 1).val < win0_2.index ⟨15, h15⟩ (1 : Fin 2) * 768 + 768; omega

/-- After the pass the row's array holds what the body left after the last point. -/
theorem arr2 (c : Dev nD) : (Region0.dat0 V c).arrAt 2 cfg0.N = (Region0.outsAt0 V c 15 h15).1 :=
  (Region0.dat0 V c).arrAt_eq_of_cover 2 (Region0.outsAt0 V c 15 h15).1 (fun t hf => flushed2_eq V c t hf) covered2

/-! ## The row of sums of squares -/

/-- An index of the row is in point `t`'s block iff each coordinate is in the block's range on its axis. -/
theorem mem_blk3 (t : Fin cfg0.N) (i : S1x768.Idx) :
    i ∈ ((cfg0.win 3).blk t).view.set ↔ ∀ a : Fin 2, win0_3.index t a * S1x768.size a ≤ (i a).val ∧ (i a).val < win0_3.index t a * S1x768.size a + S1x768.size a := by
  show i ∈ ((View.whole main_call0_v16_1).slice (win0_3.rect t)).set ↔ _
  rw [View.set_slice_whole, Rect.mem_set_unit]
  exact Iff.rfl

/-- The window's block is the whole row at every point: read through it, any contents are themselves. -/
theorem read_blk3 (t : Fin cfg0.N) (X : S1x768.Idx → Elt F .f32) : ((cfg0.win 3).blk t).view.read (Elt F) X = X := by
  have e := index_facts t
  funext j
  show X (((cfg0.win 3).blk t).view.emb j) = X j
  congr 1
  funext a; apply Fin.ext
  match a with
  | ⟨0, _⟩ => show win0_3.index t (0 : Fin 2) * 1 + 1 * (j 0).val = (j 0).val; omega
  | ⟨1, _⟩ => show win0_3.index t (1 : Fin 2) * 768 + 1 * (j 1).val = (j 1).val; omega

/-- The one write-back, after the last point, writes what the body left there. -/
theorem flushed3_eq (c : Dev nD) (t : Fin cfg0.N) (hf : (cfg0.win 3).flush t = true) :
    (Region0.dat0 V c).flushed 3 t = ((cfg0.win 3).blk t).view.read (Elt F) (Region0.outsAt0 V c 15 h15).2 := by
  have hN : t.val < 16 := lt_of_lt_of_eq t.isLt (show cfg0.N = 16 from N_0)
  have h := (flush0_3 t).mp hf
  obtain rfl : t = ⟨15, h15⟩ := Fin.ext (by show t.val = 15; omega)
  show (cfg0.win 3).cut (grid0.coords ⟨15, h15⟩) ((Region0.dat0 V c).after 3 ⟨15, h15⟩) = _
  rw [Region0.after0_3, read_blk3]
  rfl

/-- Every index of the row lies in the last point's block, which is written back. -/
theorem covered3 (i : S1x768.Idx) :
    ∃ t : Fin cfg0.N, (cfg0.win 3).flush t = true ∧ i ∈ ((cfg0.win 3).blk t).view.set := by
  have hi0 : (i 0).val < 1 := (i 0).isLt
  have hi1 : (i 1).val < 768 := (i 1).isLt
  have e := index_facts ⟨15, h15⟩
  refine ⟨⟨15, h15⟩, (flush0_3 _).mpr (by decide), ?_⟩
  rw [mem_blk3]
  intro a
  match a with
  | ⟨0, _⟩ => show win0_3.index ⟨15, h15⟩ (0 : Fin 2) * 1 ≤ (i 0).val ∧ (i 0).val < win0_3.index ⟨15, h15⟩ (0 : Fin 2) * 1 + 1; omega
  | ⟨1, _⟩ => show win0_3.index ⟨15, h15⟩ (1 : Fin 2) * 768 ≤ (i 1).val ∧ (i 1).val < win0_3.index ⟨15, h15⟩ (1 : Fin 2) * 768 + 768; omega

/-- After the pass the row's array holds what the body left after the last point. -/
theorem arr3 (c : Dev nD) : (Region0.dat0 V c).arrAt 3 cfg0.N = (Region0.outsAt0 V c 15 h15).2 :=
  (Region0.dat0 V c).arrAt_eq_of_cover 3 (Region0.outsAt0 V c 15 h15).2 (fun t hf => flushed3_eq V c t hf) covered3

end Cert.KernelIdeal.Value0Arr

end
-- ==== Proof.KernelIdealValue1.lean ====
/- The normalisation pass read as a function of the arrays it is entered with, at the ideal instance: each window's
   block in terms of its array, and the array the pass leaves.

   Window 0 at grid point `t` is batch entries `4t … 4t+3` of the input array; windows 1–5 are their whole arrays. So
   the scale row and the folded table are functions of the whole arrays, and the output array ends, at batch entry
   `b`, position `p`, channel `ch`, holding  input(b, p, ch) · scale(ch) + table(p, ch):  every index lies in the block
   of point `b / 4`, and every point writes that function of its block. -/
import proofs.«168955_g2362232013395_cont_8to1_2029_9_alg».proof.Proof.KernelIdealRegion1
import proofs.«168955_g2362232013395_cont_8to1_2029_9_alg».proof.Proof.KernelIdealPayload1
import Idealize.ShloMosaic.Lib.Pipeline.Value
import Idealize.ShloMosaic.Lib.ValueIdx

set_option maxRecDepth 16384

noncomputable section

namespace Cert.KernelIdeal.Value1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The index maps -/

/-- The printed index maps over the 32 grid points: the input block and the output block of point `t` are block `t`
    along the batch axis and block 0 along the others; windows 1–5 are always at block 0. Decided over the grid. -/
theorem index_facts : ∀ t : Fin cfg1.N,
    win1_0.index t (0 : Fin 3) = t.val ∧ win1_0.index t (1 : Fin 3) = 0 ∧ win1_0.index t (2 : Fin 3) = 0
    ∧ win1_6.index t (0 : Fin 3) = t.val ∧ win1_6.index t (1 : Fin 3) = 0 ∧ win1_6.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Batch entry `4t + bb` is one of the 128. -/
theorem batch_lt (t : Fin cfg1.N) (bb : Fin 4) : 4 * t.val + bb.val < 128 := by
  have h1 : t.val < 32 := lt_of_lt_of_eq t.isLt (show cfg1.N = 32 from N_1)
  have h2 := bb.isLt
  omega

/-! ## The windows' blocks in terms of their arrays -/

/-- Window 0's block at point `t` is batch entries `4t … 4t+3` of the input array. -/
theorem blk0 (c : Dev nD) (t : Fin cfg1.N) (bb : Fin 4) (p : Fin 576) (ch : Fin 768) :
    Region1.iblk1 (F := Ideal) V c 0 t (ix3 bb p ch)
      = (V c main_call0_v1 : S128x576x768.Idx → EReal) (ix3 (⟨4 * t.val + bb.val, batch_lt t bb⟩ : Fin 128) p ch) := by
  obtain ⟨e0, e1, e2, -⟩ := index_facts t
  show (V c main_call0_v1 : S128x576x768.Idx → EReal) (((cfg1.win 0).blk t).view.emb (ix3 bb p ch)) = _
  congr 1
  funext a; apply Fin.ext
  match a with
  | ⟨0, _⟩ => show win1_0.index t (0 : Fin 3) * 4 + 1 * bb.val = 4 * t.val + bb.val; omega
  | ⟨1, _⟩ => show win1_0.index t (1 : Fin 3) * 576 + 1 * p.val = p.val; omega
  | ⟨2, _⟩ => show win1_0.index t (2 : Fin 3) * 768 + 1 * ch.val = ch.val; omega

/-- Window 1's block is its whole array. -/
theorem blk1 (c : Dev nD) : Region1.iblk1 (F := Ideal) V c 1 Region1.t0 = (V c main_call0_v13 : S576x768.Idx → EReal) := by
  have e := index_facts Region1.t0
  funext j
  show (V c main_call0_v13 : S576x768.Idx → EReal) (((cfg1.win 1).blk Region1.t0).view.emb j) = _
  congr 1
  funext a; apply Fin.ext
  match a with
  | ⟨0, _⟩ => show win1_1.index Region1.t0 (0 : Fin 2) * 576 + 1 * (j 0).val = (j 0).val; omega
  | ⟨1, _⟩ => show win1_1.index Region1.t0 (1 : Fin 2) * 768 + 1 * (j 1).val = (j 1).val; omega

/-- Window 2's block is its whole array. -/
theorem blk2 (c : Dev nD) : Region1.iblk1 (F := Ideal) V c 2 Region1.t0 = (V c main_call0_v16_0 : S1x768.Idx → EReal) := by
  have e := index_facts Region1.t0
  funext j
  show (V c main_call0_v16_0 : S1x768.Idx → EReal) (((cfg1.win 2).blk Region1.t0).view.emb j) = _
  congr 1
  funext a; apply Fin.ext
  match a with
  | ⟨0, _⟩ => show win1_2.index Region1.t0 (0 : Fin 2) * 1 + 1 * (j 0).val = (j 0).val; omega
  | ⟨1, _⟩ => show win1_2.index Region1.t0 (1 : Fin 2) * 768 + 1 * (j 1).val = (j 1).val; omega

/-- Window 3's block is its whole array. -/
theorem blk3 (c : Dev nD) : Region1.iblk1 (F := Ideal) V c 3 Region1.t0 = (V c main_call0_v16_1 : S1x768.Idx → EReal) := by
  have e := index_facts Region1.t0
  funext j
  show (V c main_call0_v16_1 : S1x768.Idx → EReal) (((cfg1.win 3).blk Region1.t0).view.emb j) = _
  congr 1
  funext a; apply Fin.ext
  match a with
  | ⟨0, _⟩ => show win1_3.index Region1.t0 (0 : Fin 2) * 1 + 1 * (j 0).val = (j 0).val; omega
  | ⟨1, _⟩ => show win1_3.index Region1.t0 (1 : Fin 2) * 768 + 1 * (j 1).val = (j 1).val; omega

/-- Window 4's block is its whole array. -/
theorem blk4 (c : Dev nD) : Region1.iblk1 (F := Ideal) V c 4 Region1.t0 = (V c main_call0_v14 : S1x768.Idx → EReal) := by
  have e := index_facts Region1.t0
  funext j
  show (V c main_call0_v14 : S1x768.Idx → EReal) (((cfg1.win 4).blk Region1.t0).view.emb j) = _
  congr 1
  funext a; apply Fin.ext
  match a with
  | ⟨0, _⟩ => show win1_4.index Region1.t0 (0 : Fin 2) * 1 + 1 * (j 0).val = (j 0).val; omega
  | ⟨1, _⟩ => show win1_4.index Region1.t0 (1 : Fin 2) * 768 + 1 * (j 1).val = (j 1).val; omega

/-- Window 5's block is its whole array. -/
theorem blk5 (c : Dev nD) : Region1.iblk1 (F := Ideal) V c 5 Region1.t0 = (V c main_call0_v15 : S1x768.Idx → EReal) := by
  have e := index_facts Region1.t0
  funext j
  show (V c main_call0_v15 : S1x768.Idx → EReal) (((cfg1.win 5).blk Region1.t0).view.emb j) = _
  congr 1
  funext a; apply Fin.ext
  match a with
  | ⟨0, _⟩ => show win1_5.index Region1.t0 (0 : Fin 2) * 1 + 1 * (j 0).val = (j 0).val; omega
  | ⟨1, _⟩ => show win1_5.index Region1.t0 (1 : Fin 2) * 768 + 1 * (j 1).val = (j 1).val; omega

/-! ## The array the pass leaves -/

/-- The input array as the pass finds it, read at its shape. -/
def vin (c : Dev nD) : Vec Ideal S128x576x768 .f32 := V c main_call0_v1

theorem vin_eq (c : Dev nD) : vin V c = (V c main_call0_v1 : S128x576x768.Idx → EReal) := rfl

/-- The output array as one function of the entry contents: the input times the channel's scale plus the table's entry
    at the position and channel. -/
def G (c : Dev nD) : S128x576x768.Idx → EReal := fun i =>
  vin V c i * Region1.scOf V c (ix2 (0 : Fin 1) (i 2)) + Region1.tOf V c (ix2 (i 1) (i 2))

/-- Where the output block of point `t` sits in the array: batch entries `4t … 4t+3`, every position and channel. -/
theorem emb6 (t : Fin cfg1.N) (bb : Fin 4) (p : Fin 576) (ch : Fin 768) :
    ((cfg1.win 6).blk t).view.emb (ix3 bb p ch) = (ix3 (⟨4 * t.val + bb.val, batch_lt t bb⟩ : Fin 128) p ch : S128x576x768.Idx) := by
  obtain ⟨-, -, -, e0, e1, e2, -⟩ := index_facts t
  funext a; apply Fin.ext
  match a with
  | ⟨0, _⟩ => show win1_6.index t (0 : Fin 3) * 4 + 1 * bb.val = 4 * t.val + bb.val; omega
  | ⟨1, _⟩ => show win1_6.index t (1 : Fin 3) * 576 + 1 * p.val = p.val; omega
  | ⟨2, _⟩ => show win1_6.index t (2 : Fin 3) * 768 + 1 * ch.val = ch.val; omega

/-- What point `t` writes back is block `t` of `G`. -/
theorem flushed6_eq (c : Dev nD) (t : Fin cfg1.N) :
    (Region1.dat1 (F := Ideal) V c).flushed 6 t = ((cfg1.win 6).blk t).view.read (Elt Ideal) (G V c) := by
  show (cfg1.win 6).cut (grid1.coords t) ((Region1.dat1 (F := Ideal) V c).after 6 t) = _
  rw [Region1.after1_6]
  funext j
  obtain ⟨bb, p, ch, rfl⟩ : ∃ (bb : Fin 4) (p : Fin 576) (ch : Fin 768), j = ix3 bb p ch := ⟨j 0, j 1, j 2, eq_ix3 j⟩
  show k1_pay5 (Region1.iblk1 (F := Ideal) V c 0 t) (Region1.scOf V c) (Region1.tOf V c) (ix3 bb p ch)
      = G V c (((cfg1.win 6).blk t).view.emb (ix3 bb p ch))
  rw [Payload1.pay5_apply, blk0, emb6]
  rfl

/-- An index of the array is in point `t`'s block iff each coordinate is in the block's range on its axis. -/
theorem mem_blk6 (t : Fin cfg1.N) (i : S128x576x768.Idx) :
    i ∈ ((cfg1.win 6).blk t).view.set ↔ ∀ a : Fin 3, win1_6.index t a * S4x576x768.size a ≤ (i a).val ∧ (i a).val < win1_6.index t a * S4x576x768.size a + S4x576x768.size a := by
  show i ∈ ((View.whole main_call0_v17).slice (win1_6.rect t)).set ↔ _
  rw [View.set_slice_whole, Rect.mem_set_unit]
  exact Iff.rfl

/-- Every index lies in the block of the point its batch entry divided by four names. -/
theorem covered6 (i : S128x576x768.Idx) :
    ∃ t : Fin cfg1.N, (cfg1.win 6).flush t = true ∧ i ∈ ((cfg1.win 6).blk t).view.set := by
  have hi0 : (i 0).val < 128 := (i 0).isLt
  have hi1 : (i 1).val < 576 := (i 1).isLt
  have hi2 : (i 2).val < 768 := (i 2).isLt
  have hN : cfg1.N = 32 := N_1
  refine ⟨⟨(i 0).val / 4, by omega⟩, flush1_6 _, ?_⟩
  rw [mem_blk6]
  obtain ⟨-, -, -, e0, e1, e2, -⟩ := index_facts ⟨(i 0).val / 4, by omega⟩
  intro a
  match a with
  | ⟨0, _⟩ => show win1_6.index _ (0 : Fin 3) * 4 ≤ (i 0).val ∧ (i 0).val < win1_6.index _ (0 : Fin 3) * 4 + 4; rw [e0]; show (i 0).val / 4 * 4 ≤ (i 0).val ∧ (i 0).val < (i 0).val / 4 * 4 + 4; omega
  | ⟨1, _⟩ => show win1_6.index _ (1 : Fin 3) * 576 ≤ (i 1).val ∧ (i 1).val < win1_6.index _ (1 : Fin 3) * 576 + 576; rw [e1]; omega
  | ⟨2, _⟩ => show win1_6.index _ (2 : Fin 3) * 768 ≤ (i 2).val ∧ (i 2).val < win1_6.index _ (2 : Fin 3) * 768 + 768; rw [e2]; omega

/-- The output array after the pass is `G`. -/
theorem arr6 (c : Dev nD) : (Region1.dat1 (F := Ideal) V c).arrAt 6 cfg1.N = G V c :=
  (Region1.dat1 (F := Ideal) V c).arrAt_eq_of_cover 6 (G V c) (fun t _ => flushed6_eq V c t) covered6

/-- The same at an index given by its coordinates. -/
theorem G_apply (c : Dev nD) (b : Fin 128) (p : Fin 576) (ch : Fin 768) :
    (Region1.dat1 (F := Ideal) V c).arrAt 6 cfg1.N (ix3 b p ch)
      = vin V c (ix3 b p ch) * Region1.scOf V c (ix2 (0 : Fin 1) ch) + Region1.tOf V c (ix2 p ch) := by
  rw [arr6]; rfl

end Cert.KernelIdeal.Value1

end
-- ==== Proof.KernelIdealFinal.lean ====
/-
  The kernel program's result as one function of its arguments (at the ideal instance).

  Region 0 leaves, per channel, the sum and the sum of squares of `x = v + pos` over all batch entries and positions:
  each position `p < 576` is a row `p / 24` and a column `p % 24`, so the sums over positions are sums over rows and
  columns.  Region 1 turns them into the scale row and the folded table and writes `v · scale + table`; laid out
  channel-second again this is the folded form `v · sc + (pos · sc + (b - mean · sc))`.
-/
import proofs.«168955_g2362232013395_cont_8to1_2029_9_alg».proof.Proof.KernelIdealRun
import proofs.«168955_g2362232013395_cont_8to1_2029_9_alg».proof.Proof.KernelIdealHostValue
import proofs.«168955_g2362232013395_cont_8to1_2029_9_alg».proof.Proof.KernelIdealPayload1
import proofs.«168955_g2362232013395_cont_8to1_2029_9_alg».proof.Proof.KernelIdealValue0
import proofs.«168955_g2362232013395_cont_8to1_2029_9_alg».proof.Proof.KernelIdealValue0Arr
import proofs.«168955_g2362232013395_cont_8to1_2029_9_alg».proof.Proof.KernelIdealValue1
import proofs.«168955_g2362232013395_cont_8to1_2029_9_alg».proof.Proof.LibIdxSums
import proofs.«168955_g2362232013395_cont_8to1_2029_9_alg».proof.Proof.Spec

noncomputable section

namespace Cert.KernelIdeal.Final

open Cert.KernelIdeal Cert.KernelIdeal.Gen Cert.KernelIdeal.Run
open Idealize.ShloMosaic Idealize.ShloMosaic.TcCoe Idealize.ShloMosaic.StableHlo Idealize.ShloMosaic.ValueIdx
open Idealize.SL.Sem
open Idealize.ShloMosaic.Pipeline (Dat)
open scoped BigOperators

variable (m : (ℓ : Loc nD τ sig) → Buf (Elt Ideal) ℓ) (ρ : Dev nD → PrngReg) (c : Dev nD)

/-- The five arguments as launched. -/
abbrev av : FVec Ideal S128x768x24x24 .f32 := m ((c : Thread nD τ).loc main_arg0)
abbrev art : FVec Ideal S100x768 .f32 := m ((c : Thread nD τ).loc main_arg1)
abbrev act : FVec Ideal S100x768 .f32 := m ((c : Thread nD τ).loc main_arg2)
abbrev ag : FVec Ideal S768 .f32 := m ((c : Thread nD τ).loc main_arg3)
abbrev ab : FVec Ideal S768 .f32 := m ((c : Thread nD τ).loc main_arg4)

/-! ## Positions as rows and columns -/

theorem sum576 {M : Type*} [AddCommMonoid M] (f : Fin 24 → Fin 24 → M) :
    ∑ p : Fin 576, f (⟨p.val / 24, by have := p.isLt; omega⟩ : Fin 24) (⟨p.val % 24, Nat.mod_lt _ (by norm_num)⟩ : Fin 24)
      = ∑ h : Fin 24, ∑ w : Fin 24, f h w := by
  refine (Cert.LibIdxSums.sum_fin_blocks 24 24
    (fun p : Fin (24 * 24) => f (⟨p.val / 24, by have := p.isLt; omega⟩ : Fin 24) (⟨p.val % 24, Nat.mod_lt _ (by norm_num)⟩ : Fin 24))).trans ?_
  refine Finset.sum_congr rfl fun h _ => Finset.sum_congr rfl fun w _ => ?_
  have hh := h.isLt
  have hw := w.isLt
  congr 1 <;> refine Fin.ext ?_
  · show (h.val * 24 + w.val) / 24 = h.val
    omega
  · show (h.val * 24 + w.val) % 24 = w.val
    omega

/-! ## The arrays the regions find -/

theorem V1_v1 (b : Fin 128) (p : Fin 576) (ch : Fin 768) :
    (V1 m ρ c main_call0_v1 : S128x576x768.Idx → EReal) (ix3 b p ch)
      = av m c (ix4 b ch (⟨p.val / 24, by have := p.isLt; omega⟩ : Fin 24) (⟨p.val % 24, Nat.mod_lt _ (by norm_num)⟩ : Fin 24)) :=
  HostValue.v1_apply (W0 m ρ c) b p ch
theorem V1_v13 (p : Fin 576) (ch : Fin 768) :
    (V1 m ρ c main_call0_v13 : S576x768.Idx → EReal) (ix2 p ch)
      = Cert.Spec.pos (art m c) (act m c) ch (⟨p.val / 24, by have := p.isLt; omega⟩ : Fin 24) (⟨p.val % 24, Nat.mod_lt _ (by norm_num)⟩ : Fin 24) :=
  HostValue.v13_apply (W0 m ρ c) p ch
theorem V1_v14 (ch : Fin 768) : (V1 m ρ c main_call0_v14 : S1x768.Idx → EReal) (ix2 (0 : Fin 1) ch) = ag m c (ix1 ch) :=
  HostValue.v14_apply (W0 m ρ c) ch
theorem V1_v15 (ch : Fin 768) : (V1 m ρ c main_call0_v15 : S1x768.Idx → EReal) (ix2 (0 : Fin 1) ch) = ab m c (ix1 ch) :=
  HostValue.v15_apply (W0 m ρ c) ch

theorem V2_v1 : V2 m ρ c main_call0_v1 = V1 m ρ c main_call0_v1 :=
  (W2_arr m ρ c 0).trans (((Region0.dat0 (V1 m ρ) c).arrAt_in 0 rfl _).trans (Region0.A_eq0 (V1 m ρ) c 0))
theorem V2_v13 : V2 m ρ c main_call0_v13 = V1 m ρ c main_call0_v13 :=
  (W2_arr m ρ c 1).trans (((Region0.dat0 (V1 m ρ) c).arrAt_in 1 rfl _).trans (Region0.A_eq0 (V1 m ρ) c 1))
theorem V2_v14 : V2 m ρ c main_call0_v14 = V1 m ρ c main_call0_v14 := W2_of_ne m ρ c main_call0_v14 (by decide)
theorem V2_v15 : V2 m ρ c main_call0_v15 = V1 m ρ c main_call0_v15 := W2_of_ne m ρ c main_call0_v15 (by decide)
theorem V2_s1 : V2 m ρ c main_call0_v16_0 = (Region0.dat0 (V1 m ρ) c).arrAt 2 cfg0.N := W2_arr m ρ c 2
theorem V2_s2 : V2 m ρ c main_call0_v16_1 = (Region0.dat0 (V1 m ρ) c).arrAt 3 cfg0.N := W2_arr m ρ c 3

/-! ## The two rows of sums -/

theorem x_eq (b : Fin 128) (p : Fin 576) (ch : Fin 768) :
    Value0.xin (V1 m ρ) c (ix3 b p ch) + Value0.tin (V1 m ρ) c (ix2 p ch)
      = Cert.Spec.x (av m c) (art m c) (act m c) b ch (⟨p.val / 24, by have := p.isLt; omega⟩ : Fin 24) (⟨p.val % 24, Nat.mod_lt _ (by norm_num)⟩ : Fin 24) := by
  have h1 : Value0.xin (V1 m ρ) c (ix3 b p ch)
      = av m c (ix4 b ch (⟨p.val / 24, by have := p.isLt; omega⟩ : Fin 24) (⟨p.val % 24, Nat.mod_lt _ (by norm_num)⟩ : Fin 24)) := V1_v1 m ρ c b p ch
  have h2 : Value0.tin (V1 m ρ) c (ix2 p ch)
      = Cert.Spec.pos (art m c) (act m c) ch (⟨p.val / 24, by have := p.isLt; omega⟩ : Fin 24) (⟨p.val % 24, Nat.mod_lt _ (by norm_num)⟩ : Fin 24) := V1_v13 m ρ c p ch
  rw [h1, h2]; rfl

theorem S1_eq (ch : Fin 768) :
    (V2 m ρ c main_call0_v16_0 : S1x768.Idx → EReal) (ix2 (0 : Fin 1) ch) = Cert.Spec.S1 (av m c) (art m c) (act m c) ch := by
  rw [V2_s1, Value0Arr.arr2, Value0.sum_row]
  show (∑ b : Fin 128, ∑ p : Fin 576, (Value0.xin (V1 m ρ) c (ix3 b p ch) + Value0.tin (V1 m ρ) c (ix2 p ch)) : EReal)
    = ∑ b : Fin 128, ∑ h : Fin 24, ∑ w : Fin 24, Cert.Spec.x (av m c) (art m c) (act m c) b ch h w
  refine Finset.sum_congr rfl fun b _ => ?_
  rw [← sum576 (fun h w => Cert.Spec.x (av m c) (art m c) (act m c) b ch h w)]
  exact Finset.sum_congr rfl fun p _ => x_eq m ρ c b p ch

theorem S2_eq (ch : Fin 768) :
    (V2 m ρ c main_call0_v16_1 : S1x768.Idx → EReal) (ix2 (0 : Fin 1) ch) = Cert.Spec.S2 (av m c) (art m c) (act m c) ch := by
  rw [V2_s2, Value0Arr.arr3, Value0.sq_row]
  show (∑ b : Fin 128, ∑ p : Fin 576, (Value0.xin (V1 m ρ) c (ix3 b p ch) + Value0.tin (V1 m ρ) c (ix2 p ch))
      * (Value0.xin (V1 m ρ) c (ix3 b p ch) + Value0.tin (V1 m ρ) c (ix2 p ch)) : EReal)
    = ∑ b : Fin 128, ∑ h : Fin 24, ∑ w : Fin 24, Cert.Spec.x (av m c) (art m c) (act m c) b ch h w * Cert.Spec.x (av m c) (art m c) (act m c) b ch h w
  refine Finset.sum_congr rfl fun b _ => ?_
  rw [← sum576 (fun h w => Cert.Spec.x (av m c) (art m c) (act m c) b ch h w * Cert.Spec.x (av m c) (art m c) (act m c) b ch h w)]
  exact Finset.sum_congr rfl fun p _ => by rw [x_eq m ρ c b p ch]

/-! ## The scale row and the folded table -/

theorem mean_eq (ch : Fin 768) :
    k1_pay1 (F := Ideal) (V2 m ρ c main_call0_v16_0) (ix2 (0 : Fin 1) ch) = Cert.Spec.mean (av m c) (art m c) (act m c) ch := by
  rw [Payload1.pay1_apply, S1_eq]; rfl

theorem scale_eq (ch : Fin 768) :
    k1_pay2 (F := Ideal) (V2 m ρ c main_call0_v16_0) (V2 m ρ c main_call0_v16_1) (V2 m ρ c main_call0_v14) (ix2 (0 : Fin 1) ch)
      = Cert.Spec.sc (av m c) (art m c) (act m c) (ag m c) ch := by
  rw [Payload1.pay2_apply, S1_eq, S2_eq, V2_v14, V1_v14]; rfl

theorem scOf_eq (ch : Fin 768) :
    Region1.scOf (F := Ideal) (V2 m ρ) c (ix2 (0 : Fin 1) ch) = Cert.Spec.sc (av m c) (art m c) (act m c) (ag m c) ch := by
  unfold Region1.scOf
  rw [Value1.blk2, Value1.blk3, Value1.blk4, Payload1.pay3_eq]
  exact scale_eq m ρ c ch

theorem tOf_eq (p : Fin 576) (ch : Fin 768) :
    Region1.tOf (F := Ideal) (V2 m ρ) c (ix2 p ch)
      = Cert.Spec.pos (art m c) (act m c) ch (⟨p.val / 24, by have := p.isLt; omega⟩ : Fin 24) (⟨p.val % 24, Nat.mod_lt _ (by norm_num)⟩ : Fin 24)
          * Cert.Spec.sc (av m c) (art m c) (act m c) (ag m c) ch
        + (ab m c (ix1 ch) - Cert.Spec.mean (av m c) (art m c) (act m c) ch * Cert.Spec.sc (av m c) (art m c) (act m c) (ag m c) ch) := by
  unfold Region1.tOf
  rw [Value1.blk1, Value1.blk2, Value1.blk3, Value1.blk4, Value1.blk5, Payload1.pay4_apply, scale_eq, mean_eq, V2_v13, V1_v13, V2_v15, V1_v15]

/-! ## The result -/

theorem vin_val (b : Fin 128) (p : Fin 576) (ch : Fin 768) :
    Value1.vin (V2 m ρ) c (ix3 b p ch)
      = av m c (ix4 b ch (⟨p.val / 24, by have := p.isLt; omega⟩ : Fin 24) (⟨p.val % 24, Nat.mod_lt _ (by norm_num)⟩ : Fin 24)) := by
  show (V2 m ρ c main_call0_v1 : S128x576x768.Idx → EReal) (ix3 b p ch) = _
  rw [V2_v1]
  exact V1_v1 m ρ c b p ch

theorem out_eq : (W4 m ρ c (main_v0 : DevRef τ sig) : S128x768x24x24.Idx → EReal)
    = Cert.Spec.kout (av m c) (art m c) (act m c) (ag m c) (ab m c) := by
  funext i
  obtain ⟨b, ch, h, w, rfl⟩ : ∃ (b : Fin 128) (ch : Fin 768) (h w : Fin 24), i = ix4 b ch h w := ⟨i 0, i 1, i 2, i 3, eq_ix4 i⟩
  have hh := h.isLt
  have hw := w.isLt
  refine (HostValue.out_apply (W3 m ρ c) b ch h w).trans ?_
  have e17 : (W3 m ρ c (main_call0_v17 : DevRef τ sig) : S128x576x768.Idx → EReal) = (Region1.dat1 (V2 m ρ) c).arrAt 6 cfg1.N := W3_arr m ρ c 6
  rw [e17, Value1.G_apply, vin_val, scOf_eq, tOf_eq]
  have e1 : (⟨(h.val * 24 + w.val) / 24, by omega⟩ : Fin 24) = h := Fin.ext (by show (h.val * 24 + w.val) / 24 = h.val; omega)
  have e2 : (⟨(h.val * 24 + w.val) % 24, Nat.mod_lt _ (by norm_num)⟩ : Fin 24) = w := Fin.ext (by show (h.val * 24 + w.val) % 24 = w.val; omega)
  show av m c (ix4 b ch ⟨(h.val * 24 + w.val) / 24, _⟩ ⟨(h.val * 24 + w.val) % 24, _⟩) * _ + (Cert.Spec.pos _ _ ch ⟨(h.val * 24 + w.val) / 24, _⟩ ⟨(h.val * 24 + w.val) % 24, _⟩ * _ + _) = _
  rw [e1, e2]
  rfl

/-- Every weakly fair execution of the kernel program ends with its result at the folded form of the arguments, the
    arguments as launched. -/
theorem run : θ_run (defs (F := Ideal)) (onTc (τ := τ) (main (F := Ideal))) ⟨m, fun _ => 0, ρ⟩ (fun r => ∀ c : Dev nD,
      r.2.mem ((c.tc : Thread nD τ).loc main_v0)
        = Cert.Spec.kout (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v0 (by decide))).trans (out_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Final

end
-- ==== Proof.RefOps.lean ====
/- The reference program's @main as one straight line of its 98 host operations: the table lookups' and the
   variance's outlined functions unfolded at their calls, each callee's operations over that call's own buffers. -/
import proofs.«168955_g2362232013395_cont_8to1_2029_9_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the row table's lookup (the index vector, its wrap of negative
    indices, the bounds test, the gather, the fill outside the bounds), its reshape, broadcast and sum with the video; the
    same for the column table; the per-channel sum and mean; the variance (mean again, squared deviations, their sum,
    the divisor `n - 0`, the test `n - 0 > 0` and the select); then the normalisation, scale and shift. -/
abbrev ops : List (HloOp τ sig (Elt F)) :=
  [ StableHlo.nullary main_v0 (iotaInDim S24 32 0),
    StableHlo.TRef.nullary main_call0.c (constantI S_ 32 0#32),
    StableHlo.TRef.unary main_call0.c main_call0.v0 (broadcastInDim S24 ![] bcast_S_S24),
    StableHlo.TRef.binary (.of main_v0) main_call0.v0 main_call0.v1 (cmpi .slt),
    StableHlo.TRef.nullary main_call0.c_0 (constantI S_ 32 100#32),
    StableHlo.TRef.unary main_call0.c_0 main_call0.v2 (broadcastInDim S24 ![] bcast_S_S24),
    StableHlo.TRef.binary (.of main_v0) main_call0.v2 main_call0.v3 addi,
    StableHlo.TRef.ternary main_call0.v1 main_call0.v3 (.of main_v0) main_call0.call0.v0 select,
    StableHlo.TRef.unary main_call0.call0.v0 main_call0.v5 (broadcastInDim S24x1 ![0] bcast_S24_S24x1_0),
    StableHlo.TRef.nullary main_call0.c_1 (constantI S1 32 99#32),
    StableHlo.TRef.nullary main_call0.c_2 (constantI S_ 32 0#32),
    StableHlo.TRef.unary main_call0.c_2 main_call0.v6 (broadcastInDim S24x1 ![] bcast_S_S24x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S24x1 ![0, 1] bcast_S1x1_S24x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S24x1_S24_d1 h_S_),
    StableHlo.TRef.binary (.of main_arg1) main_call0.v5 main_call0.v13 (fun x i => Host.gather gather_S100x768_S24x1_S24x768_1_0_n_n_0_1_1768 x i),
    StableHlo.TRef.unary main_call0.v12 main_call0.v14 (broadcastInDim S24x768 ![0] bcast_S24_S24x768_0),
    StableHlo.TRef.nullary main_call0.cst (constant S_ .f32 0x7FC00000#32),
    StableHlo.TRef.unary main_call0.cst main_call0.v15 (broadcastInDim S24x768 ![] bcast_S_S24x768),
    StableHlo.TRef.ternary main_call0.v14 main_call0.v13 main_call0.v15 main_call0.v16 select,
    StableHlo.reshape main_v1 main_v2 rfl shapeCasts_S24x768_S1x768x24x1,
    StableHlo.unary main_v2 main_v3 (broadcastInDim S128x768x24x24 ![0, 1, 2, 3] bcast_S1x768x24x1_S128x768x24x24_0_1_2_3 : (⟨S1x768x24x1, .f32⟩ : BufTy).Contents (Elt F) → (⟨S128x768x24x24, .f32⟩ : BufTy).Contents (Elt F)),
    StableHlo.binary main_arg0 main_v3 main_v4 (addf : (⟨S128x768x24x24, .f32⟩ : BufTy).Contents (Elt F) → (⟨S128x768x24x24, .f32⟩ : BufTy).Contents (Elt F) → (⟨S128x768x24x24, .f32⟩ : BufTy).Contents (Elt F)),
    StableHlo.nullary main_v5 (iotaInDim S24 32 0),
    StableHlo.TRef.nullary main_call1.c (constantI S_ 32 0#32),
    StableHlo.TRef.unary main_call1.c main_call1.v0 (broadcastInDim S24 ![] bcast_S_S24),
    StableHlo.TRef.binary (.of main_v5) main_call1.v0 main_call1.v1 (cmpi .slt),
    StableHlo.TRef.nullary main_call1.c_0 (constantI S_ 32 100#32),
    StableHlo.TRef.unary main_call1.c_0 main_call1.v2 (broadcastInDim S24 ![] bcast_S_S24),
    StableHlo.TRef.binary (.of main_v5) main_call1.v2 main_call1.v3 addi,
    StableHlo.TRef.ternary main_call1.v1 main_call1.v3 (.of main_v5) main_call1.call0.v0 select,
    StableHlo.TRef.unary main_call1.call0.v0 main_call1.v5 (broadcastInDim S24x1 ![0] bcast_S24_S24x1_0),
    StableHlo.TRef.nullary main_call1.c_1 (constantI S1 32 99#32),
    StableHlo.TRef.nullary main_call1.c_2 (constantI S_ 32 0#32),
    StableHlo.TRef.unary main_call1.c_2 main_call1.v6 (broadcastInDim S24x1 ![] bcast_S_S24x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S24x1 ![0, 1] bcast_S1x1_S24x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S24x1_S24_d1 h_S_),
    StableHlo.TRef.binary (.of main_arg2) main_call1.v5 main_call1.v13 (fun x i => Host.gather gather_S100x768_S24x1_S24x768_1_0_n_n_0_1_1768 x i),
    StableHlo.TRef.unary main_call1.v12 main_call1.v14 (broadcastInDim S24x768 ![0] bcast_S24_S24x768_0),
    StableHlo.TRef.nullary main_call1.cst (constant S_ .f32 0x7FC00000#32),
    StableHlo.TRef.unary main_call1.cst main_call1.v15 (broadcastInDim S24x768 ![] bcast_S_S24x768),
    StableHlo.TRef.ternary main_call1.v14 main_call1.v13 main_call1.v15 main_call1.v16 select,
    StableHlo.reshape main_v6 main_v7 rfl shapeCasts_S24x768_S1x768x1x24,
    StableHlo.unary main_v7 main_v8 (broadcastInDim S128x768x24x24 ![0, 1, 2, 3] bcast_S1x768x1x24_S128x768x24x24_0_1_2_3 : (⟨S1x768x1x24, .f32⟩ : BufTy).Contents (Elt F) → (⟨S128x768x24x24, .f32⟩ : BufTy).Contents (Elt F)),
    StableHlo.binary main_v4 main_v8 main_v9 (addf : (⟨S128x768x24x24, .f32⟩ : BufTy).Contents (Elt F) → (⟨S128x768x24x24, .f32⟩ : BufTy).Contents (Elt F) → (⟨S128x768x24x24, .f32⟩ : BufTy).Contents (Elt F)),
    StableHlo.nullary main_cst (constant S_ .f32 0x00000000#32),
    StableHlo.binary main_v9 main_cst main_v10 ((fun x v => Host.reduceAdd x v reducesTo_S128x768x24x24_S768_d0_2_3 h_S_) : (⟨S128x768x24x24, .f32⟩ : BufTy).Contents (Elt F) → (⟨S_, .f32⟩ : BufTy).Contents (Elt F) → (⟨S768, .f32⟩ : BufTy).Contents (Elt F)),
    StableHlo.unary main_v10 main_v11 (broadcastInDim S1x768x1x1 ![1] bcast_S768_S1x768x1x1_1 : (⟨S768, .f32⟩ : BufTy).Contents (Elt F) → (⟨S1x768x1x1, .f32⟩ : BufTy).Contents (Elt F)),
    StableHlo.nullary main_cst_0 (constant S_ .f32 0x47900000#32),
    StableHlo.unary main_cst_0 main_v12 (broadcastInDim S1x768x1x1 ![] bcast_S_S1x768x1x1 : (⟨S_, .f32⟩ : BufTy).Contents (Elt F) → (⟨S1x768x1x1, .f32⟩ : BufTy).Contents (Elt F)),
    StableHlo.binary main_v11 main_v12 main_v13 (Host.divf : (⟨S1x768x1x1, .f32⟩ : BufTy).Contents (Elt F) → (⟨S1x768x1x1, .f32⟩ : BufTy).Contents (Elt F) → (⟨S1x768x1x1, .f32⟩ : BufTy).Contents (Elt F)),
    StableHlo.nullary main_c (constantI S_ 32 0#32),
    StableHlo.TRef.nullary main_call2.cst (constant S_ .f32 0x00000000#32),
    StableHlo.TRef.binary (.of main_v9) main_call2.cst main_call2.v0 (fun x v => Host.reduceAdd x v reducesTo_S128x768x24x24_S768_d0_2_3 h_S_),
    StableHlo.TRef.unary main_call2.v0 main_call2.v1 (broadcastInDim S1x768x1x1 ![1] bcast_S768_S1x768x1x1_1),
    StableHlo.TRef.nullary main_call2.cst_0 (constant S_ .f32 0x47900000#32),
    StableHlo.TRef.unary main_call2.cst_0 main_call2.v2 (broadcastInDim S1x768x1x1 ![] bcast_S_S1x768x1x1),
    StableHlo.TRef.binary main_call2.v1 main_call2.v2 main_call2.v3 Host.divf,
    StableHlo.TRef.unary main_call2.v3 main_call2.v4 (broadcastInDim S128x768x24x24 ![0, 1, 2, 3] bcast_S1x768x1x1_S128x768x24x24_0_1_2_3),
    StableHlo.TRef.binary (.of main_v9) main_call2.v4 main_call2.v5 subf,
    StableHlo.TRef.binary main_call2.v5 main_call2.v5 main_call2.v6 mulf,
    StableHlo.TRef.unary (.of main_c) main_call2.v7 (sitofp .f32),
    StableHlo.TRef.nullary main_call2.cst_1 (constant S_ .f32 0x47900000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S128x768x24x24_S768_d0_2_3 h_S_),
    StableHlo.TRef.unary main_call2.v9 main_call2.v10 (broadcastInDim S1x768x1x1 ![1] bcast_S768_S1x768x1x1_1),
    StableHlo.TRef.unary main_call2.v8 main_call2.v11 (broadcastInDim S1x768x1x1 ![] bcast_S_S1x768x1x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1x768x1x1 ![] bcast_S_S1x768x1x1),
    StableHlo.TRef.ternary main_call2.v13 main_call2.v12 main_call2.call0.v1 main_call2.call0.v2 (fun p a b => select (broadcastInDim S1x768x1x1 ![] bcast_S_S1x768x1x1 p) a b),
    StableHlo.unary main_v13 main_v15 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    StableHlo.binary main_v9 main_v15 main_v16 (subf : (⟨S128x768x24x24, .f32⟩ : BufTy).Contents (Elt F) → (⟨S128x768x24x24, .f32⟩ : BufTy).Contents (Elt F) → (⟨S128x768x24x24, .f32⟩ : BufTy).Contents (Elt F)),
    StableHlo.nullary main_cst_1 (constant S_ .f32 0x2B8CBCCC#32),
    StableHlo.unary main_cst_1 main_v17 (broadcastInDim S1x768x1x1 ![] bcast_S_S1x768x1x1 : (⟨S_, .f32⟩ : BufTy).Contents (Elt F) → (⟨S1x768x1x1, .f32⟩ : BufTy).Contents (Elt F)),
    StableHlo.binary main_v14 main_v17 main_v18 (addf : (⟨S1x768x1x1, .f32⟩ : BufTy).Contents (Elt F) → (⟨S1x768x1x1, .f32⟩ : BufTy).Contents (Elt F) → (⟨S1x768x1x1, .f32⟩ : BufTy).Contents (Elt F)),
    StableHlo.unary main_v18 main_v19 (Host.sqrt : (⟨S1x768x1x1, .f32⟩ : BufTy).Contents (Elt F) → (⟨S1x768x1x1, .f32⟩ : BufTy).Contents (Elt F)),
    StableHlo.unary main_v19 main_v20 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    StableHlo.binary main_v16 main_v20 main_v21 (Host.divf : (⟨S128x768x24x24, .f32⟩ : BufTy).Contents (Elt F) → (⟨S128x768x24x24, .f32⟩ : BufTy).Contents (Elt F) → (⟨S128x768x24x24, .f32⟩ : BufTy).Contents (Elt F)),
    StableHlo.reshape main_arg3 main_v22 rfl shapeCasts_S768_S1x768x1x1,
    StableHlo.unary main_v22 main_v23 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    StableHlo.binary main_v21 main_v23 main_v24 (mulf : (⟨S128x768x24x24, .f32⟩ : BufTy).Contents (Elt F) → (⟨S128x768x24x24, .f32⟩ : BufTy).Contents (Elt F) → (⟨S128x768x24x24, .f32⟩ : BufTy).Contents (Elt F)),
    StableHlo.reshape main_arg4 main_v25 rfl shapeCasts_S768_S1x768x1x1,
    StableHlo.unary main_v25 main_v26 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    StableHlo.binary main_v24 main_v26 main_v27 (addf : (⟨S128x768x24x24, .f32⟩ : BufTy).Contents (Elt F) → (⟨S128x768x24x24, .f32⟩ : BufTy).Contents (Elt F) → (⟨S128x768x24x24, .f32⟩ : BufTy).Contents (Elt F)) ]

set_option maxHeartbeats 1600000 in
/-- @main is that straight line: with the functions' definitions unfolded at their calls and sequencing reassociated,
    both sides are one chain of the same steps (by computation). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub .., unary_bufs_sub .., binary_bufs_sub .., nullary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., reshape_bufs_sub .., unary_bufs_sub .., binary_bufs_sub ..,
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., reshape_bufs_sub .., unary_bufs_sub .., binary_bufs_sub .., reshape_bufs_sub ..,
    unary_bufs_sub .., binary_bufs_sub ..⟩

/-- From any memory with zero counters every weakly fair execution of @main terminates, and each buffer ends at the
    fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
/- The reference's result as one pure term of its five arguments, in named stages: the table lookup, the video plus
   the two positional terms, the per-channel mean, the per-channel variance, and the normalised, scaled and shifted
   result. Each stage is the composition of the program's own operations, in the program's order. -/
import proofs.«168955_g2362232013395_cont_8to1_2029_9_alg».proof.Proof.Gen.ReferenceIdeal

noncomputable section

namespace Cert.RefSide

open Cert.ReferenceIdeal Cert.ReferenceIdeal.Gen Idealize.ShloMosaic

variable {F : FTy → Type} [FloatOps F]

/-- The row numbers 0 … 23 as the lookup reads them: a negative one moved up by the table's 100 rows, as a column. -/
def rowIdx : IVec S24x1 32 :=
  broadcastInDim S24x1 ![0] bcast_S24_S24x1_0
    (select (cmpi .slt (iotaInDim S24 32 0) (broadcastInDim S24 ![] bcast_S_S24 (constantI S_ 32 0#32)))
      (addi (iotaInDim S24 32 0) (broadcastInDim S24 ![] bcast_S_S24 (constantI S_ 32 100#32)))
      (iotaInDim S24 32 0))

/-- Whether each row number lies in 0 … 99, spread along the row. -/
def rowOk : IVec S24x768 1 :=
  broadcastInDim S24x768 ![0] bcast_S24_S24x768_0
    (Host.reduce IntOp.andi
      (andi (cmpi .sge rowIdx (broadcastInDim S24x1 ![] bcast_S_S24x1 (constantI S_ 32 0#32)))
        (cmpi .sle rowIdx (broadcastInDim S24x1 ![0, 1] bcast_S1x1_S24x1_0_1
          (broadcastInDim S1x1 ![1] bcast_S1_S1x1_1 (constantI S1 32 99#32)))))
      (constantI S_ 1 1#1) reducesTo_S24x1_S24_d1 h_S_)

/-- The first 24 rows of a table, looked up: the gathered row where the row number is in range, the fill word
    elsewhere. -/
def take (t : FVec F S100x768 .f32) : FVec F S24x768 .f32 :=
  select rowOk (Host.gather gather_S100x768_S24x1_S24x768_1_0_n_n_0_1_1768 t rowIdx)
    (broadcastInDim S24x768 ![] bcast_S_S24x768 (constant S_ .f32 0x7FC00000#32))

/-- The video plus the row term plus the column term, each table's 24 rows reshaped to channel-major and spread. -/
def xs (v : FVec F S128x768x24x24 .f32) (rt ct : FVec F S100x768 .f32) : FVec F S128x768x24x24 .f32 :=
  addf
    (addf v (broadcastInDim S128x768x24x24 ![0, 1, 2, 3] bcast_S1x768x24x1_S128x768x24x24_0_1_2_3
      (shapeCast S1x768x24x1 (take rt) shapeCasts_S24x768_S1x768x24x1)))
    (broadcastInDim S128x768x24x24 ![0, 1, 2, 3] bcast_S1x768x1x24_S128x768x24x24_0_1_2_3
      (shapeCast S1x768x1x24 (take ct) shapeCasts_S24x768_S1x768x1x24))

/-- The per-channel mean: the sum over batch, row and column from zero, over the count word. -/
def meanT (x : FVec F S128x768x24x24 .f32) : FVec F S1x768x1x1 .f32 :=
  Host.divf
    (broadcastInDim S1x768x1x1 ![1] bcast_S768_S1x768x1x1_1
      (Host.reduceAdd x (constant S_ .f32 0x00000000#32) reducesTo_S128x768x24x24_S768_d0_2_3 h_S_))
    (broadcastInDim S1x768x1x1 ![] bcast_S_S1x768x1x1 (constant S_ .f32 0x47900000#32))

/-- The divisor of the variance: the count word less the integer zero converted. -/
def cnt : FVec F S_ .f32 := subf (constant S_ .f32 0x47900000#32) (sitofp .f32 (constantI S_ 32 0#32))

/-- The per-channel variance: the sum of the squared deviations from the mean over the divisor, where the divisor is
    positive; the fill word otherwise. -/
def varT (x : FVec F S128x768x24x24 .f32) : FVec F S1x768x1x1 .f32 :=
  select (broadcastInDim S1x768x1x1 ![] bcast_S_S1x768x1x1 (cmpf .ogt (cnt (F := F)) (constant S_ .f32 0x00000000#32)))
    (Host.divf
      (broadcastInDim S1x768x1x1 ![1] bcast_S768_S1x768x1x1_1
        (Host.reduceAdd
          (mulf (subf x (broadcastInDim S128x768x24x24 ![0, 1, 2, 3] bcast_S1x768x1x1_S128x768x24x24_0_1_2_3 (meanT x)))
            (subf x (broadcastInDim S128x768x24x24 ![0, 1, 2, 3] bcast_S1x768x1x1_S128x768x24x24_0_1_2_3 (meanT x))))
          (constant S_ .f32 0x00000000#32) reducesTo_S128x768x24x24_S768_d0_2_3 h_S_))
      (broadcastInDim S1x768x1x1 ![] bcast_S_S1x768x1x1 (cnt (F := F))))
    (broadcastInDim S1x768x1x1 ![] bcast_S_S1x768x1x1 (id (constant S_ .f32 0x7FC00000#32)))

/-- The result over the summed input: the deviation from the mean over the square root of the variance plus the
    constant, times the scale, plus the shift. -/
def normT (x : FVec F S128x768x24x24 .f32) (g b : FVec F S768 .f32) : FVec F S128x768x24x24 .f32 :=
  addf
    (mulf
      (Host.divf
        (subf x (broadcastInDim S128x768x24x24 ![0, 1, 2, 3] bcast_S1x768x1x1_S128x768x24x24_0_1_2_3 (meanT x)))
        (broadcastInDim S128x768x24x24 ![0, 1, 2, 3] bcast_S1x768x1x1_S128x768x24x24_0_1_2_3
          (Host.sqrt (addf (varT x) (broadcastInDim S1x768x1x1 ![] bcast_S_S1x768x1x1 (constant S_ .f32 0x2B8CBCCC#32))))))
      (broadcastInDim S128x768x24x24 ![0, 1, 2, 3] bcast_S1x768x1x1_S128x768x24x24_0_1_2_3
        (shapeCast S1x768x1x1 g shapeCasts_S768_S1x768x1x1)))
    (broadcastInDim S128x768x24x24 ![0, 1, 2, 3] bcast_S1x768x1x1_S128x768x24x24_0_1_2_3
      (shapeCast S1x768x1x1 b shapeCasts_S768_S1x768x1x1))

/-- The reference's result as a term of its five arguments. -/
def outT (v : FVec F S128x768x24x24 .f32) (rt ct : FVec F S100x768 .f32) (g b : FVec F S768 .f32) :
    FVec F S128x768x24x24 .f32 :=
  normT (xs v rt ct) g b

end Cert.RefSide

end
-- ==== Proof.RefRunA.lean ====
/- The first 54 of the reference's operations — the two table lookups and the sums with the video — folded at the
   summed input's buffer, and at the scale's and the shift's. -/
import proofs.«168955_g2362232013395_cont_8to1_2029_9_alg».proof.Proof.RefOps
import proofs.«168955_g2362232013395_cont_8to1_2029_9_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The operations up to the summed input `x = (v + row term) + column term`. -/
abbrev opsA : List (HloOp τ sig (Elt F)) :=
  [ StableHlo.nullary main_v0 (iotaInDim S24 32 0),
    StableHlo.TRef.nullary main_call0.c (constantI S_ 32 0#32),
    StableHlo.TRef.unary main_call0.c main_call0.v0 (broadcastInDim S24 ![] bcast_S_S24),
    StableHlo.TRef.binary (.of main_v0) main_call0.v0 main_call0.v1 (cmpi .slt),
    StableHlo.TRef.nullary main_call0.c_0 (constantI S_ 32 100#32),
    StableHlo.TRef.unary main_call0.c_0 main_call0.v2 (broadcastInDim S24 ![] bcast_S_S24),
    StableHlo.TRef.binary (.of main_v0) main_call0.v2 main_call0.v3 addi,
    StableHlo.TRef.ternary main_call0.v1 main_call0.v3 (.of main_v0) main_call0.call0.v0 select,
    StableHlo.TRef.unary main_call0.call0.v0 main_call0.v5 (broadcastInDim S24x1 ![0] bcast_S24_S24x1_0),
    StableHlo.TRef.nullary main_call0.c_1 (constantI S1 32 99#32),
    StableHlo.TRef.nullary main_call0.c_2 (constantI S_ 32 0#32),
    StableHlo.TRef.unary main_call0.c_2 main_call0.v6 (broadcastInDim S24x1 ![] bcast_S_S24x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S24x1 ![0, 1] bcast_S1x1_S24x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S24x1_S24_d1 h_S_),
    StableHlo.TRef.binary (.of main_arg1) main_call0.v5 main_call0.v13 (fun x i => Host.gather gather_S100x768_S24x1_S24x768_1_0_n_n_0_1_1768 x i),
    StableHlo.TRef.unary main_call0.v12 main_call0.v14 (broadcastInDim S24x768 ![0] bcast_S24_S24x768_0),
    StableHlo.TRef.nullary main_call0.cst (constant S_ .f32 0x7FC00000#32),
    StableHlo.TRef.unary main_call0.cst main_call0.v15 (broadcastInDim S24x768 ![] bcast_S_S24x768),
    StableHlo.TRef.ternary main_call0.v14 main_call0.v13 main_call0.v15 main_call0.v16 select,
    StableHlo.reshape main_v1 main_v2 rfl shapeCasts_S24x768_S1x768x24x1,
    StableHlo.unary main_v2 main_v3 (broadcastInDim S128x768x24x24 ![0, 1, 2, 3] bcast_S1x768x24x1_S128x768x24x24_0_1_2_3 : (⟨S1x768x24x1, .f32⟩ : BufTy).Contents (Elt F) → (⟨S128x768x24x24, .f32⟩ : BufTy).Contents (Elt F)),
    StableHlo.binary main_arg0 main_v3 main_v4 (addf : (⟨S128x768x24x24, .f32⟩ : BufTy).Contents (Elt F) → (⟨S128x768x24x24, .f32⟩ : BufTy).Contents (Elt F) → (⟨S128x768x24x24, .f32⟩ : BufTy).Contents (Elt F)),
    StableHlo.nullary main_v5 (iotaInDim S24 32 0),
    StableHlo.TRef.nullary main_call1.c (constantI S_ 32 0#32),
    StableHlo.TRef.unary main_call1.c main_call1.v0 (broadcastInDim S24 ![] bcast_S_S24),
    StableHlo.TRef.binary (.of main_v5) main_call1.v0 main_call1.v1 (cmpi .slt),
    StableHlo.TRef.nullary main_call1.c_0 (constantI S_ 32 100#32),
    StableHlo.TRef.unary main_call1.c_0 main_call1.v2 (broadcastInDim S24 ![] bcast_S_S24),
    StableHlo.TRef.binary (.of main_v5) main_call1.v2 main_call1.v3 addi,
    StableHlo.TRef.ternary main_call1.v1 main_call1.v3 (.of main_v5) main_call1.call0.v0 select,
    StableHlo.TRef.unary main_call1.call0.v0 main_call1.v5 (broadcastInDim S24x1 ![0] bcast_S24_S24x1_0),
    StableHlo.TRef.nullary main_call1.c_1 (constantI S1 32 99#32),
    StableHlo.TRef.nullary main_call1.c_2 (constantI S_ 32 0#32),
    StableHlo.TRef.unary main_call1.c_2 main_call1.v6 (broadcastInDim S24x1 ![] bcast_S_S24x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S24x1 ![0, 1] bcast_S1x1_S24x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S24x1_S24_d1 h_S_),
    StableHlo.TRef.binary (.of main_arg2) main_call1.v5 main_call1.v13 (fun x i => Host.gather gather_S100x768_S24x1_S24x768_1_0_n_n_0_1_1768 x i),
    StableHlo.TRef.unary main_call1.v12 main_call1.v14 (broadcastInDim S24x768 ![0] bcast_S24_S24x768_0),
    StableHlo.TRef.nullary main_call1.cst (constant S_ .f32 0x7FC00000#32),
    StableHlo.TRef.unary main_call1.cst main_call1.v15 (broadcastInDim S24x768 ![] bcast_S_S24x768),
    StableHlo.TRef.ternary main_call1.v14 main_call1.v13 main_call1.v15 main_call1.v16 select,
    StableHlo.reshape main_v6 main_v7 rfl shapeCasts_S24x768_S1x768x1x24,
    StableHlo.unary main_v7 main_v8 (broadcastInDim S128x768x24x24 ![0, 1, 2, 3] bcast_S1x768x1x24_S128x768x24x24_0_1_2_3 : (⟨S1x768x1x24, .f32⟩ : BufTy).Contents (Elt F) → (⟨S128x768x24x24, .f32⟩ : BufTy).Contents (Elt F)),
    StableHlo.binary main_v4 main_v8 main_v9 (addf : (⟨S128x768x24x24, .f32⟩ : BufTy).Contents (Elt F) → (⟨S128x768x24x24, .f32⟩ : BufTy).Contents (Elt F) → (⟨S128x768x24x24, .f32⟩ : BufTy).Contents (Elt F)) ]

set_option maxRecDepth 8192 in
set_option maxHeartbeats 1600000 in
/-- After them the summed input's buffer holds `xs` of the video and the two tables. -/
theorem afterA_x (V : Valuation τ sig (Elt F)) :
    after opsA V (main_v9 : DevRef τ sig)
      = xs (V (main_arg0 : DevRef τ sig)) (V (main_arg1 : DevRef τ sig)) (V (main_arg2 : DevRef τ sig)) := by
  after_results_simp
  rfl

set_option maxRecDepth 8192 in
set_option maxHeartbeats 1600000 in
/-- They do not write the scale's buffer … -/
theorem afterA_arg3 (V : Valuation τ sig (Elt F)) : after opsA V (main_arg3 : DevRef τ sig) = V (main_arg3 : DevRef τ sig) := by
  after_results_simp

set_option maxRecDepth 8192 in
set_option maxHeartbeats 1600000 in
/-- … nor the shift's. -/
theorem afterA_arg4 (V : Valuation τ sig (Elt F)) : after opsA V (main_arg4 : DevRef τ sig) = V (main_arg4 : DevRef τ sig) := by
  after_results_simp

end Cert.RefSide

end
-- ==== Proof.RefRunB.lean ====
/- The last 44 of the reference's operations — mean, variance, normalisation, scale and shift — folded at the
   result's buffer, from any contents of the summed input's, the scale's and the shift's buffers. -/
import proofs.«168955_g2362232013395_cont_8to1_2029_9_alg».proof.Proof.RefOps
import proofs.«168955_g2362232013395_cont_8to1_2029_9_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The operations after the summed input. -/
abbrev opsB : List (HloOp τ sig (Elt F)) :=
  [ StableHlo.nullary main_cst (constant S_ .f32 0x00000000#32),
    StableHlo.binary main_v9 main_cst main_v10 ((fun x v => Host.reduceAdd x v reducesTo_S128x768x24x24_S768_d0_2_3 h_S_) : (⟨S128x768x24x24, .f32⟩ : BufTy).Contents (Elt F) → (⟨S_, .f32⟩ : BufTy).Contents (Elt F) → (⟨S768, .f32⟩ : BufTy).Contents (Elt F)),
    StableHlo.unary main_v10 main_v11 (broadcastInDim S1x768x1x1 ![1] bcast_S768_S1x768x1x1_1 : (⟨S768, .f32⟩ : BufTy).Contents (Elt F) → (⟨S1x768x1x1, .f32⟩ : BufTy).Contents (Elt F)),
    StableHlo.nullary main_cst_0 (constant S_ .f32 0x47900000#32),
    StableHlo.unary main_cst_0 main_v12 (broadcastInDim S1x768x1x1 ![] bcast_S_S1x768x1x1 : (⟨S_, .f32⟩ : BufTy).Contents (Elt F) → (⟨S1x768x1x1, .f32⟩ : BufTy).Contents (Elt F)),
    StableHlo.binary main_v11 main_v12 main_v13 (Host.divf : (⟨S1x768x1x1, .f32⟩ : BufTy).Contents (Elt F) → (⟨S1x768x1x1, .f32⟩ : BufTy).Contents (Elt F) → (⟨S1x768x1x1, .f32⟩ : BufTy).Contents (Elt F)),
    StableHlo.nullary main_c (constantI S_ 32 0#32),
    StableHlo.TRef.nullary main_call2.cst (constant S_ .f32 0x00000000#32),
    StableHlo.TRef.binary (.of main_v9) main_call2.cst main_call2.v0 (fun x v => Host.reduceAdd x v reducesTo_S128x768x24x24_S768_d0_2_3 h_S_),
    StableHlo.TRef.unary main_call2.v0 main_call2.v1 (broadcastInDim S1x768x1x1 ![1] bcast_S768_S1x768x1x1_1),
    StableHlo.TRef.nullary main_call2.cst_0 (constant S_ .f32 0x47900000#32),
    StableHlo.TRef.unary main_call2.cst_0 main_call2.v2 (broadcastInDim S1x768x1x1 ![] bcast_S_S1x768x1x1),
    StableHlo.TRef.binary main_call2.v1 main_call2.v2 main_call2.v3 Host.divf,
    StableHlo.TRef.unary main_call2.v3 main_call2.v4 (broadcastInDim S128x768x24x24 ![0, 1, 2, 3] bcast_S1x768x1x1_S128x768x24x24_0_1_2_3),
    StableHlo.TRef.binary (.of main_v9) main_call2.v4 main_call2.v5 subf,
    StableHlo.TRef.binary main_call2.v5 main_call2.v5 main_call2.v6 mulf,
    StableHlo.TRef.unary (.of main_c) main_call2.v7 (sitofp .f32),
    StableHlo.TRef.nullary main_call2.cst_1 (constant S_ .f32 0x47900000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S128x768x24x24_S768_d0_2_3 h_S_),
    StableHlo.TRef.unary main_call2.v9 main_call2.v10 (broadcastInDim S1x768x1x1 ![1] bcast_S768_S1x768x1x1_1),
    StableHlo.TRef.unary main_call2.v8 main_call2.v11 (broadcastInDim S1x768x1x1 ![] bcast_S_S1x768x1x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S1x768x1x1 ![] bcast_S_S1x768x1x1),
    StableHlo.TRef.ternary main_call2.v13 main_call2.v12 main_call2.call0.v1 main_call2.call0.v2 (fun p a b => select (broadcastInDim S1x768x1x1 ![] bcast_S_S1x768x1x1 p) a b),
    StableHlo.unary main_v13 main_v15 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    StableHlo.binary main_v9 main_v15 main_v16 (subf : (⟨S128x768x24x24, .f32⟩ : BufTy).Contents (Elt F) → (⟨S128x768x24x24, .f32⟩ : BufTy).Contents (Elt F) → (⟨S128x768x24x24, .f32⟩ : BufTy).Contents (Elt F)),
    StableHlo.nullary main_cst_1 (constant S_ .f32 0x2B8CBCCC#32),
    StableHlo.unary main_cst_1 main_v17 (broadcastInDim S1x768x1x1 ![] bcast_S_S1x768x1x1 : (⟨S_, .f32⟩ : BufTy).Contents (Elt F) → (⟨S1x768x1x1, .f32⟩ : BufTy).Contents (Elt F)),
    StableHlo.binary main_v14 main_v17 main_v18 (addf : (⟨S1x768x1x1, .f32⟩ : BufTy).Contents (Elt F) → (⟨S1x768x1x1, .f32⟩ : BufTy).Contents (Elt F) → (⟨S1x768x1x1, .f32⟩ : BufTy).Contents (Elt F)),
    StableHlo.unary main_v18 main_v19 (Host.sqrt : (⟨S1x768x1x1, .f32⟩ : BufTy).Contents (Elt F) → (⟨S1x768x1x1, .f32⟩ : BufTy).Contents (Elt F)),
    StableHlo.unary main_v19 main_v20 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    StableHlo.binary main_v16 main_v20 main_v21 (Host.divf : (⟨S128x768x24x24, .f32⟩ : BufTy).Contents (Elt F) → (⟨S128x768x24x24, .f32⟩ : BufTy).Contents (Elt F) → (⟨S128x768x24x24, .f32⟩ : BufTy).Contents (Elt F)),
    StableHlo.reshape main_arg3 main_v22 rfl shapeCasts_S768_S1x768x1x1,
    StableHlo.unary main_v22 main_v23 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    StableHlo.binary main_v21 main_v23 main_v24 (mulf : (⟨S128x768x24x24, .f32⟩ : BufTy).Contents (Elt F) → (⟨S128x768x24x24, .f32⟩ : BufTy).Contents (Elt F) → (⟨S128x768x24x24, .f32⟩ : BufTy).Contents (Elt F)),
    StableHlo.reshape main_arg4 main_v25 rfl shapeCasts_S768_S1x768x1x1,
    StableHlo.unary main_v25 main_v26 (broadcastInDim S128x768x24x24 ![0, 1, 2, 3] bcast_S1x768x1x1_S128x768x24x24_0_1_2_3 : (⟨S1x768x1x1, .f32⟩ : BufTy).Contents (Elt F) → (⟨S128x768x24x24, .f32⟩ : BufTy).Contents (Elt F)),
    StableHlo.binary main_v24 main_v26 main_v27 (addf : (⟨S128x768x24x24, .f32⟩ : BufTy).Contents (Elt F) → (⟨S128x768x24x24, .f32⟩ : BufTy).Contents (Elt F) → (⟨S128x768x24x24, .f32⟩ : BufTy).Contents (Elt F)) ]

set_option maxRecDepth 8192 in
set_option maxHeartbeats 1600000 in
/-- After them the result's buffer holds `normT` of what the summed input's, the scale's and the shift's buffers held. -/
theorem afterB_out (W : Valuation τ sig (Elt F)) :
    after opsB W (main_v27 : DevRef τ sig)
      = normT (W (main_v9 : DevRef τ sig)) (W (main_arg3 : DevRef τ sig)) (W (main_arg4 : DevRef τ sig)) := by
  after_results_simp
  rfl

end Cert.RefSide

end
-- ==== Proof.RefRunOut.lean ====
/- The fold of the reference's 98 operations at its result buffer: the composed term of the five arguments. -/
import proofs.«168955_g2362232013395_cont_8to1_2029_9_alg».proof.Proof.RefRunA
import proofs.«168955_g2362232013395_cont_8to1_2029_9_alg».proof.Proof.RefRunB

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The 98 operations are the first 54 followed by the last 44. -/
theorem ops_split : (ops : List (HloOp τ sig (Elt F))) = opsA ++ opsB := rfl

/-- Folding two lines run one after the other: fold the first, then the second from there. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The fold of the 98 operations at the result buffer is the composed term of the arguments' contents. -/
theorem after_out (V : Valuation τ sig (Elt F)) :
    after ops V (main_v27 : DevRef τ sig)
      = outT (V (main_arg0 : DevRef τ sig)) (V (main_arg1 : DevRef τ sig)) (V (main_arg2 : DevRef τ sig))
          (V (main_arg3 : DevRef τ sig)) (V (main_arg4 : DevRef τ sig)) := by
  rw [ops_split, after_append, afterB_out, afterA_x, afterA_arg3, afterA_arg4]
  rfl

end Cert.RefSide

end
-- ==== Proof.RefRunArgsA.lean ====
/- The fold of the reference's 98 operations at the video's and the two tables' buffers: unchanged. -/
import proofs.«168955_g2362232013395_cont_8to1_2029_9_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1600000 in
/-- No operation writes argument 0's buffer: after the 98 operations it holds what it held. -/
theorem after_arg0 (V : Valuation τ sig (Elt F)) : after ops V (main_arg0 : DevRef τ sig) = V (main_arg0 : DevRef τ sig) := by
  after_results_simp

set_option maxRecDepth 8192 in
set_option maxHeartbeats 1600000 in
/-- No operation writes argument 1's buffer: after the 98 operations it holds what it held. -/
theorem after_arg1 (V : Valuation τ sig (Elt F)) : after ops V (main_arg1 : DevRef τ sig) = V (main_arg1 : DevRef τ sig) := by
  after_results_simp

set_option maxRecDepth 8192 in
set_option maxHeartbeats 1600000 in
/-- No operation writes argument 2's buffer: after the 98 operations it holds what it held. -/
theorem after_arg2 (V : Valuation τ sig (Elt F)) : after ops V (main_arg2 : DevRef τ sig) = V (main_arg2 : DevRef τ sig) := by
  after_results_simp

end Cert.RefSide

end
-- ==== Proof.RefRunArgsB.lean ====
/- The fold of the reference's 98 operations at the scale's and the shift's buffers: unchanged. -/
import proofs.«168955_g2362232013395_cont_8to1_2029_9_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1600000 in
/-- No operation writes argument 3's buffer: after the 98 operations it holds what it held. -/
theorem after_arg3 (V : Valuation τ sig (Elt F)) : after ops V (main_arg3 : DevRef τ sig) = V (main_arg3 : DevRef τ sig) := by
  after_results_simp

set_option maxRecDepth 8192 in
set_option maxHeartbeats 1600000 in
/-- No operation writes argument 4's buffer: after the 98 operations it holds what it held. -/
theorem after_arg4 (V : Valuation τ sig (Elt F)) : after ops V (main_arg4 : DevRef τ sig) = V (main_arg4 : DevRef τ sig) := by
  after_results_simp

end Cert.RefSide

end
-- ==== Proof.RefRun.lean ====
/- The reference's run read back: every weakly fair execution of @main terminates with the result buffer at the
   composed term `outT` of the five arguments' launch contents, and the arguments unchanged. -/
import proofs.«168955_g2362232013395_cont_8to1_2029_9_alg».proof.Proof.RefOps
import proofs.«168955_g2362232013395_cont_8to1_2029_9_alg».proof.Proof.RefTerm
import proofs.«168955_g2362232013395_cont_8to1_2029_9_alg».proof.Proof.RefRunOut
import proofs.«168955_g2362232013395_cont_8to1_2029_9_alg».proof.Proof.RefRunArgsA
import proofs.«168955_g2362232013395_cont_8to1_2029_9_alg».proof.Proof.RefRunArgsB

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of @main
    terminates with the result at the composed term of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27)
        = outT (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v27).trans (after_out _),
      (h c main_arg0).trans (after_arg0 _), (h c main_arg1).trans (after_arg1 _), (h c main_arg2).trans (after_arg2 _),
      (h c main_arg3).trans (after_arg3 _), (h c main_arg4).trans (after_arg4 _)⟩)
    (run_main m ρ)

end Cert.RefSide

end
-- ==== Proof.RefReadTake.lean ====
/- The table lookup read at an index: the 24 row numbers are 0 … 23, each within the table's 100 rows, so the lookup
   returns rows 0 … 23 of the table unchanged. -/
import proofs.«168955_g2362232013395_cont_8to1_2029_9_alg».proof.Proof.RefTerm
import Idealize.ShloMosaic.Lib.ValueIdx
import Idealize.ShloMosaic.Lib.Pipeline.Value

noncomputable section

namespace Cert.RefSide

open Cert.ReferenceIdeal Cert.ReferenceIdeal.Gen Idealize.ShloMosaic Idealize.ShloMosaic.ValueIdx

variable {F : FTy → Type} [FloatOps F]

/-- Row number `i` of the lookup is `i`: it is not negative, so the wrap leaves it. -/
theorem rowIdx_apply : ∀ (i : Fin 24) (z : Fin 1), rowIdx (ix2 i z) = BitVec.ofNat 32 i.val := by
  decide

/-- Every row number lies in 0 … 99. -/
theorem rowOk_row : ∀ i : Fin 24,
    Host.reduce IntOp.andi
      (andi (cmpi .sge rowIdx (broadcastInDim S24x1 ![] bcast_S_S24x1 (constantI S_ 32 0#32)))
        (cmpi .sle rowIdx (broadcastInDim S24x1 ![0, 1] bcast_S1x1_S24x1_0_1
          (broadcastInDim S1x1 ![1] bcast_S1_S1x1_1 (constantI S1 32 99#32)))))
      (constantI S_ 1 1#1) reducesTo_S24x1_S24_d1 h_S_ (ix1 i) = 1#1 := by
  decide

/-- So the in-range flag is set at every entry. -/
theorem rowOk_apply (i : Fin 24) (j : Fin 768) : rowOk (ix2 i j) = 1#1 := by
  unfold rowOk
  rw [broadcastInDim_apply _ _ _ (ix2 i j) (ix1 i) (fun a => match a with | ⟨0, _⟩ => rfl)]
  exact rowOk_row i

/-- The signed reading of a row number below 24 is that number. -/
theorem toInt_toNat_ofNat : ∀ i : Fin 24, (BitVec.ofNat 32 i.val).toInt.toNat = i.val := by
  decide

section Gather
variable {α : Type} {w : Nat}

/-- The gather of whole rows read at `(i, j)`: the table at the row the start index `idx[i, 0]` names (read signed,
    clamped into 0 … 99) and column `j`. -/
theorem gather_rows_apply (x : S100x768.Idx → α) (idx : IVec S24x1 w) (i : Fin 24) (j : Fin 768) :
    Host.gather gather_S100x768_S24x1_S24x768_1_0_n_n_0_1_1768 x idx (ix2 i j)
      = x (ix2 ⟨min (idx (ix2 i 0)).toInt.toNat 99, by omega⟩ j) := by
  unfold Host.gather
  congr 1
  funext a
  refine Fin.ext ?_
  match a with
  | ⟨0, _⟩ =>
    show gather_S100x768_S24x1_S24x768_1_0_n_n_0_1_1768.start (ix2 i j) idx (0 : Fin 2) + gather_S100x768_S24x1_S24x768_1_0_n_n_0_1_1768.batchCoord (ix2 i j) (0 : Fin 2)
        + gather_S100x768_S24x1_S24x768_1_0_n_n_0_1_1768.offCoord (ix2 i j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100x768_S24x1_S24x768_1_0_n_n_0_1_1768.startIndexMap from List.mem_singleton.mpr rfl)]
    have hsi : gather_S100x768_S24x1_S24x768_1_0_n_n_0_1_1768.siIdx (ix2 i j)
        ⟨List.idxOf (0 : Fin 2) gather_S100x768_S24x1_S24x768_1_0_n_n_0_1_1768.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, _⟩ =>
    show gather_S100x768_S24x1_S24x768_1_0_n_n_0_1_1768.start (ix2 i j) idx (1 : Fin 2) + gather_S100x768_S24x1_S24x768_1_0_n_n_0_1_1768.batchCoord (ix2 i j) (1 : Fin 2)
        + gather_S100x768_S24x1_S24x768_1_0_n_n_0_1_1768.offCoord (ix2 i j) (1 : Fin 2) = j.val
    rw [GatherDims.batchCoord_eq_zero _ _ _ List.not_mem_nil]
    unfold GatherDims.start
    rw [dif_neg (show (1 : Fin 2) ∉ gather_S100x768_S24x1_S24x768_1_0_n_n_0_1_1768.startIndexMap by decide)]
    unfold GatherDims.offCoord
    rw [dif_pos (show (1 : Fin 2) ∈ gather_S100x768_S24x1_S24x768_1_0_n_n_0_1_1768.sKept by decide)]
    simp only [Nat.zero_add]
    rfl

end Gather

/-- The lookup returns rows 0 … 23 of the table. -/
theorem take_apply (t : FVec F S100x768 .f32) (i : Fin 24) (j : Fin 768) :
    take t (ix2 i j) = t (ix2 ⟨i.val, by omega⟩ j) := by
  unfold take
  rw [select_apply, rowOk_apply, select_one, gather_rows_apply]
  refine congrArg t ?_
  have h : min (rowIdx (ix2 i 0)).toInt.toNat 99 = i.val := by
    rw [rowIdx_apply, toInt_toNat_ofNat]; omega
  funext a
  match a with
  | ⟨0, _⟩ => exact Fin.ext h
  | ⟨1, _⟩ => rfl

end Cert.RefSide

end
-- ==== Proof.RefReadSum.lean ====
/- The host's sum over batch, row and column read at a channel: the initial value plus the triple sum over the three
   reduced coordinates. -/
import proofs.«168955_g2362232013395_cont_8to1_2029_9_alg».proof.Proof.RefTerm
import proofs.«168955_g2362232013395_cont_8to1_2029_9_alg».proof.Proof.LibIdxSums
import Idealize.ShloMosaic.Lib.ValueIdx
import Idealize.ShloMosaic.PureOps.Ideal.Laws

noncomputable section

namespace Cert.RefSide

open Cert.ReferenceIdeal Cert.ReferenceIdeal.Gen Idealize.ShloMosaic Idealize.ShloMosaic.ValueIdx
open scoped BigOperators

/-- Dropping batch, row and column from an index leaves its channel. -/
theorem drop_ix4 (b : Fin 128) (c : Fin 768) (h w : Fin 24) :
    reducesTo_S128x768x24x24_S768_d0_2_3.drop (ix4 b c h w) = ix1 c := by
  funext a
  match a with
  | ⟨0, _⟩ => exact Fin.ext rfl

/-- The indices that reduce to channel `c` are those with second coordinate `c`: a sum over them is the triple sum over
    the other three coordinates. -/
theorem hostReduceAdd_channel (x : S128x768x24x24.Idx → EReal) (init : EReal) (c : Fin 768) :
    Ideal.hostReduceAdd reducesTo_S128x768x24x24_S768_d0_2_3 x init (ix1 c)
      = init + ∑ b : Fin 128, ∑ h : Fin 24, ∑ w : Fin 24, x (ix4 b c h w) := by
  unfold Ideal.hostReduceAdd
  congr 1
  rw [Finset.sum_filter, Cert.LibIdxSums.sum_idx4]
  refine Finset.sum_congr rfl fun b _ => ?_
  rw [Finset.sum_eq_single c]
  · refine Finset.sum_congr rfl fun h _ => Finset.sum_congr rfl fun w _ => ?_
    rw [if_pos (drop_ix4 b c h w)]
  · intro c' _ hne
    refine Finset.sum_eq_zero fun h _ => Finset.sum_eq_zero fun w _ => ?_
    rw [if_neg]
    intro e
    rw [drop_ix4] at e
    exact hne (congrFun e 0)
  · intro h
    exact absurd (Finset.mem_univ c) h

end Cert.RefSide

end
-- ==== Proof.RefReadVal.lean ====
/- The reference's composed term read at an index, at the extended reals: it is the textbook formula
   `(x - mean) / sqrt (var + ε) · g + b` over `x = v + (row term + column term)`, the variance the mean of the squared
   deviations. -/
import proofs.«168955_g2362232013395_cont_8to1_2029_9_alg».proof.Proof.RefTerm
import proofs.«168955_g2362232013395_cont_8to1_2029_9_alg».proof.Proof.RefReadTake
import proofs.«168955_g2362232013395_cont_8to1_2029_9_alg».proof.Proof.RefReadSum
import proofs.«168955_g2362232013395_cont_8to1_2029_9_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.ValueIdx
open scoped BigOperators

/-- A per-channel value spread over batch, row and column reads, at any index, its channel's entry. -/
theorem bcast_channel {α : Type} (y : S1x768x1x1.Idx → α) (b : Fin 128) (c : Fin 768) (h w : Fin 24) :
    broadcastInDim S128x768x24x24 ![0, 1, 2, 3] bcast_S1x768x1x1_S128x768x24x24_0_1_2_3 y (ix4 b c h w) = y (ix4 0 c 0 0) :=
  broadcastInDim_apply _ _ _ (ix4 b c h w) (ix4 0 c 0 0)
    (fun a => match a with | ⟨0, _⟩ => rfl | ⟨1, _⟩ => rfl | ⟨2, _⟩ => rfl | ⟨3, _⟩ => rfl)

/-- A scalar spread over the channels reads the scalar. -/
theorem bcast_scalar {α : Type} (y : S_.Idx → α) (c : Fin 768) :
    broadcastInDim S1x768x1x1 ![] bcast_S_S1x768x1x1 y (ix4 0 c 0 0) = y ix0 :=
  broadcastInDim_apply _ _ _ (ix4 0 c 0 0) ix0 (fun a => a.elim0)

/-- A per-channel vector placed on the channel axis reads the vector's entry. -/
theorem bcast_vec {α : Type} (y : S768.Idx → α) (c : Fin 768) :
    broadcastInDim S1x768x1x1 ![1] bcast_S768_S1x768x1x1_1 y (ix4 0 c 0 0) = y (ix1 c) :=
  broadcastInDim_apply _ _ _ (ix4 0 c 0 0) (ix1 c) (fun a => match a with | ⟨0, _⟩ => rfl)

/-- A per-channel vector reshaped onto the channel axis reads the vector's entry. -/
theorem cast_vec {α : Type} (y : S768.Idx → α) (c : Fin 768) :
    shapeCast S1x768x1x1 y shapeCasts_S768_S1x768x1x1 (ix4 0 c 0 0) = y (ix1 c) :=
  shapeCast_apply _ _ (ix4 0 c 0 0) (ix1 c) (by
    rw [Shape.rowMajor_val_one, Shape.rowMajor_val_four]
    show c.val = (((0 : Nat) * 768 + c.val) * 1 + 0) * 1 + 0
    omega)

section Values

variable (v : FVec Ideal S128x768x24x24 .f32) (rt ct : FVec Ideal S100x768 .f32) (g b : FVec Ideal S768 .f32)

/-- The row term at `(c, h)`: the table's first 24 rows read row-major at position `c · 24 + h`. -/
theorem rowTerm_apply (t : FVec Ideal S100x768 .f32) (bb : Fin 128) (c : Fin 768) (h w : Fin 24) :
    broadcastInDim S128x768x24x24 ![0, 1, 2, 3] bcast_S1x768x24x1_S128x768x24x24_0_1_2_3
        (shapeCast S1x768x24x1 (take t) shapeCasts_S24x768_S1x768x24x1) (ix4 bb c h w)
      = Cert.Spec.flat24 t c h := by
  have hc := c.isLt
  have hh := h.isLt
  rw [broadcastInDim_apply _ _ _ (ix4 bb c h w) (ix4 0 c h 0)
      (fun a => match a with | ⟨0, _⟩ => rfl | ⟨1, _⟩ => rfl | ⟨2, _⟩ => rfl | ⟨3, _⟩ => rfl),
    shapeCast_apply _ _ (ix4 0 c h 0)
      (ix2 (⟨(c.val * 24 + h.val) / 768, by omega⟩ : Fin 24) (⟨(c.val * 24 + h.val) % 768, Nat.mod_lt _ (by norm_num)⟩ : Fin 768))
      (by
        rw [Shape.rowMajor_val_two, Shape.rowMajor_val_four]
        show (c.val * 24 + h.val) / 768 * 768 + (c.val * 24 + h.val) % 768 = (((0 : Nat) * 768 + c.val) * 24 + h.val) * 1 + 0
        omega),
    take_apply]
  rfl

/-- The column term at `(c, w)`: likewise at position `c · 24 + w`. -/
theorem colTerm_apply (t : FVec Ideal S100x768 .f32) (bb : Fin 128) (c : Fin 768) (h w : Fin 24) :
    broadcastInDim S128x768x24x24 ![0, 1, 2, 3] bcast_S1x768x1x24_S128x768x24x24_0_1_2_3
        (shapeCast S1x768x1x24 (take t) shapeCasts_S24x768_S1x768x1x24) (ix4 bb c h w)
      = Cert.Spec.flat24 t c w := by
  have hc := c.isLt
  have hw := w.isLt
  rw [broadcastInDim_apply _ _ _ (ix4 bb c h w) (ix4 0 c 0 w)
      (fun a => match a with | ⟨0, _⟩ => rfl | ⟨1, _⟩ => rfl | ⟨2, _⟩ => rfl | ⟨3, _⟩ => rfl),
    shapeCast_apply _ _ (ix4 0 c 0 w)
      (ix2 (⟨(c.val * 24 + w.val) / 768, by omega⟩ : Fin 24) (⟨(c.val * 24 + w.val) % 768, Nat.mod_lt _ (by norm_num)⟩ : Fin 768))
      (by
        rw [Shape.rowMajor_val_two, Shape.rowMajor_val_four]
        show (c.val * 24 + w.val) / 768 * 768 + (c.val * 24 + w.val) % 768 = (((0 : Nat) * 768 + c.val) * 1 + 0) * 24 + w.val
        omega),
    take_apply]
  rfl

/-- The summed input at an index: the video plus the positional term (the two sums regrouped). -/
theorem xs_apply (bb : Fin 128) (c : Fin 768) (h w : Fin 24) :
    xs v rt ct (ix4 bb c h w) = Cert.Spec.x v rt ct bb c h w := by
  unfold xs Cert.Spec.x Cert.Spec.pos
  rw [addf_apply, addf_apply, rowTerm_apply, colTerm_apply, add_assoc]

/-- The count word denotes a positive real: sign 0, biased exponent 143, fraction 1048576. -/
theorem n_val : Ideal.ofBits .f32 0x47900000#32 = (((9437184 : ℝ) * (2 : ℝ) ^ (-7 : ℤ) : ℝ) : EReal) := by
  simp [Ideal.ofBits, Ideal.ieee, -EReal.coe_mul]

theorem n_pos : (0 : EReal) < Ideal.ofBits .f32 0x47900000#32 := by
  rw [n_val]
  exact EReal.coe_pos.mpr (by positivity)

/-- The variance's divisor is the count word: the integer zero converts to the real zero. -/
theorem cnt_val : cnt (F := Ideal) ix0 = Cert.Spec.n := by
  show Ideal.ofBits .f32 0x47900000#32 - (((0#32 : BitVec 32).toInt : ℝ) : EReal) = Cert.Spec.n
  rw [BitVec.toInt_zero, Int.cast_zero, EReal.coe_zero, sub_zero]
  rfl

/-- The per-channel mean of a summed input `x`. -/
theorem meanT_apply (x : FVec Ideal S128x768x24x24 .f32) (c : Fin 768) :
    meanT x (ix4 0 c 0 0) = Ideal.div (∑ bb : Fin 128, ∑ h : Fin 24, ∑ w : Fin 24, x (ix4 bb c h w)) Cert.Spec.n := by
  unfold meanT
  show Ideal.div _ _ = _
  rw [bcast_vec, bcast_scalar]
  show Ideal.div (Ideal.hostReduceAdd reducesTo_S128x768x24x24_S768_d0_2_3 x (Ideal.ofBits .f32 0x00000000#32) (ix1 c))
      (Ideal.ofBits .f32 0x47900000#32) = _
  rw [hostReduceAdd_channel, Ideal.ofBits_zero_f32, zero_add]
  rfl

/-- The per-channel variance of a summed input `x`: the divisor is positive, so the quotient is selected. -/
theorem varT_apply (x : FVec Ideal S128x768x24x24 .f32) (c : Fin 768) :
    varT x (ix4 0 c 0 0)
      = Ideal.div (∑ bb : Fin 128, ∑ h : Fin 24, ∑ w : Fin 24,
          (x (ix4 bb c h w) - meanT x (ix4 0 c 0 0)) * (x (ix4 bb c h w) - meanT x (ix4 0 c 0 0))) Cert.Spec.n := by
  unfold varT
  rw [select_apply, bcast_scalar]
  have hgt : cmpf .ogt (cnt (F := Ideal)) (constant S_ .f32 0x00000000#32) ix0 = 1#1 := by
    show Ideal.cmp .ogt (cnt (F := Ideal) ix0) (Ideal.ofBits .f32 0x00000000#32) = 1#1
    rw [cnt_val, Ideal.ofBits_zero_f32]
    show BitVec.ofBool (decide ((0 : EReal) < Cert.Spec.n)) = 1#1
    have hn : (0 : EReal) < Cert.Spec.n := n_pos
    rw [decide_eq_true hn]
    rfl
  rw [hgt, select_one]
  show Ideal.div _ _ = _
  rw [bcast_vec, bcast_scalar, cnt_val]
  show Ideal.div (Ideal.hostReduceAdd reducesTo_S128x768x24x24_S768_d0_2_3 _ (Ideal.ofBits .f32 0x00000000#32) (ix1 c)) _ = _
  rw [hostReduceAdd_channel, Ideal.ofBits_zero_f32, zero_add]
  refine congrArg (fun s => Ideal.div s Cert.Spec.n) ?_
  refine Finset.sum_congr rfl fun bb _ => Finset.sum_congr rfl fun h _ => Finset.sum_congr rfl fun w _ => ?_
  rw [mulf_apply, subf_apply, bcast_channel]

/-- The normalised, scaled and shifted result of a summed input `x` at an index. -/
theorem normT_apply (x : FVec Ideal S128x768x24x24 .f32) (bb : Fin 128) (c : Fin 768) (h w : Fin 24) :
    normT x g b (ix4 bb c h w)
      = Ideal.div (x (ix4 bb c h w) - meanT x (ix4 0 c 0 0)) (Ideal.sqrt (varT x (ix4 0 c 0 0) + Cert.Spec.eps))
          * g (ix1 c) + b (ix1 c) := by
  unfold normT
  rw [addf_apply, mulf_apply, bcast_channel, bcast_channel, cast_vec, cast_vec]
  show Ideal.div _ _ * _ + _ = _
  rw [subf_apply, bcast_channel, bcast_channel]
  show Ideal.div _ (Ideal.sqrt (addf (varT x) _ (ix4 0 c 0 0))) * _ + _ = _
  rw [addf_apply, bcast_scalar]
  rfl

/-- The reference's composed term is the textbook formula. -/
theorem outT_eq_rout : outT v rt ct g b = Cert.Spec.rout v rt ct g b := by
  funext i
  obtain ⟨bb, c, h, w, rfl⟩ : ∃ bb c h w, i = ix4 bb c h w := ⟨i 0, i 1, i 2, i 3, eq_ix4 i⟩
  have hmean : meanT (xs v rt ct) (ix4 0 c 0 0) = Cert.Spec.mean v rt ct c := by
    rw [meanT_apply]
    unfold Cert.Spec.mean Cert.Spec.S1
    refine congrArg (fun s => Ideal.div s Cert.Spec.n) ?_
    exact Finset.sum_congr rfl fun bb _ => Finset.sum_congr rfl fun h _ => Finset.sum_congr rfl fun w _ => xs_apply v rt ct bb c h w
  have hvar : varT (xs v rt ct) (ix4 0 c 0 0) = Cert.Spec.varR v rt ct c := by
    rw [varT_apply, hmean]
    unfold Cert.Spec.varR
    refine congrArg (fun s => Ideal.div s Cert.Spec.n) ?_
    refine Finset.sum_congr rfl fun bb _ => Finset.sum_congr rfl fun h _ => Finset.sum_congr rfl fun w _ => ?_
    rw [xs_apply]
  unfold outT
  rw [normT_apply, hmean, hvar, xs_apply]
  rfl

end Values

end Cert.RefSide

end
-- ==== Proof.RefSide.lean ====
/- The reference's run at the extended reals: every weakly fair execution of @main terminates with the result buffer
   at the textbook formula of the five arguments' launch contents, and the arguments unchanged. -/
import proofs.«168955_g2362232013395_cont_8to1_2029_9_alg».proof.Proof.RefRun
import proofs.«168955_g2362232013395_cont_8to1_2029_9_alg».proof.Proof.RefReadVal

noncomputable section

namespace Cert.RefSide

open Idealize.ShloMosaic Idealize.SL.Sem

/-- The run with the result at the composed term, at the extended reals, spelt over the program's own names. -/
theorem run_term_ideal (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v27) = outT (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  run_term (F := Ideal) m ρ

/-- The composed term is the textbook formula. -/
theorem term_eq_rout (v : Cert.Spec.SV.Idx → EReal) (rt ct : Cert.Spec.ST.Idx → EReal) (g b : Cert.Spec.SC.Idx → EReal) :
    outT (F := Ideal) v rt ct g b = Cert.Spec.rout v rt ct g b :=
  outT_eq_rout v rt ct g b

/-- The run with the result at the textbook formula. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v27) = Cert.Spec.rout (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run _ _ _).mono (fun _ h c => ⟨(h c).1.trans (outT_eq_rout _ _ _ _ _), (h c).2⟩) (run_term_ideal m ρ)

end Cert.RefSide

end
-- ==== Proof.LibBnFold.lean ====
import Mathlib
import Idealize.ShloMosaic.PureOps.Ideal
import Idealize.ShloMosaic.PureOps.Ideal.Laws

/-!
  Three facts about extended reals that are REAL NUMBERS, for folding an affine normalisation
  ((x - mean) * scale + shift) into a matrix product: the fold itself is a ring identity once every factor is
  real; a finite sum of products of reals is real; and a real numerator over the square root of a
  nonnegative real plus a positive constant is real.
-/

noncomputable section

namespace Cert.LibBnFold

open Idealize.ShloMosaic
open scoped BigOperators

/-- For real w, b, mn, s, bet the normalised sum ((w + b) - mn) * s + bet splits as
    w * s + (b * s + (bet - mn * s)): a ring identity in ℝ, carried to the extended reals by the
    coercion's additivity and multiplicativity (it fails at the infinities, where EReal is not a ring). -/
theorem bn_fold {w b mn s bet : EReal} (hw : ∃ r : ℝ, w = (r : EReal)) (hb : ∃ r : ℝ, b = (r : EReal))
    (hmn : ∃ r : ℝ, mn = (r : EReal)) (hs : ∃ r : ℝ, s = (r : EReal)) (hbet : ∃ r : ℝ, bet = (r : EReal)) :
    ((w + b) - mn) * s + bet = w * s + (b * s + (bet - mn * s)) := by
  obtain ⟨w, rfl⟩ := hw
  obtain ⟨b, rfl⟩ := hb
  obtain ⟨mn, rfl⟩ := hmn
  obtain ⟨s, rfl⟩ := hs
  obtain ⟨bet, rfl⟩ := hbet
  rw [← EReal.coe_add, ← EReal.coe_sub, ← EReal.coe_mul, ← EReal.coe_add,
    ← EReal.coe_mul, ← EReal.coe_mul, ← EReal.coe_mul, ← EReal.coe_sub, ← EReal.coe_add, ← EReal.coe_add]
  congr 1
  ring

/-- A finite sum of products of real numbers, taken in the extended reals, is a real number
    (induction on the finite index set: the empty sum is 0, and a real plus a real is real). -/
theorem sum_mul_real {K : Type} [Fintype K] (f g : K → EReal) (hf : ∀ k, ∃ r : ℝ, f k = (r : EReal))
    (hg : ∀ k, ∃ r : ℝ, g k = (r : EReal)) : ∃ r : ℝ, (∑ k, f k * g k) = (r : EReal) := by
  classical
  have key : ∀ t : Finset K, ∃ r : ℝ, (∑ k ∈ t, f k * g k) = (r : EReal) := by
    intro t
    induction t using Finset.induction_on with
    | empty => exact ⟨0, by rw [Finset.sum_empty, EReal.coe_zero]⟩
    | insert a t ha ih =>
      obtain ⟨r, hr⟩ := ih
      obtain ⟨x, hx⟩ := hf a
      obtain ⟨y, hy⟩ := hg a
      exact ⟨x * y + r, by rw [Finset.sum_insert ha, hr, hx, hy, ← EReal.coe_mul, ← EReal.coe_add]⟩
  exact key Finset.univ

/-- The f32 word 0x3727C5AC (about 1e-5) denotes a real number: sign 0, biased exponent 110 and
    fraction 2606508, so the normal value (2^23 + 2606508) * 2^(110 - 127 - 23) = 10995116 * 2^(-40). -/
theorem eps_val : Ideal.ofBits .f32 0x3727C5AC#32 = (((10995116 : ℝ) * (2 : ℝ) ^ (-40 : ℤ) : ℝ) : EReal) := by
  simp [Ideal.ofBits, Ideal.ieee, -EReal.coe_mul]

/-- That real number is positive. -/
theorem eps_pos_real : ∃ e : ℝ, 0 < e ∧ Ideal.ofBits .f32 0x3727C5AC#32 = (e : EReal) :=
  ⟨(10995116 : ℝ) * (2 : ℝ) ^ (-40 : ℤ), by positivity, eps_val⟩

/-- A real g divided by the square root of v + ε, for a real v ≥ 0 and the positive constant ε the word
    0x3727C5AC denotes, is a real number: v + ε is a positive real, so its square root is a positive real,
    and the quotient by a nonzero real is the product with its reciprocal. -/
theorem scale_real {g v : EReal} (hg : ∃ r : ℝ, g = (r : EReal)) (hv : ∃ r : ℝ, v = (r : EReal)) (hv0 : (0 : EReal) ≤ v) :
    ∃ r : ℝ, Ideal.div g (Ideal.sqrt (v + Ideal.ofBits .f32 0x3727C5AC#32)) = (r : EReal) := by
  obtain ⟨g, rfl⟩ := hg
  obtain ⟨v, rfl⟩ := hv
  obtain ⟨e, he, hE⟩ := eps_pos_real
  have hv' : (0 : ℝ) ≤ v := EReal.coe_nonneg.mp hv0
  have hpos : (0 : ℝ) < v + e := by linarith
  rw [hE, ← EReal.coe_add, Ideal.sqrt_coe, if_neg (not_lt.mpr hpos.le),
    Ideal.div_coe (Real.sqrt_pos.mpr hpos).ne', ← EReal.coe_mul]
  exact ⟨_, rfl⟩

end Cert.LibBnFold

end
-- ==== Proof.Consts.lean ====
/-
  The two float words of the specification as real numbers: the row count 73728 and the positive constant
  added to the variance.
-/
import Mathlib
import Idealize.ShloMosaic.PureOps.Ideal
import Idealize.ShloMosaic.PureOps.Ideal.Laws
import proofs.«168955_g2362232013395_cont_8to1_2029_9_alg».proof.Proof.Spec

noncomputable section

namespace Cert.Bridge

open Idealize.ShloMosaic

/-- The f32 word 0x47900000 has sign 0, biased exponent 143 and fraction 1048576, so it denotes
    (2^23 + 1048576) * 2^(143 - 127 - 23) = 9437184 * 2^(-7) = 73728. -/
theorem n_val : Cert.Spec.n = ((73728 : ℝ) : EReal) := by
  have h : Cert.Spec.n = (((9437184 : ℝ) * (2 : ℝ) ^ (-7 : ℤ) : ℝ) : EReal) := by
    simp [Cert.Spec.n, Ideal.ofBits, Ideal.ieee, -EReal.coe_mul]
  rw [h]
  congr 1
  norm_num

/-- The f32 word 0x2B8CBCCC has sign 0, biased exponent 87 and fraction 834764, so it denotes
    (2^23 + 834764) * 2^(87 - 127 - 23) = 9223372 * 2^(-63). -/
theorem eps_val : Cert.Spec.eps = (((9223372 : ℝ) * (2 : ℝ) ^ (-63 : ℤ) : ℝ) : EReal) := by
  simp [Cert.Spec.eps, Ideal.ofBits, Ideal.ieee, -EReal.coe_mul]

/-- That real number is positive. -/
theorem eps_pos_real : ∃ e : ℝ, 0 < e ∧ Cert.Spec.eps = (e : EReal) :=
  ⟨(9223372 : ℝ) * (2 : ℝ) ^ (-63 : ℤ), by positivity, eps_val⟩

end Cert.Bridge

end
-- ==== Proof.Bridge.lean ====
/-
  The folded formula and the textbook formula of the specification agree on real data.

  For one channel the 73728 entries x (batch, row, column) are real numbers o. The mean is the real
  m = (Σ o) / n; the two spellings of the variance agree (mean of squares minus squared mean = mean of squared
  deviations) and are a real number ≥ 0, so variance + ε is a positive real, its square root s is a positive real,
  the reciprocal square root is s⁻¹ and the quotient by s is the product with 1 / s. What is left is the identity
  v·(g·s⁻¹) + (p·(g·s⁻¹) + (b − m·(g·s⁻¹))) = ((v + p) − m)·(1/s)·g + b in ℝ.
-/
import Mathlib
import Idealize.ShloMosaic.PureOps.Ideal
import Idealize.ShloMosaic.PureOps.Ideal.Laws
import Idealize.ShloMosaic.Lib.ValueIdx
import proofs.«168955_g2362232013395_cont_8to1_2029_9_alg».proof.Proof.Spec
import proofs.«168955_g2362232013395_cont_8to1_2029_9_alg».proof.Proof.LibBatchMoments
import proofs.«168955_g2362232013395_cont_8to1_2029_9_alg».proof.Proof.LibBnFold
import proofs.«168955_g2362232013395_cont_8to1_2029_9_alg».proof.Proof.Consts

noncomputable section

namespace Cert.Bridge

open Idealize.ShloMosaic Idealize.ShloMosaic.ValueIdx
open scoped BigOperators

/-- The folded and the textbook normalisation of one entry agree, for a column of real data o over any finite
    index set of n > 0 entries, a positive real ε and real v, p, g, b. -/
theorem fold_generic {ι : Type} [Fintype ι] (o : ι → ℝ) (nn e : ℝ) (hn : 0 < nn)
    (hcard : (Fintype.card ι : ℝ) = nn) (he : 0 < e) (vv pp gg bb : ℝ) :
    (vv : EReal) * ((gg : EReal) * Ideal.rsqrt
        ((Ideal.div (∑ i, (o i : EReal) * (o i : EReal)) (nn : EReal)
          - Ideal.div (∑ i, (o i : EReal)) (nn : EReal) * Ideal.div (∑ i, (o i : EReal)) (nn : EReal)) + (e : EReal)))
      + ((pp : EReal) * ((gg : EReal) * Ideal.rsqrt
        ((Ideal.div (∑ i, (o i : EReal) * (o i : EReal)) (nn : EReal)
          - Ideal.div (∑ i, (o i : EReal)) (nn : EReal) * Ideal.div (∑ i, (o i : EReal)) (nn : EReal)) + (e : EReal)))
        + ((bb : EReal) - Ideal.div (∑ i, (o i : EReal)) (nn : EReal) * ((gg : EReal) * Ideal.rsqrt
        ((Ideal.div (∑ i, (o i : EReal) * (o i : EReal)) (nn : EReal)
          - Ideal.div (∑ i, (o i : EReal)) (nn : EReal) * Ideal.div (∑ i, (o i : EReal)) (nn : EReal)) + (e : EReal)))))
    = Ideal.div (((vv : EReal) + (pp : EReal)) - Ideal.div (∑ i, (o i : EReal)) (nn : EReal))
        (Ideal.sqrt (Ideal.div (∑ i, ((o i : EReal) - Ideal.div (∑ j, (o j : EReal)) (nn : EReal))
          * ((o i : EReal) - Ideal.div (∑ j, (o j : EReal)) (nn : EReal))) (nn : EReal) + (e : EReal)))
        * (gg : EReal) + (bb : EReal) := by
  have hn0 : nn ≠ 0 := hn.ne'
  rw [LibBatchMoments.var_two_ways o nn hn0 hcard]
  have hmean : Ideal.div (∑ j, (o j : EReal)) (nn : EReal) = (((∑ j, o j) * (1 / nn) : ℝ) : EReal) := by
    rw [Ideal.div_coe hn0, ← LibBatchMoments.coe_sum, ← EReal.coe_mul]
  rw [hmean]
  have hdev : (∑ i, ((o i : EReal) - (((∑ j, o j) * (1 / nn) : ℝ) : EReal))
        * ((o i : EReal) - (((∑ j, o j) * (1 / nn) : ℝ) : EReal)))
      = ((∑ i, (o i - (∑ j, o j) * (1 / nn)) * (o i - (∑ j, o j) * (1 / nn)) : ℝ) : EReal) := by
    rw [LibBatchMoments.coe_sum]
    exact Finset.sum_congr rfl (fun i _ => by rw [← EReal.coe_sub, ← EReal.coe_mul])
  rw [hdev, Ideal.div_coe hn0, ← EReal.coe_mul, ← EReal.coe_add _ e]
  have hvar : 0 ≤ (∑ i, (o i - (∑ j, o j) * (1 / nn)) * (o i - (∑ j, o j) * (1 / nn))) * (1 / nn) :=
    mul_nonneg (Finset.sum_nonneg fun i _ => mul_self_nonneg _) (by positivity)
  have hpos : 0 < (∑ i, (o i - (∑ j, o j) * (1 / nn)) * (o i - (∑ j, o j) * (1 / nn))) * (1 / nn) + e := by
    linarith
  rw [Ideal.rsqrt_coe, if_neg (not_lt.mpr hpos.le), if_neg hpos.ne', Ideal.sqrt_coe, if_neg (not_lt.mpr hpos.le),
    Ideal.div_coe (Real.sqrt_pos.mpr hpos).ne']
  simp only [← EReal.coe_mul, ← EReal.coe_add, ← EReal.coe_sub]
  congr 1
  ring

/-- A triple sum over batch, row and column is the sum over the product of the three ranges. -/
theorem sum3_eq (f : Fin 128 → Fin 24 → Fin 24 → EReal) :
    ∑ b : Fin 128, ∑ h : Fin 24, ∑ w : Fin 24, f b h w
      = ∑ p : Fin 128 × Fin 24 × Fin 24, f p.1 p.2.1 p.2.2 := by
  rw [Fintype.sum_prod_type]
  refine Finset.sum_congr rfl fun b _ => ?_
  rw [Fintype.sum_prod_type]

/-- Batch × row × column has 128 · 24 · 24 = 73728 entries. -/
theorem card3 : (Fintype.card (Fin 128 × Fin 24 × Fin 24) : ℝ) = 73728 := by
  simp only [Fintype.card_prod, Fintype.card_fin]
  norm_num

/-- At one entry (batch b0, channel c, row h0, column w0) the folded form and the textbook form agree on real data. -/
theorem point_eq (v : Cert.Spec.SV.Idx → EReal) (rt ct : Cert.Spec.ST.Idx → EReal) (g b : Cert.Spec.SC.Idx → EReal)
    (hv : ∀ i, ∃ r : ℝ, v i = (r : EReal)) (hrt : ∀ i, ∃ r : ℝ, rt i = (r : EReal))
    (hct : ∀ i, ∃ r : ℝ, ct i = (r : EReal))
    (hg : ∀ i, ∃ r : ℝ, g i = (r : EReal)) (hb : ∀ i, ∃ r : ℝ, b i = (r : EReal))
    (b0 : Fin 128) (c : Fin 768) (h0 w0 : Fin 24) :
    v (ix4 b0 c h0 w0) * Cert.Spec.sc v rt ct g c + (Cert.Spec.pos rt ct c h0 w0 * Cert.Spec.sc v rt ct g c
      + (b (ix1 c) - Cert.Spec.mean v rt ct c * Cert.Spec.sc v rt ct g c))
    = Ideal.div (Cert.Spec.x v rt ct b0 c h0 w0 - Cert.Spec.mean v rt ct c)
        (Ideal.sqrt (Cert.Spec.varR v rt ct c + Cert.Spec.eps)) * g (ix1 c) + b (ix1 c) := by
  -- the positional term and the shifted entry are real numbers
  have hp : ∀ c h w, ∃ r : ℝ, Cert.Spec.pos rt ct c h w = (r : EReal) := by
    intro c h w
    obtain ⟨r1, h1⟩ := hrt (ix2 (⟨(c.val * 24 + h.val) / 768, by have := c.isLt; have := h.isLt; omega⟩ : Fin 100)
      (⟨(c.val * 24 + h.val) % 768, Nat.mod_lt _ (by norm_num)⟩ : Fin 768))
    obtain ⟨r2, h2⟩ := hct (ix2 (⟨(c.val * 24 + w.val) / 768, by have := c.isLt; have := w.isLt; omega⟩ : Fin 100)
      (⟨(c.val * 24 + w.val) % 768, Nat.mod_lt _ (by norm_num)⟩ : Fin 768))
    exact ⟨r1 + r2, by rw [Cert.Spec.pos, Cert.Spec.flat24, Cert.Spec.flat24, h1, h2, ← EReal.coe_add]⟩
  choose pr hpr using hp
  choose vr hvr using hv
  choose gr hgr using hg
  choose br hbr using hb
  have hx : ∀ bb c h w, Cert.Spec.x v rt ct bb c h w = ((vr (ix4 bb c h w) + pr c h w : ℝ) : EReal) := by
    intro bb c h w
    rw [Cert.Spec.x, hvr, hpr, ← EReal.coe_add]
  obtain ⟨e, he, hE⟩ := eps_pos_real
  have hxi : Cert.Spec.x v rt ct b0 c h0 w0 = (vr (ix4 b0 c h0 w0) : EReal) + (pr c h0 w0 : EReal) := by
    rw [Cert.Spec.x, hvr, hpr]
  have hmean : Cert.Spec.mean v rt ct c
      = Ideal.div (∑ p : Fin 128 × Fin 24 × Fin 24, ((vr (ix4 p.1 c p.2.1 p.2.2) + pr c p.2.1 p.2.2 : ℝ) : EReal))
          ((73728 : ℝ) : EReal) := by
    rw [Cert.Spec.mean, Cert.Spec.S1, n_val, sum3_eq]
    simp only [hx]
  have hvarK : Cert.Spec.varK v rt ct c
      = Ideal.div (∑ p : Fin 128 × Fin 24 × Fin 24, ((vr (ix4 p.1 c p.2.1 p.2.2) + pr c p.2.1 p.2.2 : ℝ) : EReal)
            * ((vr (ix4 p.1 c p.2.1 p.2.2) + pr c p.2.1 p.2.2 : ℝ) : EReal)) ((73728 : ℝ) : EReal)
        - Cert.Spec.mean v rt ct c * Cert.Spec.mean v rt ct c := by
    rw [Cert.Spec.varK, Cert.Spec.S2, n_val, sum3_eq]
    simp only [hx]
  have hvarR : Cert.Spec.varR v rt ct c
      = Ideal.div (∑ p : Fin 128 × Fin 24 × Fin 24,
          (((vr (ix4 p.1 c p.2.1 p.2.2) + pr c p.2.1 p.2.2 : ℝ) : EReal) - Cert.Spec.mean v rt ct c)
            * (((vr (ix4 p.1 c p.2.1 p.2.2) + pr c p.2.1 p.2.2 : ℝ) : EReal) - Cert.Spec.mean v rt ct c))
          ((73728 : ℝ) : EReal) := by
    rw [Cert.Spec.varR, n_val, sum3_eq]
    simp only [hx]
  rw [Cert.Spec.sc, hxi, hvarR, hvarK, hmean, hE, hvr, hpr, hgr, hbr]
  exact fold_generic (fun p : Fin 128 × Fin 24 × Fin 24 => vr (ix4 p.1 c p.2.1 p.2.2) + pr c p.2.1 p.2.2)
    73728 e (by norm_num) card3 he (vr (ix4 b0 c h0 w0)) (pr c h0 w0) (gr (ix1 c)) (br (ix1 c))

/-- On real data the folded form and the textbook form are the same function. -/
theorem kout_eq_rout (v : Cert.Spec.SV.Idx → EReal) (rt ct : Cert.Spec.ST.Idx → EReal) (g b : Cert.Spec.SC.Idx → EReal)
    (hv : ∀ i, ∃ r : ℝ, v i = (r : EReal)) (hrt : ∀ i, ∃ r : ℝ, rt i = (r : EReal))
    (hct : ∀ i, ∃ r : ℝ, ct i = (r : EReal))
    (hg : ∀ i, ∃ r : ℝ, g i = (r : EReal)) (hb : ∀ i, ∃ r : ℝ, b i = (r : EReal)) :
    Cert.Spec.kout v rt ct g b = Cert.Spec.rout v rt ct g b := by
  funext i
  have h := point_eq v rt ct g b hv hrt hct hg hb (i 0) (i 1) (i 2) (i 3)
  have e : v i = v (ix4 (i 0) (i 1) (i 2) (i 3)) := congrArg v (eq_ix4 i)
  exact (congrArg (fun z => z * Cert.Spec.sc v rt ct g (i 1) + (Cert.Spec.pos rt ct (i 1) (i 2) (i 3)
    * Cert.Spec.sc v rt ct g (i 1) + (b (ix1 (i 1)) - Cert.Spec.mean v rt ct (i 1) * Cert.Spec.sc v rt ct g (i 1)))) e).trans h

end Cert.Bridge

end
-- ==== Proof.Finite.lean ====
/-
  From the finiteness predicate to "every entry is a real number".

  The predicate is the conjunction, over the five arrays, of "all entries satisfy |x| < +∞". A conjunction of bits that
  is 1 has every bit 1; an all-reduction by "and" that is 1 had a 1 at every entry; and an extended real x with
  max x (−x) < ⊤ is neither ⊤ nor ⊥, hence a real number.
-/
import Mathlib
import Idealize.ShloMosaic.PureOps.Ideal
import Idealize.ShloMosaic.PureOps.Ideal.Laws
import Idealize.ShloMosaic.Lib.ValueIdx
import Idealize.ShloMosaic.Lib.ReduceAll
import proofs.«168955_g2362232013395_cont_8to1_2029_9_alg».proof.Pre_finite_inputs

noncomputable section

namespace Cert.Bridge

open Idealize.ShloMosaic

/-- The rank-0 shape has one index. -/
instance subsingleton_S_ : Subsingleton Cert.Pre_finite_inputs.S_.Idx := ⟨fun a b => funext fun d => d.elim0⟩

/-- The f32 word 0x7F800000 (sign 0, exponent all ones, fraction 0) denotes +∞. -/
theorem inf_val : Ideal.ofBits .f32 0x7F800000#32 = (⊤ : EReal) := by
  simp [Ideal.ofBits, Ideal.ieee]

/-- An extended real whose absolute value max x (−x) compares below +∞ is a real number: at ⊤ the maximum is ⊤, at ⊥
    it is −⊥ = ⊤, and ⊤ < ⊤ is false. -/
theorem real_of_abs_lt_inf (x : EReal)
    (h : Ideal.cmp .olt (max x (-x)) (Ideal.ofBits .f32 0x7F800000#32) = 1#1) : ∃ r : ℝ, x = (r : EReal) := by
  rw [inf_val] at h
  unfold Ideal.cmp at h
  induction x using EReal.rec with
  | bot => simp at h
  | coe r => exact ⟨r, rfl⟩
  | top => simp at h

/-- One array: if the all-reduction by "and" of the bits |a i| < +∞ is 1, every entry of a is a real number. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi (cmpf .olt (Host.absf a)
          (broadcastInDim s ![] hb (constant (F := Ideal) Cert.Pre_finite_inputs.S_ .f32 0x7F800000#32)))
        init hr hu ValueIdx.ix0 = 1#1) :
    ∀ i, ∃ r : ℝ, a i = (r : EReal) := by
  intro i
  have hi := Host.reduce_andi_all _ init hr hu ValueIdx.ix0 e i
  exact real_of_abs_lt_inf (a i) hi

/-- The finiteness predicate gives real witnesses for every entry of the five arrays. -/
theorem real_of_pre [Cert.Pre_finite_inputs.Facts]
    (a0 : FVec Ideal Cert.Pre_finite_inputs.S128x768x24x24 .f32)
    (a1 a2 : FVec Ideal Cert.Pre_finite_inputs.S100x768 .f32)
    (a3 a4 : FVec Ideal Cert.Pre_finite_inputs.S768 .f32)
    (h : Cert.Pre_finite_inputs.fn (F := Ideal) a0 a1 a2 a3 a4 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ _ _ h0', real_of_all a1 _ _ _ _ h1, real_of_all a2 _ _ _ _ h2,
    real_of_all a3 _ _ _ _ h3, real_of_all a4 _ _ _ _ h4⟩

end Cert.Bridge

end
-- ==== Proof.lean ====
/-
  The kernel normalises a video batch `v : [128, 768, 24, 24]` per channel after adding a positional term:
  with `x = v + pos`, `mean` and `var` the per-channel mean and biased variance of `x` over batch, rows and columns,
  the result is `(x - mean) / sqrt (var + ε) · g + b`.

  The reference computes exactly that, by host operations.  The kernel program computes it in two passes over the video
  laid out channel-last: the first accumulates per-channel sums of `x` and `x²` over sixteen blocks of eight batch
  entries; the second turns them into `mean`, `var = E[x²] - mean²`, a scale `sc = g · rsqrt (var + ε)` and a folded table
  `pos · sc + (b - mean · sc)`, kept across its 32 grid points, and writes `v · sc + table`.

  The two results agree at every index when the inputs are finite: the two spellings of the variance agree for real
  data, `rsqrt` of a positive real is the reciprocal of its square root, and the fold is ring algebra over the reals
  (it fails at the infinities, which is where the precondition is used).

  The three frames: each program runs to the end without a fault and leaves its arguments as launched — the kernel
  programs by the run of their segments (host operations, the two regions, host operations), the reference by its
  straight-line run.  The idealization rewrote nothing, so there is nothing to preserve beyond the text itself.
-/
import proofs.«168955_g2362232013395_cont_8to1_2029_9_alg».proof.Defs
import proofs.«168955_g2362232013395_cont_8to1_2029_9_alg».proof.Proof.Gen.Kernel
import proofs.«168955_g2362232013395_cont_8to1_2029_9_alg».proof.Proof.Gen.KernelIdeal
import proofs.«168955_g2362232013395_cont_8to1_2029_9_alg».proof.Proof.Gen.ReferenceIdeal
import proofs.«168955_g2362232013395_cont_8to1_2029_9_alg».proof.Proof.Gen.Pre_finite_inputs
import proofs.«168955_g2362232013395_cont_8to1_2029_9_alg».proof.Proof.KernelRun
import proofs.«168955_g2362232013395_cont_8to1_2029_9_alg».proof.Proof.KernelIdealRun
import proofs.«168955_g2362232013395_cont_8to1_2029_9_alg».proof.Proof.KernelIdealFinal
import proofs.«168955_g2362232013395_cont_8to1_2029_9_alg».proof.Proof.RefSide
import proofs.«168955_g2362232013395_cont_8to1_2029_9_alg».proof.Proof.Bridge
import proofs.«168955_g2362232013395_cont_8to1_2029_9_alg».proof.Proof.Finite

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Run.frame m ρ

theorem frame_ki : Cert.frame_KernelIdeal (hKernelIdeal := Cert.KernelIdeal.Gen.facts) (hPre_finite_inputs := Cert.Pre_finite_inputs.Gen.facts) :=
  fun m ρ _ => Cert.KernelIdeal.Run.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefSide.run m ρ)

/-- Both programs end, from memories agreeing on the arguments, with the same array: the kernel program at the folded
    form, the reference at the textbook form, equal at finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Final.run m ρ, ?_⟩
  refine (θ_run Cert.ReferenceIdeal.defs _ _).mono (fun _ h c => ⟨(h c).1.trans ?_, (h c).2⟩) (Cert.RefSide.run m' ρ')
  obtain ⟨hv, hrt, hct, hg, hb⟩ := @Cert.Bridge.real_of_pre Cert.Pre_finite_inputs.Gen.facts _ _ _ _ _ (hpre c)
  rw [(hagree c).1, (hagree c).2.1, (hagree c).2.2.1, (hagree c).2.2.2.1, (hagree c).2.2.2.2]
  exact (Cert.Bridge.kout_eq_rout _ _ _ _ _ hv hrt hct hg hb).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
